-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x768 : Shape := ⟨3, ![2, 4096, 768]⟩
abbrev S768x768 : Shape := ⟨2, ![768, 768]⟩
abbrev S_ : Shape := ⟨0, ![]⟩

class Facts : Prop where
  bcast_S_S2x4096x768 : S_.BroadcastsInDim S2x4096x768 (![] : Fin 0 → Fin S2x4096x768.rank)
  reducesTo_S2x4096x768_S_d0_1_2 : S2x4096x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_arg4 : FVec F S768x768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  main_v23

def fn {F : FTy → Type} [FloatOps F] (main_arg0 : FVec F S2x4096x768 .f32) (main_arg1 : FVec F S768x768 .f32) (main_arg2 : FVec F S768x768 .f32) (main_arg3 : FVec F S768x768 .f32) (main_arg4 : FVec F S768x768 .f32) : IVec S_ 1 :=
  let main_v0 : FVec F S2x4096x768 .f32 := Host.absf main_arg0
  let main_cst : FVec F S_ .f32 := constant S_ .f32 0x7F800000#32
  let main_v1 : FVec F S2x4096x768 .f32 := broadcastInDim S2x4096x768 ![] bcast_S_S2x4096x768 main_cst
  let main_v2 : IVec S2x4096x768 1 := cmpf .olt main_v0 main_v1
  let main_c : IVec S_ 1 := constantI S_ 1 1#1
  let main_v3 : IVec S_ 1 := (fun x v => Host.reduce IntOp.andi x v reducesTo_S2x4096x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S2x4096x768 : Shape := ⟨3, ![2, 4096, 768]⟩
abbrev S768x768 : Shape := ⟨2, ![768, 768]⟩
abbrev S1x1024x768 : Shape := ⟨3, ![1, 1024, 768]⟩
abbrev S1024x768 : Shape := ⟨2, ![1024, 768]⟩
abbrev S1x2048x768 : Shape := ⟨3, ![1, 2048, 768]⟩
abbrev S1x256x768 : Shape := ⟨3, ![1, 256, 768]⟩
abbrev S2048x768 : Shape := ⟨2, ![2048, 768]⟩
abbrev S256x768 : Shape := ⟨2, ![256, 768]⟩
abbrev S2048x256 : Shape := ⟨2, ![2048, 256]⟩

abbrev nBuf : Space → Nat
  | .hbm => 17
  | .vmem => 21
  | .smem => 0
  | _ => 0

abbrev bufTy : (tb : Table) → Fin (tcTables nBuf tb) → BufTy
  | .hbm, ⟨0, _⟩ => ⟨S2x4096x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S768x768, .f32⟩
  | .hbm, ⟨6, _⟩ => ⟨S768x768, .bf16⟩
  | .hbm, ⟨7, _⟩ => ⟨S768x768, .f32⟩
  | .hbm, ⟨8, _⟩ => ⟨S768x768, .bf16⟩
  | .hbm, ⟨9, _⟩ => ⟨S768x768, .f32⟩
  | .hbm, ⟨10, _⟩ => ⟨S768x768, .bf16⟩
  | .hbm, ⟨11, _⟩ => ⟨S768x768, .f32⟩
  | .hbm, ⟨12, _⟩ => ⟨S768x768, .bf16⟩
  | .hbm, ⟨13, _⟩ => ⟨S2x4096x768, .bf16⟩
  | .hbm, ⟨14, _⟩ => ⟨S2x4096x768, .bf16⟩
  | .hbm, ⟨15, _⟩ => ⟨S2x4096x768, .bf16⟩
  | .hbm, ⟨16, _⟩ => ⟨S2x4096x768, .f32⟩
  | .local _ .vmem, ⟨0, _⟩ => ⟨S1x1024x768, .f32⟩
  | .local _ .vmem, ⟨1, _⟩ => ⟨S1x1024x768, .f32⟩
  | .local _ .vmem, ⟨2, _⟩ => ⟨S768x768, .bf16⟩
  | .local _ .vmem, ⟨3, _⟩ => ⟨S768x768, .bf16⟩
  | .local _ .vmem, ⟨4, _⟩ => ⟨S768x768, .bf16⟩
  | .local _ .vmem, ⟨5, _⟩ => ⟨S1x1024x768, .bf16⟩
  | .local _ .vmem, ⟨6, _⟩ => ⟨S1x1024x768, .bf16⟩
  | .local _ .vmem, ⟨7, _⟩ => ⟨S1x1024x768, .bf16⟩
  | .local _ .vmem, ⟨8, _⟩ => ⟨S1x1024x768, .bf16⟩
  | .local _ .vmem, ⟨9, _⟩ => ⟨S1x1024x768, .bf16⟩
  | .local _ .vmem, ⟨10, _⟩ => ⟨S1x1024x768, .bf16⟩
  | .local _ .vmem, ⟨11, _⟩ => ⟨S1x2048x768, .bf16⟩
  | .local _ .vmem, ⟨12, _⟩ => ⟨S1x2048x768, .bf16⟩
  | .local _ .vmem, ⟨13, _⟩ => ⟨S1x256x768, .bf16⟩
  | .local _ .vmem, ⟨14, _⟩ => ⟨S1x256x768, .bf16⟩
  | .local _ .vmem, ⟨15, _⟩ => ⟨S1x256x768, .bf16⟩
  | .local _ .vmem, ⟨16, _⟩ => ⟨S1x256x768, .bf16⟩
  | .local _ .vmem, ⟨17, _⟩ => ⟨S768x768, .bf16⟩
  | .local _ .vmem, ⟨18, _⟩ => ⟨S1x2048x768, .f32⟩
  | .local _ .vmem, ⟨19, _⟩ => ⟨S1x2048x768, .f32⟩
  | .local _ .vmem, ⟨20, _⟩ => ⟨S2048x768, .f32⟩
  | _, _ => ⟨S2x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![2, 2, 16], ![false, false, false]⟩

def k1_cond2 (i : grid1.Coords) : BitVec 1 :=
  let arg2 : BitVec 32 := BitVec.ofNat 32 (i 2).val
  let c15_i32 : BitVec 32 := 15#32
  let v21 : BitVec 1 := Scalar.cmpi .eq arg2 c15_i32
  let v22 : BitVec 32 := Scalar.extui v21
  let c0_i32_15 : BitVec 32 := 0#32
  let v23 : BitVec 1 := Scalar.cmpi .ne v22 c0_i32_15
  v23

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x2048x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x256x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x256x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S768x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x2048x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  transposes_S768x768_S768x768_1_0 : S768x768.Transposes [1, 0] S768x768
  bitsLt_bf16_f32 : FTy.bits .bf16 < FTy.bits .f32
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  shapeCasts_S1024x768_S1x1024x768 : S1024x768.ShapeCasts S1x1024x768
  packedbf16_S1x1024x768_S1x1024x768_0_0_0 : (Rect.unit (s := S1x1024x768) ![0, 0, 0] S1x1024x768.size inb_S1x1024x768_S1x1024x768_0_0_0).PackedRows (EltTy.packing .bf16)
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  shapeCasts_S2048x768_S1x2048x768 : S2048x768.ShapeCasts S1x2048x768
  dot_S1024x768_S768x768_S1024x768_1_0_0_1_n_n_wf : DotDims.WF S1024x768 S768x768 S1024x768 [1] [0] [0] [1] [] []
  dot_S2048x768_S256x768_S2048x256_1_1_0_0_n_n_wf : DotDims.WF S2048x768 S256x768 S2048x256 [1] [1] [0] [0] [] []
  dot_S2048x256_S256x768_S2048x768_1_0_0_1_n_n_wf : DotDims.WF S2048x256 S256x768 S2048x768 [1] [0] [0] [1] [] []
  dot_S2048x768_S768x768_S2048x768_1_0_0_1_n_n_wf : DotDims.WF S2048x768 S768x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S2x4096x768.size a
  hwx0_0 : ∀ i : grid0.Coords, EltTy.bits .f32 = 32 ∨ (Rect.block (s := S2x4096x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x768.size a ≤ S2x4096x768.size a
  hwx0_4 : ∀ i : grid0.Coords, EltTy.bits .bf16 = 32 ∨ (Rect.block (s := S2x4096x768) S1x1024x768.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x768.size a ≤ S2x4096x768.size a
  hwx0_5 : ∀ i : grid0.Coords, EltTy.bits .bf16 = 32 ∨ (Rect.block (s := S2x4096x768) S1x1024x768.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x768.size a ≤ S2x4096x768.size a
  hwx0_6 : ∀ i : grid0.Coords, EltTy.bits .bf16 = 32 ∨ (Rect.block (s := S2x4096x768) S1x1024x768.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x768.size a ≤ S2x4096x768.size a
  hwx1_0 : ∀ i : grid1.Coords, EltTy.bits .bf16 = 32 ∨ (Rect.block (s := S2x4096x768) S1x2048x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x768.size a ≤ S2x4096x768.size a
  hwx1_1 : ∀ i : grid1.Coords, EltTy.bits .bf16 = 32 ∨ (Rect.block (s := S2x4096x768) S1x256x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x768.size a ≤ S2x4096x768.size a
  hwx1_2 : ∀ i : grid1.Coords, EltTy.bits .bf16 = 32 ∨ (Rect.block (s := S2x4096x768) S1x256x768.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x768.size a ≤ S768x768.size a
  hwx1_3 : ∀ i : grid1.Coords, EltTy.bits .bf16 = 32 ∨ (Rect.block (s := S768x768) S768x768.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x768.size a ≤ S2x4096x768.size a
  hwx1_4 : ∀ i : grid1.Coords, EltTy.bits .f32 = 32 ∨ (Rect.block (s := S2x4096x768) S1x2048x768.size (cc1_transform_4 i) (hinb1_4 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S2048x768_S256x768_S2048x256_1_1_0_0_n_n : DotDims S2048x768 S256x768 S2048x256 where
  lhsContracting := [1]
  rhsContracting := [1]
  lhsNonContracting := [0]
  rhsNonContracting := [0]
  lhsBatch := []
  rhsBatch := []
  wf := dot_S2048x768_S256x768_S2048x256_1_1_0_0_n_n_wf
def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S1x1024x768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S1x1024x768.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_2) S1x1024x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8_0) S1x2048x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S1x256x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8_2) S1x256x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S768x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x2048x768.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S2x4096x768 : Shape := ⟨3, ![2, 4096, 768]⟩
abbrev S768x768 : Shape := ⟨2, ![768, 768]⟩
abbrev S_ : Shape := ⟨0, ![]⟩
abbrev S2x4096x4096 : Shape := ⟨3, ![2, 4096, 4096]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S2x4096x768, .f32⟩
  | .hbm, ⟨6, _⟩ => ⟨S_, .f32⟩
  | .hbm, ⟨7, _⟩ => ⟨S2x4096x768, .f32⟩
  | .hbm, ⟨8, _⟩ => ⟨S2x4096x768, .f32⟩
  | .hbm, ⟨9, _⟩ => ⟨S2x4096x768, .f32⟩
  | .hbm, ⟨10, _⟩ => ⟨S_, .f32⟩
  | .hbm, ⟨11, _⟩ => ⟨S2x4096x768, .f32⟩
  | .hbm, ⟨12, _⟩ => ⟨S2x4096x768, .f32⟩
  | .hbm, ⟨13, _⟩ => ⟨S2x4096x768, .f32⟩
  | .hbm, ⟨14, _⟩ => ⟨S2x4096x4096, .f32⟩
  | .hbm, ⟨15, _⟩ => ⟨S_, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S2x4096x4096, .f32⟩
  | .hbm, ⟨20, _⟩ => ⟨S2x4096x768, .f32⟩
  | .hbm, ⟨21, _⟩ => ⟨S2x4096x768, .f32⟩
  | .hbm, ⟨22, _⟩ => ⟨S_, .f32⟩
  | .hbm, ⟨23, _⟩ => ⟨S2x4096x768, .f32⟩
  | .hbm, ⟨24, _⟩ => ⟨S2x4096x768, .f32⟩
  | _, _ => ⟨S2x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S2x4096x768 : S_.BroadcastsInDim S2x4096x768 (![] : Fin 0 → Fin S2x4096x768.rank)
  bcast_S_S2x4096x4096 : S_.BroadcastsInDim S2x4096x4096 (![] : Fin 0 → Fin S2x4096x4096.rank)
  dot_S2x4096x768_S768x768_S2x4096x768_2_1_01_0_n_n_wf : DotDims.WF S2x4096x768 S768x768 S2x4096x768 [2] [1] [0, 1] [0] [] []
  dot_S2x4096x768_S2x4096x768_S2x4096x4096_2_2_1_1_0_0_wf : DotDims.WF S2x4096x768 S2x4096x768 S2x4096x4096 [2] [2] [1] [1] [0] [0]
  dot_S2x4096x4096_S2x4096x768_S2x4096x768_2_1_1_2_0_0_wf : DotDims.WF S2x4096x4096 S2x4096x768 S2x4096x768 [2] [1] [1] [2] [0] [0]

variable [Facts₀]

def dot_S2x4096x768_S768x768_S2x4096x768_2_1_01_0_n_n : DotDims S2x4096x768 S768x768 S2x4096x768 where
  lhsContracting := [2]
  rhsContracting := [1]
  lhsNonContracting := [0, 1]
  rhsNonContracting := [0]
  lhsBatch := []
  rhsBatch := []
  wf := dot_S2x4096x768_S768x768_S2x4096x768_2_1_01_0_n_n_wf
def dot_S2x4096x768_S2x4096x768_S2x4096x4096_2_2_1_1_0_0 : DotDims S2x4096x768 S2x4096x768 S2x4096x4096 where
  lhsContracting := [2]
  rhsContracting := [2]
  lhsNonContracting := [1]
  rhsNonContracting := [1]
  lhsBatch := [0]
  rhsBatch := [0]
  wf := dot_S2x4096x768_S2x4096x768_S2x4096x4096_2_2_1_1_0_0_wf
def dot_S2x4096x4096_S2x4096x768_S2x4096x768_2_1_1_2_0_0 : DotDims S2x4096x4096 S2x4096x768 S2x4096x768 where
  lhsContracting := [2]
  rhsContracting := [1]
  lhsNonContracting := [1]
  rhsNonContracting := [2]
  lhsBatch := [0]
  rhsBatch := [0]
  wf := dot_S2x4096x4096_S2x4096x768_S2x4096x768_2_1_1_2_0_0_wf

class Facts : Prop extends Facts₀ where

variable [Facts]
-- ==== Proof.FrameB.Region0.lean ====
/-
  Region 0 of @main: the projection kernel on the grid (2, 4). At a point (b, si) the body reads a [1, 1024, 768]
  block of x and the three transposed 768 x 768 weight matrices whole, and stores three [1, 1024, 768] blocks: the
  block of x times each matrix (the first two scaled by the f32 word nearest one tenth). It keeps nothing between
  points and every store covers its block, so what each output block holds after the body is one function of the
  input blocks at that point. This module states that function, proves the body's triple against it, and bundles
  the proof data and the body obligation of the pipeline, for any float instance and for ANY contents `V` of the
  core's buffers at the region's entry.
-/
import proofs.«126650_j7679401525929_2_alg».proof.Proof.Gen.Kernel.Launch
import proofs.«126650_j7679401525929_2_alg».proof.Proof.Gen.Kernel.Skeleton
import proofs.«126650_j7679401525929_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- The whole [1, 1024, 768] staging block and the whole 768 x 768 matrix, as rectangles. -/
abbrev rAct0 : Rect S1x1024x768 := Rect.unit (s := S1x1024x768) ![0, 0, 0] S1x1024x768.size inb_S1x1024x768_S1x1024x768_0_0_0
abbrev rMat0 : Rect S768x768 := Rect.unit (s := S768x768) ![0, 0] S768x768.size inb_S768x768_S768x768_0_0

/-! ## What the body leaves in each output window's buffer -/

/-- The query block: the block of x against the first matrix, scaled (the skeleton's second payload), stored whole. -/
def out0_4 (x0 : Vec F S1x1024x768 .f32) (x1 : Vec F S768x768 .bf16) : Vec F S1x1024x768 .bf16 :=
  View.canon [⟨rAct0, k0_pay2 (View.ld x0 rAct0) (View.ld x1 rMat0)⟩]
/-- The key block: the same with the second matrix. -/
def out0_5 (x0 : Vec F S1x1024x768 .f32) (x2 : Vec F S768x768 .bf16) : Vec F S1x1024x768 .bf16 :=
  View.canon [⟨rAct0, k0_pay3 (View.ld x0 rAct0) (View.ld x2 rMat0)⟩]
/-- The value block: the block of x against the third matrix, unscaled. -/
def out0_6 (x0 : Vec F S1x1024x768 .f32) (x3 : Vec F S768x768 .bf16) : Vec F S1x1024x768 .bf16 :=
  View.canon [⟨rAct0, k0_pay4 (View.ld x0 rAct0) (View.ld x3 rMat0)⟩]

/-- One whole-block store covers the block. -/
theorem cover0_out (p0 : Vec F S1x1024x768 .bf16) (y : S1x1024x768.Idx) :
    ∃ pc ∈ ([⟨rAct0, p0⟩] : List (View.Piece (Elt F) S1x1024x768 .bf16)), y ∈ pc.1.set :=
  View.cover_of_tiled [⟨rAct0, p0⟩] S1x1024x768.size (by rfl) y

/-! ## The body's triple -/

set_option maxHeartbeats 4000000 in
/-- The body on whole staging memrefs — the four inputs' at read contents, the three outputs' at anything — runs to
    the continuation holding the inputs' as they were and each output's at its function of the inputs. -/
theorem sound_kernel0 (c : Dev nD) (E : Set ℕ) (i : grid0.Coords)
    (arg2 : Memref sig .tc .vmem S1x1024x768 .f32) (harg2 : arg2.IsWhole)
    (arg3 : Memref sig .tc .vmem S768x768 .bf16) (harg3 : arg3.IsWhole)
    (arg4 : Memref sig .tc .vmem S768x768 .bf16) (harg4 : arg4.IsWhole)
    (arg5 : Memref sig .tc .vmem S768x768 .bf16) (harg5 : arg5.IsWhole)
    (arg6 : Memref sig .tc .vmem S1x1024x768 .bf16) (harg6 : arg6.IsWhole)
    (arg7 : Memref sig .tc .vmem S1x1024x768 .bf16) (harg7 : arg7.IsWhole)
    (arg8 : Memref sig .tc .vmem S1x1024x768 .bf16) (harg8 : arg8.IsWhole)
    (x0 : Vec F S1x1024x768 .f32) (x1 x2 x3 : Vec F S768x768 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E (cc0__qkv_kernel i arg2 harg2 arg3 harg3 arg4 harg4 arg5 harg5 arg6 harg6 arg7 harg7 arg8 harg8) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_out _)
  isplitl [H5]
  · iexists _; isplitr
    swap; · iexact H5
    ipureintro
    exact View.read_writes_eq_canon _ _ _ (cover0_out _)
  iexists _; isplitr
  swap; · iexact H6
  ipureintro
  exact View.read_writes_eq_canon _ _ _ (cover0_out _)

/-! ## The pipeline's proof data -/

/-- The proof data of pipeline 0 on core `c`: the arrays as the region finds them; after the body at point `t` each
    input's buffer at its block and each output's at its function of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FrameB.Region1Base.lean ====
/- Region 1 (the attention kernel, grid 2 × 2 × 16): what its three control cases share. The kernel zeroes its
   accumulator at the first k-tile of a (batch, q-block) pair, adds one k-tile's contribution at every point, and
   stores the projected output at the last k-tile only. Here: each window's block at a point, the two branch
   conditions in closed form, where the output window is idle, and the region invariant with the accumulator
   singled out. -/
import proofs.«126650_j7679401525929_2_alg».proof.Proof.Gen.Kernel.Launch
import proofs.«126650_j7679401525929_2_alg».proof.Proof.Gen.Kernel.Skeleton
import proofs.«126650_j7679401525929_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first k-tile": the kernel's test `ki = 0` as it computes it from the grid coordinates. -/
abbrev isFirst (i : grid1.Coords) : Prop :=
  (Scalar.cmpi .ne (Scalar.extui (Scalar.cmpi .eq (BitVec.ofNat 32 (i 2).val) 0#32)) 0#32) = 1#1
/-- It holds exactly at the points ≡ 0 (mod 16). -/
theorem isFirst_iff : ∀ t : Fin cfg1.N, isFirst (grid1.coords t) ↔ t.val % 16 = 0 :=
  (by decide +kernel : ∀ t : Fin grid1.N, isFirst (grid1.coords t) ↔ t.val % 16 = 0)

/-- "This is the last k-tile": the kernel's test `ki = 15`. -/
abbrev isLast (i : grid1.Coords) : Prop := k1_cond2 i = 1#1
/-- It holds exactly at the points ≡ 15 (mod 16). -/
theorem isLast_iff : ∀ t : Fin cfg1.N, isLast (grid1.coords t) ↔ t.val % 16 = 15 :=
  (by decide +kernel : ∀ t : Fin grid1.N, isLast (grid1.coords t) ↔ t.val % 16 = 15)

/-! ## Where the windows are idle -/

theorem live_q : ∀ t : Fin cfg1.N, cfg1.idle 0 (grid1.coords t) = false := fun _ => rfl
theorem live_k : ∀ t : Fin cfg1.N, cfg1.idle 1 (grid1.coords t) = false := fun _ => rfl
theorem live_v : ∀ t : Fin cfg1.N, cfg1.idle 2 (grid1.coords t) = false := fun _ => rfl
theorem live_wo : ∀ t : Fin cfg1.N, cfg1.idle 3 (grid1.coords t) = false := fun _ => rfl
/-- Away from the last k-tile the output window is idle (nothing is stored into it) -/
theorem out_idle : ∀ t : Fin cfg1.N, ¬isLast (grid1.coords t) → cfg1.idle 4 (grid1.coords t) = true := by decide +kernel
/-- and is not written back. -/
theorem out_noFlush : ∀ t : Fin cfg1.N, ¬isLast (grid1.coords t) → (cfg1.win 4).flush t = false := by decide +kernel
/-- At the last k-tile it is live. -/
theorem out_live : ∀ t : Fin cfg1.N, isLast (grid1.coords t) → cfg1.idle 4 (grid1.coords t) = false := by decide +kernel

/-! ## The memrefs the body is called with -/

abbrev qM (t : Fin cfg1.N) : Memref sig .tc .vmem S1x2048x768 .bf16 := win1_0.stage (cfg1.slots t 0)
abbrev qW (t : Fin cfg1.N) : (qM t).IsWhole := hstage1_0 ((cfg1.slots t 0).cast nbuf1_0)
abbrev kM (t : Fin cfg1.N) : Memref sig .tc .vmem S1x256x768 .bf16 := win1_1.stage (cfg1.slots t 1)
abbrev kW (t : Fin cfg1.N) : (kM t).IsWhole := hstage1_1 ((cfg1.slots t 1).cast nbuf1_1)
abbrev vM (t : Fin cfg1.N) : Memref sig .tc .vmem S1x256x768 .bf16 := win1_2.stage (cfg1.slots t 2)
abbrev vW (t : Fin cfg1.N) : (vM t).IsWhole := hstage1_2 ((cfg1.slots t 2).cast nbuf1_2)
abbrev woM (t : Fin cfg1.N) : Memref sig .tc .vmem S768x768 .bf16 := win1_3.stage (cfg1.slots t 3)
abbrev woW (t : Fin cfg1.N) : (woM t).IsWhole := hstage1_3 ((cfg1.slots t 3).cast nbuf1_3)
abbrev outM (t : Fin cfg1.N) : Memref sig .tc .vmem S1x2048x768 .f32 := win1_4.stage (cfg1.slots t 4)
abbrev outW (t : Fin cfg1.N) : (outM t).IsWhole := hstage1_4 ((cfg1.slots t 4).cast nbuf1_4)
/-- The accumulator: a whole scoped buffer of the kernel's own, carried from point to point. -/
abbrev scM1_0 : Memref sig .tc .vmem S2048x768 .f32 := Memref.whole cc1_scratch0
/-- The accumulator and one staging buffer of the output window as views: contents are stated through them. -/
abbrev accV : View sig .tc .vmem S2048x768 .f32 := scM1_0.view
abbrev outV : View sig .tc .vmem S1x2048x768 .f32 := (Memref.whole cc1_stg4_0 : Memref sig .tc .vmem S1x2048x768 .f32).view

/-! ## The region invariant with the accumulator singled out -/

/-- The eleven staging buffers of the other pallas_call, each whole at some contents: scoped buffers this region
    never touches. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- Twelve conjuncts and one more, regrouped: the first eleven, then the twelfth and the last. -/
theorem regroup12 (A0 A1 A2 A3 A4 A5 A6 A7 A8 A9 A10 S G : sProp 𝕄) :
    iprop((A0 ∗ A1 ∗ A2 ∗ A3 ∗ A4 ∗ A5 ∗ A6 ∗ A7 ∗ A8 ∗ A9 ∗ A10 ∗ S) ∗ G)
      = iprop((A0 ∗ A1 ∗ A2 ∗ A3 ∗ A4 ∗ A5 ∗ A6 ∗ A7 ∗ A8 ∗ A9 ∗ A10) ∗ S ∗ G) := by
  have h₁ : iprop((A0 ∗ A1 ∗ A2 ∗ A3 ∗ A4 ∗ A5 ∗ A6 ∗ A7 ∗ A8 ∗ A9 ∗ A10 ∗ S) ∗ G)
      ⊢ iprop((A0 ∗ A1 ∗ A2 ∗ A3 ∗ A4 ∗ A5 ∗ A6 ∗ A7 ∗ A8 ∗ A9 ∗ A10) ∗ S ∗ G) := by
    iintro ⟨⟨H0, H1, H2, H3, H4, H5, H6, H7, H8, H9, H10, HS⟩, Hg⟩
    isplitr [HS Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [HS]; · iexact HS
    iexact Hg
  have h₂ : iprop((A0 ∗ A1 ∗ A2 ∗ A3 ∗ A4 ∗ A5 ∗ A6 ∗ A7 ∗ A8 ∗ A9 ∗ A10) ∗ S ∗ G)
      ⊢ iprop((A0 ∗ A1 ∗ A2 ∗ A3 ∗ A4 ∗ A5 ∗ A6 ∗ A7 ∗ A8 ∗ A9 ∗ A10 ∗ S) ∗ G) := by
    iintro ⟨⟨H0, H1, H2, H3, H4, H5, H6, H7, H8, H9, H10⟩, HS, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact HS
    iexact Hg
  exact BI.equiv_iff.mp ⟨h₁, h₂⟩

/-- The region invariant is: those eleven, the accumulator owned at some contents, the generator register at some
    state. -/
theorem PhiA1_eq (c : Dev nD) :
    (Pipeline.ΦA spec1 c : sProp 𝕄)
      = iprop(others1 (F := F) c ∗ (∃ d, owns (c : Thread nD τ) scM1_0 fullShare d) ∗ (∃ r, prngReg c r)) := by
  unfold Pipeline.ΦA others1; rw [scopedRest1_eq]; simp only [scM1_0, owns_whole]
  exact regroup12 _ _ _ _ _ _ _ _ _ _ _ _ _

/-! ## The windows' blocks at the region's entry contents -/

section AtEntry
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is the entry contents and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end AtEntry

end Cert.Kernel.Hand

end
-- ==== Proof.FrameB.Run1A.lean ====
/- Region 1, the FIRST k-tile of a (batch, q-block) pair: the kernel zeroes the accumulator, then adds this tile's
   contribution; the output window is not stored into. The body's triple on any whole memrefs, with the pieces the
   accumulator ends with as the witness. -/
import proofs.«126650_j7679401525929_2_alg».proof.Proof.FrameB.Region1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the four inputs at their contents, the output's at contents handed back untouched, the
    accumulator at anything — the body runs to a continuation holding the inputs and the output as they were and the
    accumulator with the pieces `LS0` written (last store first). -/
noncomputable def runFirst (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : isFirst i) (hc1 : ¬isLast i)
    (x0 : Vec F S1x2048x768 .bf16) (x1 : Vec F S1x256x768 .bf16) (x2 : Vec F S1x256x768 .bf16) (x3 : Vec F S768x768 .bf16) :
    Σ' (L4 : List (View.Piece (Elt F) S1x2048x768 .f32)), { LS0 : List (View.Piece (Elt F) S2048x768 .f32) //
      ∀ (xi4 : Vec F S1x2048x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8) K } := by
  refine ⟨[], ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.FrameB.Run1B.lean ====
/- Region 1, a MIDDLE k-tile: the kernel adds this tile's contribution to the accumulator the point before left; the
   output window is not stored into. -/
import proofs.«126650_j7679401525929_2_alg».proof.Proof.FrameB.Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the four inputs at their contents, the output's at contents handed back untouched, the
    accumulator at `xs0` — the body runs to a continuation holding the inputs and the output as they were and the
    accumulator with the pieces `LS0` written. -/
noncomputable def runMiddle (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : ¬isFirst i) (hc1 : ¬isLast i)
    (x0 : Vec F S1x2048x768 .bf16) (x1 : Vec F S1x256x768 .bf16) (x2 : Vec F S1x256x768 .bf16) (x3 : Vec F S768x768 .bf16) (xs0 : Vec F S2048x768 .f32) :
    Σ' (L4 : List (View.Piece (Elt F) S1x2048x768 .f32)), { LS0 : List (View.Piece (Elt F) S2048x768 .f32) //
      ∀ (xi4 : Vec F S1x2048x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8) K } := by
  refine ⟨[], ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.FrameB.Run1C.lean ====
/- Region 1, the LAST k-tile of a (batch, q-block) pair: the kernel adds this tile's contribution to the accumulator
   and stores the accumulator, projected through Woᵀ and scaled, into the output window. -/
import proofs.«126650_j7679401525929_2_alg».proof.Proof.FrameB.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the four inputs at their contents, the output's at anything, the accumulator at `xs0` — the
    body runs to a continuation holding the inputs as they were, the output's buffer with the pieces `L4` written
    and the accumulator with the pieces `LS0` written. -/
noncomputable def runLast (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : ¬isFirst i) (hc1 : isLast i)
    (x0 : Vec F S1x2048x768 .bf16) (x1 : Vec F S1x256x768 .bf16) (x2 : Vec F S1x256x768 .bf16) (x3 : Vec F S768x768 .bf16) (xs0 : Vec F S2048x768 .f32) :
    Σ' (L4 : List (View.Piece (Elt F) S1x2048x768 .f32)), { LS0 : List (View.Piece (Elt F) S2048x768 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Hand

end
-- ==== Proof.FrameB.Region1Pieces.lean ====
/- Region 1: what the three cases' stores leave, in closed form. Every store of the kernel covers its whole buffer and
   every load reads a whole buffer, so the last store's payload is what a buffer ends with, over the loaded contents
   themselves: the accumulator ends at this tile's contribution added to zero (first k-tile) or to what it held
   (later k-tiles), the output buffer at the accumulator projected and scaled. -/
import proofs.«126650_j7679401525929_2_alg».proof.Proof.FrameB.Run1C
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The first k-tile -/

/-- The accumulator's pieces cover it. -/
theorem cover_acc_first (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : isFirst i) (hc1 : ¬isLast i)
    (x0 : Vec F S1x2048x768 .bf16) (x1 : Vec F S1x256x768 .bf16) (x2 : Vec F S1x256x768 .bf16) (x3 : Vec F S768x768 .bf16) (y : S2048x768.Idx) :
    ∃ pc ∈ (runFirst c i arg3 harg3 arg4 harg4 arg5 harg5 arg6 harg6 arg7 harg7 arg8 harg8 hc0 hc1 x0 x1 x2 x3).2.1, y ∈ pc.1.set :=
  View.cover_of_tiledL (runFirst c i arg3 harg3 arg4 harg4 arg5 harg5 arg6 harg6 arg7 harg7 arg8 harg8 hc0 hc1 x0 x1 x2 x3).2.1 S2048x768.size (by sl_kernel_rfl) y

/-- The accumulator ends at this tile's contribution added to the zero tile. -/
theorem acc_after_first (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : isFirst i) (hc1 : ¬isLast i)
    (x0 : Vec F S1x2048x768 .bf16) (x1 : Vec F S1x256x768 .bf16) (x2 : Vec F S1x256x768 .bf16) (x3 : Vec F S768x768 .bf16) (v : View sig .tc .vmem S2048x768 .f32) (f : v.ty.Contents (Elt F)) :
    v.read (Elt F) (v.writes (Elt F) f (runFirst c i arg3 harg3 arg4 harg4 arg5 harg5 arg6 harg6 arg7 harg7 arg8 harg8 hc0 hc1 x0 x1 x2 x3).2.1)
      = k1_pay2 x0 x1 x2 (k1_pay1 (F := F)) := by
  rw [View.read_writes_eq_canon _ _ _ (cover_acc_first c i arg3 harg3 arg4 harg4 arg5 harg5 arg6 harg6 arg7 harg7 arg8 harg8 hc0 hc1 x0 x1 x2 x3)]
  unfold runFirst
  dsimp only
  sl_unfold_words
  rw [View.canon_cons_unit_zero (S := S2048x768) zeros2, View.readCov_unit_zero (S := S2048x768) _ zeros2]
  simp only [View.readAt_eq_ld, harg3.read_unread, harg4.read_unread, harg5.read_unread, View.ld_unit_zero (S := S1x2048x768) zeros3, View.ld_unit_zero (S := S1x256x768) zeros3]

/-! ## A middle k-tile -/

theorem cover_acc_middle (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : ¬isFirst i) (hc1 : ¬isLast i)
    (x0 : Vec F S1x2048x768 .bf16) (x1 : Vec F S1x256x768 .bf16) (x2 : Vec F S1x256x768 .bf16) (x3 : Vec F S768x768 .bf16) (xs0 : Vec F S2048x768 .f32) (y : S2048x768.Idx) :
    ∃ pc ∈ (runMiddle c i arg3 harg3 arg4 harg4 arg5 harg5 arg6 harg6 arg7 harg7 arg8 harg8 hc0 hc1 x0 x1 x2 x3 xs0).2.1, y ∈ pc.1.set :=
  View.cover_of_tiledL (runMiddle c i arg3 harg3 arg4 harg4 arg5 harg5 arg6 harg6 arg7 harg7 arg8 harg8 hc0 hc1 x0 x1 x2 x3 xs0).2.1 S2048x768.size (by sl_kernel_rfl) y

/-- The accumulator ends at this tile's contribution added to what it held. -/
theorem acc_after_middle (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : ¬isFirst i) (hc1 : ¬isLast i)
    (x0 : Vec F S1x2048x768 .bf16) (x1 : Vec F S1x256x768 .bf16) (x2 : Vec F S1x256x768 .bf16) (x3 : Vec F S768x768 .bf16) (xs0 : Vec F S2048x768 .f32) (v : View sig .tc .vmem S2048x768 .f32) (f : v.ty.Contents (Elt F)) :
    v.read (Elt F) (v.writes (Elt F) f (runMiddle c i arg3 harg3 arg4 harg4 arg5 harg5 arg6 harg6 arg7 harg7 arg8 harg8 hc0 hc1 x0 x1 x2 x3 xs0).2.1)
      = k1_pay2 x0 x1 x2 xs0 := by
  rw [View.read_writes_eq_canon _ _ _ (cover_acc_middle c i arg3 harg3 arg4 harg4 arg5 harg5 arg6 harg6 arg7 harg7 arg8 harg8 hc0 hc1 x0 x1 x2 x3 xs0)]
  unfold runMiddle
  dsimp only
  sl_unfold_words
  rw [View.canon_unit_zero (S := S2048x768) zeros2]
  simp only [View.readAt_eq_ld, harg3.read_unread, harg4.read_unread, harg5.read_unread, harg8.read_unread, View.ld_unit_zero (S := S1x2048x768) zeros3, View.ld_unit_zero (S := S1x256x768) zeros3, View.ld_unit_zero (S := S2048x768) zeros2]

/-! ## The last k-tile -/

theorem cover_acc_last (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : ¬isFirst i) (hc1 : isLast i)
    (x0 : Vec F S1x2048x768 .bf16) (x1 : Vec F S1x256x768 .bf16) (x2 : Vec F S1x256x768 .bf16) (x3 : Vec F S768x768 .bf16) (xs0 : Vec F S2048x768 .f32) (y : S2048x768.Idx) :
    ∃ pc ∈ (runLast c i arg3 harg3 arg4 harg4 arg5 harg5 arg6 harg6 arg7 harg7 arg8 harg8 hc0 hc1 x0 x1 x2 x3 xs0).2.1, y ∈ pc.1.set :=
  View.cover_of_tiledL (runLast c i arg3 harg3 arg4 harg4 arg5 harg5 arg6 harg6 arg7 harg7 arg8 harg8 hc0 hc1 x0 x1 x2 x3 xs0).2.1 S2048x768.size (by sl_kernel_rfl) y

theorem cover_out_last (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : ¬isFirst i) (hc1 : isLast i)
    (x0 : Vec F S1x2048x768 .bf16) (x1 : Vec F S1x256x768 .bf16) (x2 : Vec F S1x256x768 .bf16) (x3 : Vec F S768x768 .bf16) (xs0 : Vec F S2048x768 .f32) (y : S1x2048x768.Idx) :
    ∃ pc ∈ (runLast c i arg3 harg3 arg4 harg4 arg5 harg5 arg6 harg6 arg7 harg7 arg8 harg8 hc0 hc1 x0 x1 x2 x3 xs0).1, y ∈ pc.1.set :=
  View.cover_of_tiledL (runLast c i arg3 harg3 arg4 harg4 arg5 harg5 arg6 harg6 arg7 harg7 arg8 harg8 hc0 hc1 x0 x1 x2 x3 xs0).1 S1x2048x768.size (by sl_kernel_rfl) y

/-- The accumulator ends at this tile's contribution added to what it held, -/
theorem acc_after_last (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : ¬isFirst i) (hc1 : isLast i)
    (x0 : Vec F S1x2048x768 .bf16) (x1 : Vec F S1x256x768 .bf16) (x2 : Vec F S1x256x768 .bf16) (x3 : Vec F S768x768 .bf16) (xs0 : Vec F S2048x768 .f32) (v : View sig .tc .vmem S2048x768 .f32) (f : v.ty.Contents (Elt F)) :
    v.read (Elt F) (v.writes (Elt F) f (runLast c i arg3 harg3 arg4 harg4 arg5 harg5 arg6 harg6 arg7 harg7 arg8 harg8 hc0 hc1 x0 x1 x2 x3 xs0).2.1)
      = k1_pay2 x0 x1 x2 xs0 := by
  rw [View.read_writes_eq_canon _ _ _ (cover_acc_last c i arg3 harg3 arg4 harg4 arg5 harg5 arg6 harg6 arg7 harg7 arg8 harg8 hc0 hc1 x0 x1 x2 x3 xs0)]
  unfold runLast
  dsimp only
  sl_unfold_words
  rw [View.canon_unit_zero (S := S2048x768) zeros2]
  simp only [View.readAt_eq_ld, harg3.read_unread, harg4.read_unread, harg5.read_unread, harg8.read_unread, View.ld_unit_zero (S := S1x2048x768) zeros3, View.ld_unit_zero (S := S1x256x768) zeros3, View.ld_unit_zero (S := S2048x768) zeros2]

/-- and the output buffer at that accumulator projected through Woᵀ and scaled. -/
theorem out_after_last (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : ¬isFirst i) (hc1 : isLast i)
    (x0 : Vec F S1x2048x768 .bf16) (x1 : Vec F S1x256x768 .bf16) (x2 : Vec F S1x256x768 .bf16) (x3 : Vec F S768x768 .bf16) (xs0 : Vec F S2048x768 .f32) (v : View sig .tc .vmem S1x2048x768 .f32) (f : v.ty.Contents (Elt F)) :
    v.read (Elt F) (v.writes (Elt F) f (runLast c i arg3 harg3 arg4 harg4 arg5 harg5 arg6 harg6 arg7 harg7 arg8 harg8 hc0 hc1 x0 x1 x2 x3 xs0).1)
      = k1_pay3 (k1_pay2 x0 x1 x2 xs0) x3 := by
  rw [View.read_writes_eq_canon _ _ _ (cover_out_last c i arg3 harg3 arg4 harg4 arg5 harg5 arg6 harg6 arg7 harg7 arg8 harg8 hc0 hc1 x0 x1 x2 x3 xs0)]
  unfold runLast
  dsimp only
  sl_unfold_words
  rw [View.canon_unit_zero (S := S1x2048x768) zeros3, View.readCov_unit_zero (S := S2048x768) _ zeros2]
  simp only [View.readAt_eq_ld, harg3.read_unread, harg4.read_unread, harg5.read_unread, harg6.read_unread, harg8.read_unread, View.ld_unit_zero (S := S1x2048x768) zeros3, View.ld_unit_zero (S := S1x256x768) zeros3, View.ld_unit_zero (S := S2048x768) zeros2, View.ld_unit_zero (S := S768x768) zeros2]

end Cert.Kernel.Hand

end
-- ==== Proof.FrameB.Region1.lean ====
/- Region 1 (the attention kernel) at the contents V the TensorCore's buffers hold when the region is entered:
   what the accumulator and the output window's buffer hold after each grid point, the proof data of the pipeline,
   and the body obligation. The accumulator after a point is this k-tile's contribution added to the zero tile
   (first k-tile of a (batch, q-block) pair) or to what the point before left (later k-tiles); the output buffer
   after the last k-tile is the accumulator projected and scaled. -/
import proofs.«126650_j7679401525929_2_alg».proof.Proof.FrameB.Region1Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtEntry
variable (V : (c : Dev nD) → (b : Ref sig .tc) → Buf (Elt F) ((c : Thread nD τ).loc b))

/-! ## What the accumulator and the output buffer hold after each point -/

/-- The accumulator after the body at position `n`: the contribution of the point's q, k, v blocks added to zero
    where a new (batch, q-block) pair starts (positions ≡ 0 mod 16), and to the accumulator of the position before
    elsewhere. -/
def accAt1 (c : Dev nD) : (n : ℕ) → n < cfg1.N → Vec F S2048x768 .f32
  | 0, hn => k1_pay2 (iblk1 V c 0 ⟨0, hn⟩) (iblk1 V c 1 ⟨0, hn⟩) (iblk1 V c 2 ⟨0, hn⟩) (k1_pay1 (F := F))
  | n + 1, hn =>
    if (n + 1) % 16 = 0 then
      k1_pay2 (iblk1 V c 0 ⟨n + 1, hn⟩) (iblk1 V c 1 ⟨n + 1, hn⟩) (iblk1 V c 2 ⟨n + 1, hn⟩) (k1_pay1 (F := F))
    else
      k1_pay2 (iblk1 V c 0 ⟨n + 1, hn⟩) (iblk1 V c 1 ⟨n + 1, hn⟩) (iblk1 V c 2 ⟨n + 1, hn⟩) (accAt1 c n (Nat.lt_of_succ_lt hn))

/-- After the body at position `n`: (the output window's staging buffer, the accumulator). The first component is
    the accumulator projected through Woᵀ and scaled; it is what the buffer holds at the last k-tile of a pair, the
    only points at which the window is live (elsewhere nothing reads it). -/
def outsAt1 (c : Dev nD) : (n : ℕ) → n < cfg1.N → Vec F S1x2048x768 .f32 × Vec F S2048x768 .f32 :=
  fun n hn => (k1_pay3 (accAt1 V c n hn) (iblk1 V c 3 ⟨n, hn⟩), accAt1 V c n hn)

/-- The accumulator after a point that starts a (batch, q-block) pair. -/
theorem acc_first (c : Dev nD) (t : Fin cfg1.N) (h : t.val % 16 = 0) :
    (outsAt1 V c t.val t.isLt).2 = k1_pay2 (iblk1 V c 0 t) (iblk1 V c 1 t) (iblk1 V c 2 t) (k1_pay1 (F := F)) := by
  obtain ⟨n, hn⟩ := t
  cases n with
  | zero => rfl
  | succ n => exact if_pos h

/-- The accumulator after any later point: over what the point before left. -/
theorem acc_later (c : Dev nD) (t : Fin cfg1.N) (h : ¬t.val % 16 = 0) :
    (outsAt1 V c t.val t.isLt).2 = k1_pay2 (iblk1 V c 0 t) (iblk1 V c 1 t) (iblk1 V c 2 t)
      (outsAt1 V c (t.val - 1) (Nat.lt_of_le_of_lt (Nat.sub_le _ _) t.isLt)).2 := by
  obtain ⟨n, hn⟩ := t
  cases n with
  | zero => exact absurd (Nat.zero_mod _) h
  | succ n => exact (if_neg h).trans rfl

/-- The output buffer after a point: the accumulator that point leaves, projected and scaled. -/
theorem out_eq (c : Dev nD) (t : Fin cfg1.N) :
    (outsAt1 V c t.val t.isLt).1 = k1_pay3 (outsAt1 V c t.val t.isLt).2 (iblk1 V c 3 t) := rfl

/-! ## The region invariant point by point -/

/-- Before position `n`: at the region's entry the class's invariant (every scoped non-staging buffer at
    anything); afterwards the other pallas_call's staging buffers at anything, the accumulator at what the point
    before left, the generator register at some state. -/
def PhiS1 (c : Dev nD) : (n : ℕ) → n ≤ cfg1.N → sProp 𝕄
  | 0, _ => Pipeline.ΦA spec1 c
  | n + 1, hn => iprop(others1 (F := F) c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 (F := F) c ∗ owns (c : Thread nD τ) scM1_0 fullShare ((outsAt1 V c n hn).2) ∗ (∃ r, prngReg c r)) := rfl

theorem PhiS1_pos (c : Dev nD) (n : ℕ) (h : n ≤ cfg1.N) (hz : n ≠ 0) :
    PhiS1 V c n h = iprop(others1 (F := F) c ∗ owns (c : Thread nD τ) scM1_0 fullShare ((outsAt1 V c (n - 1) (by omega)).2) ∗ (∃ r, prngReg c r)) := by
  cases n with
  | zero => exact absurd rfl hz
  | succ n => rfl

/-! ## The pipeline's proof data -/

/-- The arrays as the region finds them; after the body at point `t` each input's buffer at its block and the
    output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (qM t) fullShare ((dat1 V c).before 0 t d))
    ∗ (∃ d, owns (c : Thread nD τ) (kM t) fullShare ((dat1 V c).before 1 t d))
    ∗ (∃ d, owns (c : Thread nD τ) (vM t) fullShare ((dat1 V c).before 2 t d))
    ∗ (∃ d, owns (c : Thread nD τ) (woM t) fullShare ((dat1 V c).before 3 t d))
    ∗ (∃ d, owns (c : Thread nD τ) (outM t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the point's position among the sixteen k-tiles says
    which case it is in; the invariant hands the body the accumulator at what the point before left (at anything at
    the region's first point) and takes it back at this point's contents; away from the last k-tile the output's
    buffer is handed back untouched, at the last it holds the projected accumulator; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (qM t) fullShare ((dat1 V c).after 0 t) from by
    unfold Dat.leavesExact; rw [live_q t], after1_0]
  rw [show (dat1 V c).leavesExact 1 t = owns (c : Thread nD τ) (kM t) fullShare ((dat1 V c).after 1 t) from by
    unfold Dat.leavesExact; rw [live_k t], after1_1]
  rw [show (dat1 V c).leavesExact 2 t = owns (c : Thread nD τ) (vM t) fullShare ((dat1 V c).after 2 t) from by
    unfold Dat.leavesExact; rw [live_v t], after1_2]
  rw [show (dat1 V c).leavesExact 3 t = owns (c : Thread nD τ) (woM t) fullShare ((dat1 V c).after 3 t) from by
    unfold Dat.leavesExact; rw [live_wo t], after1_3]
  by_cases h0 : t.val % 16 = 0
  · have h1 : ¬t.val % 16 = 15 := by omega
    have hc0 : isFirst (grid1.coords t) := (isFirst_iff t).mpr h0
    have hc1 : ¬isLast (grid1.coords t) := fun h => h1 ((isLast_iff t).mp h)
    rw [Dat.leavesExact_idle (dat1 V c) 4 t (out_idle t hc1) (out_noFlush t hc1)]
    rw [acc_first V c t h0]
    by_cases hz : t.val = 0
    · rw [PhiS1_castSucc V c t, PhiS1_zero V c _ _ hz, PhiA1_eq]
      iintro ⟨⟨Hoth, HS0, Hg⟩, Ho, ⟨%d0, H0⟩, ⟨%d1, H1⟩, ⟨%d2, H2⟩, ⟨%d3, H3⟩, ⟨%d4, H4⟩⟩
      iapply ((runFirst c (grid1.coords t) (qM t) (qW t) (kM t) (kW t) (vM t) (vW t) (woM t) (woW t) (outM t) (outW t) scM1_0 (Memref.isWhole_whole _) hc0 hc1 (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Hoth HS0 Hg]
      · isplitl [Hoth]; · iexact Hoth
        isplitl [HS0]
        · unfold owns; iexists _; isplitr
          swap; · iexact HS0
          ipureintro; exact acc_after_first c (grid1.coords t) (qM t) (qW t) (kM t) (kW t) (vM t) (vW t) (woM t) (woW t) (outM t) (outW t) scM1_0 (Memref.isWhole_whole _) hc0 hc1 (iblk1 V c 0 t) (iblk1 V c 1 t) (iblk1 V c 2 t) (iblk1 V c 3 t) _ _
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨Hoth, HS0, Hg⟩, Ho, ⟨%d0, H0⟩, ⟨%d1, H1⟩, ⟨%d2, H2⟩, ⟨%d3, H3⟩, ⟨%d4, H4⟩⟩
      iapply ((runFirst c (grid1.coords t) (qM t) (qW t) (kM t) (kW t) (vM t) (vW t) (woM t) (woW t) (outM t) (outW t) scM1_0 (Memref.isWhole_whole _) hc0 hc1 (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [Hoth HS0 Hg]
      · isplitl [Hoth]; · iexact Hoth
        isplitl [HS0]
        · unfold owns; iexists _; isplitr
          swap; · iexact HS0
          ipureintro; exact acc_after_first c (grid1.coords t) (qM t) (qW t) (kM t) (kW t) (vM t) (vW t) (woM t) (woW t) (outM t) (outW t) scM1_0 (Memref.isWhole_whole _) hc0 hc1 (iblk1 V c 0 t) (iblk1 V c 1 t) (iblk1 V c 2 t) (iblk1 V c 3 t) _ _
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬isFirst (grid1.coords t) := fun h => h0 ((isFirst_iff t).mp h)
    by_cases h1 : t.val % 16 = 15
    · have hc1 : isLast (grid1.coords t) := (isLast_iff t).mpr h1
      rw [show (dat1 V c).leavesExact 4 t = owns (c : Thread nD τ) (outM t) fullShare ((dat1 V c).after 4 t) from by
        unfold Dat.leavesExact; rw [out_live t hc1], after1_4]
      rw [out_eq V c t, acc_later V c t h0]
      rw [PhiS1_castSucc V c t, PhiS1_pos V c _ _ hz]
      iintro ⟨⟨Hoth, HS0, Hg⟩, Ho, ⟨%d0, H0⟩, ⟨%d1, H1⟩, ⟨%d2, H2⟩, ⟨%d3, H3⟩, ⟨%d4, H4⟩⟩
      iapply ((runLast c (grid1.coords t) (qM t) (qW t) (kM t) (kW t) (vM t) (vW t) (woM t) (woW t) (outM t) (outW t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [Hoth HS0 Hg]
      · isplitl [Hoth]; · iexact Hoth
        isplitl [HS0]
        · unfold owns; iexists _; isplitr
          swap; · iexact HS0
          ipureintro; exact acc_after_last c (grid1.coords t) (qM t) (qW t) (kM t) (kW t) (vM t) (vW t) (woM t) (woW t) (outM t) (outW t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2 _ _
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact out_after_last c (grid1.coords t) (qM t) (qW t) (kM t) (kW t) (vM t) (vW t) (woM t) (woW t) (outM t) (outW t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2 _ _
    · have hc1 : ¬isLast (grid1.coords t) := fun h => h1 ((isLast_iff t).mp h)
      rw [Dat.leavesExact_idle (dat1 V c) 4 t (out_idle t hc1) (out_noFlush t hc1)]
      rw [acc_later V c t h0]
      rw [PhiS1_castSucc V c t, PhiS1_pos V c _ _ hz]
      iintro ⟨⟨Hoth, HS0, Hg⟩, Ho, ⟨%d0, H0⟩, ⟨%d1, H1⟩, ⟨%d2, H2⟩, ⟨%d3, H3⟩, ⟨%d4, H4⟩⟩
      iapply ((runMiddle c (grid1.coords t) (qM t) (qW t) (kM t) (kW t) (vM t) (vW t) (woM t) (woW t) (outM t) (outW t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Hoth HS0 Hg]
      · isplitl [Hoth]; · iexact Hoth
        isplitl [HS0]
        · unfold owns; iexists _; isplitr
          swap; · iexact HS0
          ipureintro; exact acc_after_middle c (grid1.coords t) (qM t) (qW t) (kM t) (kW t) (vM t) (vW t) (woM t) (woW t) (outM t) (outW t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2 _ _
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨Ho, HS0, Hg⟩
  isplitl [Ho]; · iexact Ho
  isplitl [HS0]
  · iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end AtEntry

end Cert.Kernel.Hand

end
-- ==== Proof.FrameB.Run.lean ====
/-
  The run of @main: eight host operations (each weight matrix transposed, then narrowed), then the projection kernel,
  then the attention kernel. The core's unscoped buffers are followed from the launch to the return: after the host
  stretch they hold the operations' results; the projection region replaces its three output arrays by what its
  write-backs leave and keeps everything else; the attention region does the same for the result array. Every weakly
  fair execution terminates, and at the end every unscoped buffer holds the last of these valuations. Read at the five
  argument arrays that is the frame claim; read at the result array it names the program's value.
  Stated for any float instance.
-/
import proofs.«126650_j7679401525929_2_alg».proof.Proof.FrameB.Region0
import proofs.«126650_j7679401525929_2_alg».proof.Proof.FrameB.Region1
import proofs.«126650_j7679401525929_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the host stretch (the projection region's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- At the attention region's exit (the return): the same for its arrays. -/
def W3 (c : Dev nD) : Valuation τ sig (Elt F) :=
  Pipeline.withArrays spec1 c (W2 m c) fun w => (dat1 (U2 m) c).arrAt w cfg1.N
theorem W3_arr (c : Dev nD) (w : Fin cfg1.W) :
    W3 m c (Proc.devRef .tc (Pipeline.arrRef spec1 w)) = (dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt F) ((c : Thread nD τ).loc b) := fun c b => W3 m c b
theorem hF1 (c : Dev nD) (w : Fin cfg1.W) : (dat1 (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-! ### The arguments end as launched -/

/-- No host operation writes an argument. -/
theorem W1_arg (c : Dev nD) (r : Ref sig .tc) (h : r ∉ hostOps0_W) : W1 m c (Proc.devRef .tc r) = m ((c : Thread nD τ).loc r) :=
  StableHlo.after_of_writes_sub hostOps0 _ hostOps0_writes h

/-- x is the projection region's first input window: the pipeline leaves an input's array as it found it; the
    attention region does not touch it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (U1 m) c).arrAt_in 0 rfl _).trans (A_eq0 (U1 m) c 0))
    _ = m ((c : Thread nD τ).loc main_arg0) := W1_arg m c main_arg0 (by decide)
/-- The four weight matrices are no window's array in either region. -/
theorem W3_main_arg1 (c : Dev nD) : W3 m c (Proc.devRef .tc main_arg1) = m ((c : Thread nD τ).loc main_arg1) :=
  (W3_of_ne m c main_arg1 (by decide)).trans ((W2_of_ne m c main_arg1 (by decide)).trans (W1_arg m c main_arg1 (by decide)))
theorem W3_main_arg2 (c : Dev nD) : W3 m c (Proc.devRef .tc main_arg2) = m ((c : Thread nD τ).loc main_arg2) :=
  (W3_of_ne m c main_arg2 (by decide)).trans ((W2_of_ne m c main_arg2 (by decide)).trans (W1_arg m c main_arg2 (by decide)))
theorem W3_main_arg3 (c : Dev nD) : W3 m c (Proc.devRef .tc main_arg3) = m ((c : Thread nD τ).loc main_arg3) :=
  (W3_of_ne m c main_arg3 (by decide)).trans ((W2_of_ne m c main_arg3 (by decide)).trans (W1_arg m c main_arg3 (by decide)))
theorem W3_main_arg4 (c : Dev nD) : W3 m c (Proc.devRef .tc main_arg4) = m ((c : Thread nD τ).loc main_arg4) :=
  (W3_of_ne m c main_arg4 (by decide)).trans ((W2_of_ne m c main_arg4 (by decide)).trans (W1_arg m c main_arg4 (by decide)))
/-- The result array is the attention region's output window. -/
theorem W3_main_v9 (c : Dev nD) : W3 m c (Proc.devRef .tc main_v9) = (dat1 (U2 m) c).arrAt 4 cfg1.N :=
  W3_arr m c 4

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
abbrev 𝒱₀ : Variants := Variants.none
abbrev Lno : GSem nD τ sig → Finset Unit := fun _ => ∅
abbrev lvno : GSem nD τ sig → Unit → ℕ := fun _ _ => 0
/-- What rides beside the buffers: the generator register at some state, and nothing owed. -/
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lno lvno :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m) () defs₀ 𝒱₀ Lno lvno 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ Lno lvno 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`. Its invariant starts as the
    scoped rest and the generator register and ends giving them back (the accumulator's named contents forgotten). -/
def reg1 : Pipeline.RegionSeg (pcfgs (F := F)) adm (pdats m) () defs₀ 𝒱₀ Lno lvno 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ Lno lvno 1 fun _ _ => rfl
  pre c := iprop(StableHlo.held (c : Thread nD τ) (Pipeline.ucRefs τ sig) (W2 m c) ∗ Rd c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (U2 m) c)
    unfold Pipeline.ΦA
    iintro ⟨Hp, -, Hr⟩
    isplitl [Hr]; · iexact Hr
    iexact Hp
  hout c := by
    rw [Pipeline.ownSems0_none]
    refine (hout1 (U2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ Lno lvno) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ Lno lvno m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tend m)
    (hch := ⟨fun _ => .rfl, fun _ => .rfl, fun _ => .rfl, fun _ => .rfl⟩)
    (hinit := by
      refine Pipeline.initEach Lno lvno fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

/-- The run with the result array named: it ends at what the attention pipeline's write-backs leave in it. -/
theorem value_run : θ_run defs (onTc (τ := τ) (main (F := F))) ⟨m, fun _ => 0, ρ⟩ (fun r => ∀ c : Dev nD,
      r.2.mem ((c.tc : Thread nD τ).loc main_v9) = (dat1 (U2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v9 (by decide))).trans (W3_main_v9 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.Kernel.Hand

end
-- ==== Proof.FrameI.Region0.lean ====
/-
  Region 0 of @main: the projection kernel on the grid (2, 4). At a point (b, si) the body reads a [1, 1024, 768]
  block of x and the three transposed 768 x 768 weight matrices whole, and stores three [1, 1024, 768] blocks: the
  block of x times each matrix (the first two scaled by the f32 word nearest one tenth). It keeps nothing between
  points and every store covers its block, so what each output block holds after the body is one function of the
  input blocks at that point. This module states that function, proves the body's triple against it, and bundles
  the proof data and the body obligation of the pipeline, for any float instance and for ANY contents `V` of the
  core's buffers at the region's entry.
-/
import proofs.«126650_j7679401525929_2_alg».proof.Proof.Gen.KernelIdeal.Launch
import proofs.«126650_j7679401525929_2_alg».proof.Proof.Gen.KernelIdeal.Skeleton
import proofs.«126650_j7679401525929_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- The whole [1, 1024, 768] staging block and the whole 768 x 768 matrix, as rectangles. -/
abbrev rAct0 : Rect S1x1024x768 := Rect.unit (s := S1x1024x768) ![0, 0, 0] S1x1024x768.size inb_S1x1024x768_S1x1024x768_0_0_0
abbrev rMat0 : Rect S768x768 := Rect.unit (s := S768x768) ![0, 0] S768x768.size inb_S768x768_S768x768_0_0

/-! ## What the body leaves in each output window's buffer -/

/-- The query block: the block of x against the first matrix, scaled (the skeleton's second payload), stored whole. -/
def out0_4 (x0 : Vec F S1x1024x768 .f32) (x1 : Vec F S768x768 .bf16) : Vec F S1x1024x768 .bf16 :=
  View.canon [⟨rAct0, k0_pay2 (View.ld x0 rAct0) (View.ld x1 rMat0)⟩]
/-- The key block: the same with the second matrix. -/
def out0_5 (x0 : Vec F S1x1024x768 .f32) (x2 : Vec F S768x768 .bf16) : Vec F S1x1024x768 .bf16 :=
  View.canon [⟨rAct0, k0_pay3 (View.ld x0 rAct0) (View.ld x2 rMat0)⟩]
/-- The value block: the block of x against the third matrix, unscaled. -/
def out0_6 (x0 : Vec F S1x1024x768 .f32) (x3 : Vec F S768x768 .bf16) : Vec F S1x1024x768 .bf16 :=
  View.canon [⟨rAct0, k0_pay4 (View.ld x0 rAct0) (View.ld x3 rMat0)⟩]

/-- One whole-block store covers the block. -/
theorem cover0_out (p0 : Vec F S1x1024x768 .bf16) (y : S1x1024x768.Idx) :
    ∃ pc ∈ ([⟨rAct0, p0⟩] : List (View.Piece (Elt F) S1x1024x768 .bf16)), y ∈ pc.1.set :=
  View.cover_of_tiled [⟨rAct0, p0⟩] S1x1024x768.size (by rfl) y

/-! ## The body's triple -/

set_option maxHeartbeats 4000000 in
/-- The body on whole staging memrefs — the four inputs' at read contents, the three outputs' at anything — runs to
    the continuation holding the inputs' as they were and each output's at its function of the inputs. -/
theorem sound_kernel0 (c : Dev nD) (E : Set ℕ) (i : grid0.Coords)
    (arg2 : Memref sig .tc .vmem S1x1024x768 .f32) (harg2 : arg2.IsWhole)
    (arg3 : Memref sig .tc .vmem S768x768 .bf16) (harg3 : arg3.IsWhole)
    (arg4 : Memref sig .tc .vmem S768x768 .bf16) (harg4 : arg4.IsWhole)
    (arg5 : Memref sig .tc .vmem S768x768 .bf16) (harg5 : arg5.IsWhole)
    (arg6 : Memref sig .tc .vmem S1x1024x768 .bf16) (harg6 : arg6.IsWhole)
    (arg7 : Memref sig .tc .vmem S1x1024x768 .bf16) (harg7 : arg7.IsWhole)
    (arg8 : Memref sig .tc .vmem S1x1024x768 .bf16) (harg8 : arg8.IsWhole)
    (x0 : Vec F S1x1024x768 .f32) (x1 x2 x3 : Vec F S768x768 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E (cc0__qkv_kernel i arg2 harg2 arg3 harg3 arg4 harg4 arg5 harg5 arg6 harg6 arg7 harg7 arg8 harg8) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_out _)
  isplitl [H5]
  · iexists _; isplitr
    swap; · iexact H5
    ipureintro
    exact View.read_writes_eq_canon _ _ _ (cover0_out _)
  iexists _; isplitr
  swap; · iexact H6
  ipureintro
  exact View.read_writes_eq_canon _ _ _ (cover0_out _)

/-! ## The pipeline's proof data -/

/-- The proof data of pipeline 0 on core `c`: the arrays as the region finds them; after the body at point `t` each
    input's buffer at its block and each output's at its function of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameI.Region1Base.lean ====
/- Region 1 (the attention kernel, grid 2 × 2 × 16): what its three control cases share. The kernel zeroes its
   accumulator at the first k-tile of a (batch, q-block) pair, adds one k-tile's contribution at every point, and
   stores the projected output at the last k-tile only. Here: each window's block at a point, the two branch
   conditions in closed form, where the output window is idle, and the region invariant with the accumulator
   singled out. -/
import proofs.«126650_j7679401525929_2_alg».proof.Proof.Gen.KernelIdeal.Launch
import proofs.«126650_j7679401525929_2_alg».proof.Proof.Gen.KernelIdeal.Skeleton
import proofs.«126650_j7679401525929_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first k-tile": the kernel's test `ki = 0` as it computes it from the grid coordinates. -/
abbrev isFirst (i : grid1.Coords) : Prop :=
  (Scalar.cmpi .ne (Scalar.extui (Scalar.cmpi .eq (BitVec.ofNat 32 (i 2).val) 0#32)) 0#32) = 1#1
/-- It holds exactly at the points ≡ 0 (mod 16). -/
theorem isFirst_iff : ∀ t : Fin cfg1.N, isFirst (grid1.coords t) ↔ t.val % 16 = 0 :=
  (by decide +kernel : ∀ t : Fin grid1.N, isFirst (grid1.coords t) ↔ t.val % 16 = 0)

/-- "This is the last k-tile": the kernel's test `ki = 15`. -/
abbrev isLast (i : grid1.Coords) : Prop := k1_cond2 i = 1#1
/-- It holds exactly at the points ≡ 15 (mod 16). -/
theorem isLast_iff : ∀ t : Fin cfg1.N, isLast (grid1.coords t) ↔ t.val % 16 = 15 :=
  (by decide +kernel : ∀ t : Fin grid1.N, isLast (grid1.coords t) ↔ t.val % 16 = 15)

/-! ## Where the windows are idle -/

theorem live_q : ∀ t : Fin cfg1.N, cfg1.idle 0 (grid1.coords t) = false := fun _ => rfl
theorem live_k : ∀ t : Fin cfg1.N, cfg1.idle 1 (grid1.coords t) = false := fun _ => rfl
theorem live_v : ∀ t : Fin cfg1.N, cfg1.idle 2 (grid1.coords t) = false := fun _ => rfl
theorem live_wo : ∀ t : Fin cfg1.N, cfg1.idle 3 (grid1.coords t) = false := fun _ => rfl
/-- Away from the last k-tile the output window is idle (nothing is stored into it) -/
theorem out_idle : ∀ t : Fin cfg1.N, ¬isLast (grid1.coords t) → cfg1.idle 4 (grid1.coords t) = true := by decide +kernel
/-- and is not written back. -/
theorem out_noFlush : ∀ t : Fin cfg1.N, ¬isLast (grid1.coords t) → (cfg1.win 4).flush t = false := by decide +kernel
/-- At the last k-tile it is live. -/
theorem out_live : ∀ t : Fin cfg1.N, isLast (grid1.coords t) → cfg1.idle 4 (grid1.coords t) = false := by decide +kernel

/-! ## The memrefs the body is called with -/

abbrev qM (t : Fin cfg1.N) : Memref sig .tc .vmem S1x2048x768 .bf16 := win1_0.stage (cfg1.slots t 0)
abbrev qW (t : Fin cfg1.N) : (qM t).IsWhole := hstage1_0 ((cfg1.slots t 0).cast nbuf1_0)
abbrev kM (t : Fin cfg1.N) : Memref sig .tc .vmem S1x256x768 .bf16 := win1_1.stage (cfg1.slots t 1)
abbrev kW (t : Fin cfg1.N) : (kM t).IsWhole := hstage1_1 ((cfg1.slots t 1).cast nbuf1_1)
abbrev vM (t : Fin cfg1.N) : Memref sig .tc .vmem S1x256x768 .bf16 := win1_2.stage (cfg1.slots t 2)
abbrev vW (t : Fin cfg1.N) : (vM t).IsWhole := hstage1_2 ((cfg1.slots t 2).cast nbuf1_2)
abbrev woM (t : Fin cfg1.N) : Memref sig .tc .vmem S768x768 .bf16 := win1_3.stage (cfg1.slots t 3)
abbrev woW (t : Fin cfg1.N) : (woM t).IsWhole := hstage1_3 ((cfg1.slots t 3).cast nbuf1_3)
abbrev outM (t : Fin cfg1.N) : Memref sig .tc .vmem S1x2048x768 .f32 := win1_4.stage (cfg1.slots t 4)
abbrev outW (t : Fin cfg1.N) : (outM t).IsWhole := hstage1_4 ((cfg1.slots t 4).cast nbuf1_4)
/-- The accumulator: a whole scoped buffer of the kernel's own, carried from point to point. -/
abbrev scM1_0 : Memref sig .tc .vmem S2048x768 .f32 := Memref.whole cc1_scratch0
/-- The accumulator and one staging buffer of the output window as views: contents are stated through them. -/
abbrev accV : View sig .tc .vmem S2048x768 .f32 := scM1_0.view
abbrev outV : View sig .tc .vmem S1x2048x768 .f32 := (Memref.whole cc1_stg4_0 : Memref sig .tc .vmem S1x2048x768 .f32).view

/-! ## The region invariant with the accumulator singled out -/

/-- The eleven staging buffers of the other pallas_call, each whole at some contents: scoped buffers this region
    never touches. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- Twelve conjuncts and one more, regrouped: the first eleven, then the twelfth and the last. -/
theorem regroup12 (A0 A1 A2 A3 A4 A5 A6 A7 A8 A9 A10 S G : sProp 𝕄) :
    iprop((A0 ∗ A1 ∗ A2 ∗ A3 ∗ A4 ∗ A5 ∗ A6 ∗ A7 ∗ A8 ∗ A9 ∗ A10 ∗ S) ∗ G)
      = iprop((A0 ∗ A1 ∗ A2 ∗ A3 ∗ A4 ∗ A5 ∗ A6 ∗ A7 ∗ A8 ∗ A9 ∗ A10) ∗ S ∗ G) := by
  have h₁ : iprop((A0 ∗ A1 ∗ A2 ∗ A3 ∗ A4 ∗ A5 ∗ A6 ∗ A7 ∗ A8 ∗ A9 ∗ A10 ∗ S) ∗ G)
      ⊢ iprop((A0 ∗ A1 ∗ A2 ∗ A3 ∗ A4 ∗ A5 ∗ A6 ∗ A7 ∗ A8 ∗ A9 ∗ A10) ∗ S ∗ G) := by
    iintro ⟨⟨H0, H1, H2, H3, H4, H5, H6, H7, H8, H9, H10, HS⟩, Hg⟩
    isplitr [HS Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [HS]; · iexact HS
    iexact Hg
  have h₂ : iprop((A0 ∗ A1 ∗ A2 ∗ A3 ∗ A4 ∗ A5 ∗ A6 ∗ A7 ∗ A8 ∗ A9 ∗ A10) ∗ S ∗ G)
      ⊢ iprop((A0 ∗ A1 ∗ A2 ∗ A3 ∗ A4 ∗ A5 ∗ A6 ∗ A7 ∗ A8 ∗ A9 ∗ A10 ∗ S) ∗ G) := by
    iintro ⟨⟨H0, H1, H2, H3, H4, H5, H6, H7, H8, H9, H10⟩, HS, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact HS
    iexact Hg
  exact BI.equiv_iff.mp ⟨h₁, h₂⟩

/-- The region invariant is: those eleven, the accumulator owned at some contents, the generator register at some
    state. -/
theorem PhiA1_eq (c : Dev nD) :
    (Pipeline.ΦA spec1 c : sProp 𝕄)
      = iprop(others1 (F := F) c ∗ (∃ d, owns (c : Thread nD τ) scM1_0 fullShare d) ∗ (∃ r, prngReg c r)) := by
  unfold Pipeline.ΦA others1; rw [scopedRest1_eq]; simp only [scM1_0, owns_whole]
  exact regroup12 _ _ _ _ _ _ _ _ _ _ _ _ _

/-! ## The windows' blocks at the region's entry contents -/

section AtEntry
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is the entry contents and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end AtEntry

end Cert.KernelIdeal.Hand

end
-- ==== Proof.FrameI.Run1A.lean ====
/- Region 1, the FIRST k-tile of a (batch, q-block) pair: the kernel zeroes the accumulator, then adds this tile's
   contribution; the output window is not stored into. The body's triple on any whole memrefs, with the pieces the
   accumulator ends with as the witness. -/
import proofs.«126650_j7679401525929_2_alg».proof.Proof.FrameI.Region1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the four inputs at their contents, the output's at contents handed back untouched, the
    accumulator at anything — the body runs to a continuation holding the inputs and the output as they were and the
    accumulator with the pieces `LS0` written (last store first). -/
noncomputable def runFirst (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : isFirst i) (hc1 : ¬isLast i)
    (x0 : Vec F S1x2048x768 .bf16) (x1 : Vec F S1x256x768 .bf16) (x2 : Vec F S1x256x768 .bf16) (x3 : Vec F S768x768 .bf16) :
    Σ' (L4 : List (View.Piece (Elt F) S1x2048x768 .f32)), { LS0 : List (View.Piece (Elt F) S2048x768 .f32) //
      ∀ (xi4 : Vec F S1x2048x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8) K } := by
  refine ⟨[], ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.FrameI.Run1B.lean ====
/- Region 1, a MIDDLE k-tile: the kernel adds this tile's contribution to the accumulator the point before left; the
   output window is not stored into. -/
import proofs.«126650_j7679401525929_2_alg».proof.Proof.FrameI.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the four inputs at their contents, the output's at contents handed back untouched, the
    accumulator at `xs0` — the body runs to a continuation holding the inputs and the output as they were and the
    accumulator with the pieces `LS0` written. -/
noncomputable def runMiddle (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : ¬isFirst i) (hc1 : ¬isLast i)
    (x0 : Vec F S1x2048x768 .bf16) (x1 : Vec F S1x256x768 .bf16) (x2 : Vec F S1x256x768 .bf16) (x3 : Vec F S768x768 .bf16) (xs0 : Vec F S2048x768 .f32) :
    Σ' (L4 : List (View.Piece (Elt F) S1x2048x768 .f32)), { LS0 : List (View.Piece (Elt F) S2048x768 .f32) //
      ∀ (xi4 : Vec F S1x2048x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8) K } := by
  refine ⟨[], ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.FrameI.Run1C.lean ====
/- Region 1, the LAST k-tile of a (batch, q-block) pair: the kernel adds this tile's contribution to the accumulator
   and stores the accumulator, projected through Woᵀ and scaled, into the output window. -/
import proofs.«126650_j7679401525929_2_alg».proof.Proof.FrameI.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the four inputs at their contents, the output's at anything, the accumulator at `xs0` — the
    body runs to a continuation holding the inputs as they were, the output's buffer with the pieces `L4` written
    and the accumulator with the pieces `LS0` written. -/
noncomputable def runLast (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : ¬isFirst i) (hc1 : isLast i)
    (x0 : Vec F S1x2048x768 .bf16) (x1 : Vec F S1x256x768 .bf16) (x2 : Vec F S1x256x768 .bf16) (x3 : Vec F S768x768 .bf16) (xs0 : Vec F S2048x768 .f32) :
    Σ' (L4 : List (View.Piece (Elt F) S1x2048x768 .f32)), { LS0 : List (View.Piece (Elt F) S2048x768 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.FrameI.Region1Pieces.lean ====
/- Region 1: what the three cases' stores leave, in closed form. Every store of the kernel covers its whole buffer and
   every load reads a whole buffer, so the last store's payload is what a buffer ends with, over the loaded contents
   themselves: the accumulator ends at this tile's contribution added to zero (first k-tile) or to what it held
   (later k-tiles), the output buffer at the accumulator projected and scaled. -/
import proofs.«126650_j7679401525929_2_alg».proof.Proof.FrameI.Run1C
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The first k-tile -/

/-- The accumulator's pieces cover it. -/
theorem cover_acc_first (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : isFirst i) (hc1 : ¬isLast i)
    (x0 : Vec F S1x2048x768 .bf16) (x1 : Vec F S1x256x768 .bf16) (x2 : Vec F S1x256x768 .bf16) (x3 : Vec F S768x768 .bf16) (y : S2048x768.Idx) :
    ∃ pc ∈ (runFirst c i arg3 harg3 arg4 harg4 arg5 harg5 arg6 harg6 arg7 harg7 arg8 harg8 hc0 hc1 x0 x1 x2 x3).2.1, y ∈ pc.1.set :=
  View.cover_of_tiledL (runFirst c i arg3 harg3 arg4 harg4 arg5 harg5 arg6 harg6 arg7 harg7 arg8 harg8 hc0 hc1 x0 x1 x2 x3).2.1 S2048x768.size (by sl_kernel_rfl) y

/-- The accumulator ends at this tile's contribution added to the zero tile. -/
theorem acc_after_first (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : isFirst i) (hc1 : ¬isLast i)
    (x0 : Vec F S1x2048x768 .bf16) (x1 : Vec F S1x256x768 .bf16) (x2 : Vec F S1x256x768 .bf16) (x3 : Vec F S768x768 .bf16) (v : View sig .tc .vmem S2048x768 .f32) (f : v.ty.Contents (Elt F)) :
    v.read (Elt F) (v.writes (Elt F) f (runFirst c i arg3 harg3 arg4 harg4 arg5 harg5 arg6 harg6 arg7 harg7 arg8 harg8 hc0 hc1 x0 x1 x2 x3).2.1)
      = k1_pay2 x0 x1 x2 (k1_pay1 (F := F)) := by
  rw [View.read_writes_eq_canon _ _ _ (cover_acc_first c i arg3 harg3 arg4 harg4 arg5 harg5 arg6 harg6 arg7 harg7 arg8 harg8 hc0 hc1 x0 x1 x2 x3)]
  unfold runFirst
  dsimp only
  sl_unfold_words
  rw [View.canon_cons_unit_zero (S := S2048x768) zeros2, View.readCov_unit_zero (S := S2048x768) _ zeros2]
  simp only [View.readAt_eq_ld, harg3.read_unread, harg4.read_unread, harg5.read_unread, View.ld_unit_zero (S := S1x2048x768) zeros3, View.ld_unit_zero (S := S1x256x768) zeros3]

/-! ## A middle k-tile -/

theorem cover_acc_middle (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : ¬isFirst i) (hc1 : ¬isLast i)
    (x0 : Vec F S1x2048x768 .bf16) (x1 : Vec F S1x256x768 .bf16) (x2 : Vec F S1x256x768 .bf16) (x3 : Vec F S768x768 .bf16) (xs0 : Vec F S2048x768 .f32) (y : S2048x768.Idx) :
    ∃ pc ∈ (runMiddle c i arg3 harg3 arg4 harg4 arg5 harg5 arg6 harg6 arg7 harg7 arg8 harg8 hc0 hc1 x0 x1 x2 x3 xs0).2.1, y ∈ pc.1.set :=
  View.cover_of_tiledL (runMiddle c i arg3 harg3 arg4 harg4 arg5 harg5 arg6 harg6 arg7 harg7 arg8 harg8 hc0 hc1 x0 x1 x2 x3 xs0).2.1 S2048x768.size (by sl_kernel_rfl) y

/-- The accumulator ends at this tile's contribution added to what it held. -/
theorem acc_after_middle (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : ¬isFirst i) (hc1 : ¬isLast i)
    (x0 : Vec F S1x2048x768 .bf16) (x1 : Vec F S1x256x768 .bf16) (x2 : Vec F S1x256x768 .bf16) (x3 : Vec F S768x768 .bf16) (xs0 : Vec F S2048x768 .f32) (v : View sig .tc .vmem S2048x768 .f32) (f : v.ty.Contents (Elt F)) :
    v.read (Elt F) (v.writes (Elt F) f (runMiddle c i arg3 harg3 arg4 harg4 arg5 harg5 arg6 harg6 arg7 harg7 arg8 harg8 hc0 hc1 x0 x1 x2 x3 xs0).2.1)
      = k1_pay2 x0 x1 x2 xs0 := by
  rw [View.read_writes_eq_canon _ _ _ (cover_acc_middle c i arg3 harg3 arg4 harg4 arg5 harg5 arg6 harg6 arg7 harg7 arg8 harg8 hc0 hc1 x0 x1 x2 x3 xs0)]
  unfold runMiddle
  dsimp only
  sl_unfold_words
  rw [View.canon_unit_zero (S := S2048x768) zeros2]
  simp only [View.readAt_eq_ld, harg3.read_unread, harg4.read_unread, harg5.read_unread, harg8.read_unread, View.ld_unit_zero (S := S1x2048x768) zeros3, View.ld_unit_zero (S := S1x256x768) zeros3, View.ld_unit_zero (S := S2048x768) zeros2]

/-! ## The last k-tile -/

theorem cover_acc_last (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : ¬isFirst i) (hc1 : isLast i)
    (x0 : Vec F S1x2048x768 .bf16) (x1 : Vec F S1x256x768 .bf16) (x2 : Vec F S1x256x768 .bf16) (x3 : Vec F S768x768 .bf16) (xs0 : Vec F S2048x768 .f32) (y : S2048x768.Idx) :
    ∃ pc ∈ (runLast c i arg3 harg3 arg4 harg4 arg5 harg5 arg6 harg6 arg7 harg7 arg8 harg8 hc0 hc1 x0 x1 x2 x3 xs0).2.1, y ∈ pc.1.set :=
  View.cover_of_tiledL (runLast c i arg3 harg3 arg4 harg4 arg5 harg5 arg6 harg6 arg7 harg7 arg8 harg8 hc0 hc1 x0 x1 x2 x3 xs0).2.1 S2048x768.size (by sl_kernel_rfl) y

theorem cover_out_last (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : ¬isFirst i) (hc1 : isLast i)
    (x0 : Vec F S1x2048x768 .bf16) (x1 : Vec F S1x256x768 .bf16) (x2 : Vec F S1x256x768 .bf16) (x3 : Vec F S768x768 .bf16) (xs0 : Vec F S2048x768 .f32) (y : S1x2048x768.Idx) :
    ∃ pc ∈ (runLast c i arg3 harg3 arg4 harg4 arg5 harg5 arg6 harg6 arg7 harg7 arg8 harg8 hc0 hc1 x0 x1 x2 x3 xs0).1, y ∈ pc.1.set :=
  View.cover_of_tiledL (runLast c i arg3 harg3 arg4 harg4 arg5 harg5 arg6 harg6 arg7 harg7 arg8 harg8 hc0 hc1 x0 x1 x2 x3 xs0).1 S1x2048x768.size (by sl_kernel_rfl) y

/-- The accumulator ends at this tile's contribution added to what it held, -/
theorem acc_after_last (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : ¬isFirst i) (hc1 : isLast i)
    (x0 : Vec F S1x2048x768 .bf16) (x1 : Vec F S1x256x768 .bf16) (x2 : Vec F S1x256x768 .bf16) (x3 : Vec F S768x768 .bf16) (xs0 : Vec F S2048x768 .f32) (v : View sig .tc .vmem S2048x768 .f32) (f : v.ty.Contents (Elt F)) :
    v.read (Elt F) (v.writes (Elt F) f (runLast c i arg3 harg3 arg4 harg4 arg5 harg5 arg6 harg6 arg7 harg7 arg8 harg8 hc0 hc1 x0 x1 x2 x3 xs0).2.1)
      = k1_pay2 x0 x1 x2 xs0 := by
  rw [View.read_writes_eq_canon _ _ _ (cover_acc_last c i arg3 harg3 arg4 harg4 arg5 harg5 arg6 harg6 arg7 harg7 arg8 harg8 hc0 hc1 x0 x1 x2 x3 xs0)]
  unfold runLast
  dsimp only
  sl_unfold_words
  rw [View.canon_unit_zero (S := S2048x768) zeros2]
  simp only [View.readAt_eq_ld, harg3.read_unread, harg4.read_unread, harg5.read_unread, harg8.read_unread, View.ld_unit_zero (S := S1x2048x768) zeros3, View.ld_unit_zero (S := S1x256x768) zeros3, View.ld_unit_zero (S := S2048x768) zeros2]

/-- and the output buffer at that accumulator projected through Woᵀ and scaled. -/
theorem out_after_last (c : Dev nD) (i : grid1.Coords) (arg3 : Memref sig .tc .vmem S1x2048x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S768x768 .bf16) (harg6 : arg6.IsWhole) (arg7 : Memref sig .tc .vmem S1x2048x768 .f32) (harg7 : arg7.IsWhole) (arg8 : Memref sig .tc .vmem S2048x768 .f32) (harg8 : arg8.IsWhole) (hc0 : ¬isFirst i) (hc1 : isLast i)
    (x0 : Vec F S1x2048x768 .bf16) (x1 : Vec F S1x256x768 .bf16) (x2 : Vec F S1x256x768 .bf16) (x3 : Vec F S768x768 .bf16) (xs0 : Vec F S2048x768 .f32) (v : View sig .tc .vmem S1x2048x768 .f32) (f : v.ty.Contents (Elt F)) :
    v.read (Elt F) (v.writes (Elt F) f (runLast c i arg3 harg3 arg4 harg4 arg5 harg5 arg6 harg6 arg7 harg7 arg8 harg8 hc0 hc1 x0 x1 x2 x3 xs0).1)
      = k1_pay3 (k1_pay2 x0 x1 x2 xs0) x3 := by
  rw [View.read_writes_eq_canon _ _ _ (cover_out_last c i arg3 harg3 arg4 harg4 arg5 harg5 arg6 harg6 arg7 harg7 arg8 harg8 hc0 hc1 x0 x1 x2 x3 xs0)]
  unfold runLast
  dsimp only
  sl_unfold_words
  rw [View.canon_unit_zero (S := S1x2048x768) zeros3, View.readCov_unit_zero (S := S2048x768) _ zeros2]
  simp only [View.readAt_eq_ld, harg3.read_unread, harg4.read_unread, harg5.read_unread, harg6.read_unread, harg8.read_unread, View.ld_unit_zero (S := S1x2048x768) zeros3, View.ld_unit_zero (S := S1x256x768) zeros3, View.ld_unit_zero (S := S2048x768) zeros2, View.ld_unit_zero (S := S768x768) zeros2]

end Cert.KernelIdeal.Hand

end
-- ==== Proof.FrameI.Region1.lean ====
/- Region 1 (the attention kernel) at the contents V the TensorCore's buffers hold when the region is entered:
   what the accumulator and the output window's buffer hold after each grid point, the proof data of the pipeline,
   and the body obligation. The accumulator after a point is this k-tile's contribution added to the zero tile
   (first k-tile of a (batch, q-block) pair) or to what the point before left (later k-tiles); the output buffer
   after the last k-tile is the accumulator projected and scaled. -/
import proofs.«126650_j7679401525929_2_alg».proof.Proof.FrameI.Region1Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtEntry
variable (V : (c : Dev nD) → (b : Ref sig .tc) → Buf (Elt F) ((c : Thread nD τ).loc b))

/-! ## What the accumulator and the output buffer hold after each point -/

/-- The accumulator after the body at position `n`: the contribution of the point's q, k, v blocks added to zero
    where a new (batch, q-block) pair starts (positions ≡ 0 mod 16), and to the accumulator of the position before
    elsewhere. -/
def accAt1 (c : Dev nD) : (n : ℕ) → n < cfg1.N → Vec F S2048x768 .f32
  | 0, hn => k1_pay2 (iblk1 V c 0 ⟨0, hn⟩) (iblk1 V c 1 ⟨0, hn⟩) (iblk1 V c 2 ⟨0, hn⟩) (k1_pay1 (F := F))
  | n + 1, hn =>
    if (n + 1) % 16 = 0 then
      k1_pay2 (iblk1 V c 0 ⟨n + 1, hn⟩) (iblk1 V c 1 ⟨n + 1, hn⟩) (iblk1 V c 2 ⟨n + 1, hn⟩) (k1_pay1 (F := F))
    else
      k1_pay2 (iblk1 V c 0 ⟨n + 1, hn⟩) (iblk1 V c 1 ⟨n + 1, hn⟩) (iblk1 V c 2 ⟨n + 1, hn⟩) (accAt1 c n (Nat.lt_of_succ_lt hn))

/-- After the body at position `n`: (the output window's staging buffer, the accumulator). The first component is
    the accumulator projected through Woᵀ and scaled; it is what the buffer holds at the last k-tile of a pair, the
    only points at which the window is live (elsewhere nothing reads it). -/
def outsAt1 (c : Dev nD) : (n : ℕ) → n < cfg1.N → Vec F S1x2048x768 .f32 × Vec F S2048x768 .f32 :=
  fun n hn => (k1_pay3 (accAt1 V c n hn) (iblk1 V c 3 ⟨n, hn⟩), accAt1 V c n hn)

/-- The accumulator after a point that starts a (batch, q-block) pair. -/
theorem acc_first (c : Dev nD) (t : Fin cfg1.N) (h : t.val % 16 = 0) :
    (outsAt1 V c t.val t.isLt).2 = k1_pay2 (iblk1 V c 0 t) (iblk1 V c 1 t) (iblk1 V c 2 t) (k1_pay1 (F := F)) := by
  obtain ⟨n, hn⟩ := t
  cases n with
  | zero => rfl
  | succ n => exact if_pos h

/-- The accumulator after any later point: over what the point before left. -/
theorem acc_later (c : Dev nD) (t : Fin cfg1.N) (h : ¬t.val % 16 = 0) :
    (outsAt1 V c t.val t.isLt).2 = k1_pay2 (iblk1 V c 0 t) (iblk1 V c 1 t) (iblk1 V c 2 t)
      (outsAt1 V c (t.val - 1) (Nat.lt_of_le_of_lt (Nat.sub_le _ _) t.isLt)).2 := by
  obtain ⟨n, hn⟩ := t
  cases n with
  | zero => exact absurd (Nat.zero_mod _) h
  | succ n => exact (if_neg h).trans rfl

/-- The output buffer after a point: the accumulator that point leaves, projected and scaled. -/
theorem out_eq (c : Dev nD) (t : Fin cfg1.N) :
    (outsAt1 V c t.val t.isLt).1 = k1_pay3 (outsAt1 V c t.val t.isLt).2 (iblk1 V c 3 t) := rfl

/-! ## The region invariant point by point -/

/-- Before position `n`: at the region's entry the class's invariant (every scoped non-staging buffer at
    anything); afterwards the other pallas_call's staging buffers at anything, the accumulator at what the point
    before left, the generator register at some state. -/
def PhiS1 (c : Dev nD) : (n : ℕ) → n ≤ cfg1.N → sProp 𝕄
  | 0, _ => Pipeline.ΦA spec1 c
  | n + 1, hn => iprop(others1 (F := F) c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 (F := F) c ∗ owns (c : Thread nD τ) scM1_0 fullShare ((outsAt1 V c n hn).2) ∗ (∃ r, prngReg c r)) := rfl

theorem PhiS1_pos (c : Dev nD) (n : ℕ) (h : n ≤ cfg1.N) (hz : n ≠ 0) :
    PhiS1 V c n h = iprop(others1 (F := F) c ∗ owns (c : Thread nD τ) scM1_0 fullShare ((outsAt1 V c (n - 1) (by omega)).2) ∗ (∃ r, prngReg c r)) := by
  cases n with
  | zero => exact absurd rfl hz
  | succ n => rfl

/-! ## The pipeline's proof data -/

/-- The arrays as the region finds them; after the body at point `t` each input's buffer at its block and the
    output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (qM t) fullShare ((dat1 V c).before 0 t d))
    ∗ (∃ d, owns (c : Thread nD τ) (kM t) fullShare ((dat1 V c).before 1 t d))
    ∗ (∃ d, owns (c : Thread nD τ) (vM t) fullShare ((dat1 V c).before 2 t d))
    ∗ (∃ d, owns (c : Thread nD τ) (woM t) fullShare ((dat1 V c).before 3 t d))
    ∗ (∃ d, owns (c : Thread nD τ) (outM t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the point's position among the sixteen k-tiles says
    which case it is in; the invariant hands the body the accumulator at what the point before left (at anything at
    the region's first point) and takes it back at this point's contents; away from the last k-tile the output's
    buffer is handed back untouched, at the last it holds the projected accumulator; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (qM t) fullShare ((dat1 V c).after 0 t) from by
    unfold Dat.leavesExact; rw [live_q t], after1_0]
  rw [show (dat1 V c).leavesExact 1 t = owns (c : Thread nD τ) (kM t) fullShare ((dat1 V c).after 1 t) from by
    unfold Dat.leavesExact; rw [live_k t], after1_1]
  rw [show (dat1 V c).leavesExact 2 t = owns (c : Thread nD τ) (vM t) fullShare ((dat1 V c).after 2 t) from by
    unfold Dat.leavesExact; rw [live_v t], after1_2]
  rw [show (dat1 V c).leavesExact 3 t = owns (c : Thread nD τ) (woM t) fullShare ((dat1 V c).after 3 t) from by
    unfold Dat.leavesExact; rw [live_wo t], after1_3]
  by_cases h0 : t.val % 16 = 0
  · have h1 : ¬t.val % 16 = 15 := by omega
    have hc0 : isFirst (grid1.coords t) := (isFirst_iff t).mpr h0
    have hc1 : ¬isLast (grid1.coords t) := fun h => h1 ((isLast_iff t).mp h)
    rw [Dat.leavesExact_idle (dat1 V c) 4 t (out_idle t hc1) (out_noFlush t hc1)]
    rw [acc_first V c t h0]
    by_cases hz : t.val = 0
    · rw [PhiS1_castSucc V c t, PhiS1_zero V c _ _ hz, PhiA1_eq]
      iintro ⟨⟨Hoth, HS0, Hg⟩, Ho, ⟨%d0, H0⟩, ⟨%d1, H1⟩, ⟨%d2, H2⟩, ⟨%d3, H3⟩, ⟨%d4, H4⟩⟩
      iapply ((runFirst c (grid1.coords t) (qM t) (qW t) (kM t) (kW t) (vM t) (vW t) (woM t) (woW t) (outM t) (outW t) scM1_0 (Memref.isWhole_whole _) hc0 hc1 (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Hoth HS0 Hg]
      · isplitl [Hoth]; · iexact Hoth
        isplitl [HS0]
        · unfold owns; iexists _; isplitr
          swap; · iexact HS0
          ipureintro; exact acc_after_first c (grid1.coords t) (qM t) (qW t) (kM t) (kW t) (vM t) (vW t) (woM t) (woW t) (outM t) (outW t) scM1_0 (Memref.isWhole_whole _) hc0 hc1 (iblk1 V c 0 t) (iblk1 V c 1 t) (iblk1 V c 2 t) (iblk1 V c 3 t) _ _
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨Hoth, HS0, Hg⟩, Ho, ⟨%d0, H0⟩, ⟨%d1, H1⟩, ⟨%d2, H2⟩, ⟨%d3, H3⟩, ⟨%d4, H4⟩⟩
      iapply ((runFirst c (grid1.coords t) (qM t) (qW t) (kM t) (kW t) (vM t) (vW t) (woM t) (woW t) (outM t) (outW t) scM1_0 (Memref.isWhole_whole _) hc0 hc1 (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [Hoth HS0 Hg]
      · isplitl [Hoth]; · iexact Hoth
        isplitl [HS0]
        · unfold owns; iexists _; isplitr
          swap; · iexact HS0
          ipureintro; exact acc_after_first c (grid1.coords t) (qM t) (qW t) (kM t) (kW t) (vM t) (vW t) (woM t) (woW t) (outM t) (outW t) scM1_0 (Memref.isWhole_whole _) hc0 hc1 (iblk1 V c 0 t) (iblk1 V c 1 t) (iblk1 V c 2 t) (iblk1 V c 3 t) _ _
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬isFirst (grid1.coords t) := fun h => h0 ((isFirst_iff t).mp h)
    by_cases h1 : t.val % 16 = 15
    · have hc1 : isLast (grid1.coords t) := (isLast_iff t).mpr h1
      rw [show (dat1 V c).leavesExact 4 t = owns (c : Thread nD τ) (outM t) fullShare ((dat1 V c).after 4 t) from by
        unfold Dat.leavesExact; rw [out_live t hc1], after1_4]
      rw [out_eq V c t, acc_later V c t h0]
      rw [PhiS1_castSucc V c t, PhiS1_pos V c _ _ hz]
      iintro ⟨⟨Hoth, HS0, Hg⟩, Ho, ⟨%d0, H0⟩, ⟨%d1, H1⟩, ⟨%d2, H2⟩, ⟨%d3, H3⟩, ⟨%d4, H4⟩⟩
      iapply ((runLast c (grid1.coords t) (qM t) (qW t) (kM t) (kW t) (vM t) (vW t) (woM t) (woW t) (outM t) (outW t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [Hoth HS0 Hg]
      · isplitl [Hoth]; · iexact Hoth
        isplitl [HS0]
        · unfold owns; iexists _; isplitr
          swap; · iexact HS0
          ipureintro; exact acc_after_last c (grid1.coords t) (qM t) (qW t) (kM t) (kW t) (vM t) (vW t) (woM t) (woW t) (outM t) (outW t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2 _ _
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact out_after_last c (grid1.coords t) (qM t) (qW t) (kM t) (kW t) (vM t) (vW t) (woM t) (woW t) (outM t) (outW t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2 _ _
    · have hc1 : ¬isLast (grid1.coords t) := fun h => h1 ((isLast_iff t).mp h)
      rw [Dat.leavesExact_idle (dat1 V c) 4 t (out_idle t hc1) (out_noFlush t hc1)]
      rw [acc_later V c t h0]
      rw [PhiS1_castSucc V c t, PhiS1_pos V c _ _ hz]
      iintro ⟨⟨Hoth, HS0, Hg⟩, Ho, ⟨%d0, H0⟩, ⟨%d1, H1⟩, ⟨%d2, H2⟩, ⟨%d3, H3⟩, ⟨%d4, H4⟩⟩
      iapply ((runMiddle c (grid1.coords t) (qM t) (qW t) (kM t) (kW t) (vM t) (vW t) (woM t) (woW t) (outM t) (outW t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Hoth HS0 Hg]
      · isplitl [Hoth]; · iexact Hoth
        isplitl [HS0]
        · unfold owns; iexists _; isplitr
          swap; · iexact HS0
          ipureintro; exact acc_after_middle c (grid1.coords t) (qM t) (qW t) (kM t) (kW t) (vM t) (vW t) (woM t) (woW t) (outM t) (outW t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2 _ _
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨Ho, HS0, Hg⟩
  isplitl [Ho]; · iexact Ho
  isplitl [HS0]
  · iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end AtEntry

end Cert.KernelIdeal.Hand

end
-- ==== Proof.FrameI.Run.lean ====
/-
  The run of @main: eight host operations (each weight matrix transposed, then narrowed), then the projection kernel,
  then the attention kernel. The core's unscoped buffers are followed from the launch to the return: after the host
  stretch they hold the operations' results; the projection region replaces its three output arrays by what its
  write-backs leave and keeps everything else; the attention region does the same for the result array. Every weakly
  fair execution terminates, and at the end every unscoped buffer holds the last of these valuations. Read at the five
  argument arrays that is the frame claim; read at the result array it names the program's value.
  Stated for any float instance.
-/
import proofs.«126650_j7679401525929_2_alg».proof.Proof.FrameI.Region0
import proofs.«126650_j7679401525929_2_alg».proof.Proof.FrameI.Region1
import proofs.«126650_j7679401525929_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the host stretch (the projection region's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- At the attention region's exit (the return): the same for its arrays. -/
def W3 (c : Dev nD) : Valuation τ sig (Elt F) :=
  Pipeline.withArrays spec1 c (W2 m c) fun w => (dat1 (U2 m) c).arrAt w cfg1.N
theorem W3_arr (c : Dev nD) (w : Fin cfg1.W) :
    W3 m c (Proc.devRef .tc (Pipeline.arrRef spec1 w)) = (dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt F) ((c : Thread nD τ).loc b) := fun c b => W3 m c b
theorem hF1 (c : Dev nD) (w : Fin cfg1.W) : (dat1 (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-! ### The arguments end as launched -/

/-- No host operation writes an argument. -/
theorem W1_arg (c : Dev nD) (r : Ref sig .tc) (h : r ∉ hostOps0_W) : W1 m c (Proc.devRef .tc r) = m ((c : Thread nD τ).loc r) :=
  StableHlo.after_of_writes_sub hostOps0 _ hostOps0_writes h

/-- x is the projection region's first input window: the pipeline leaves an input's array as it found it; the
    attention region does not touch it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (U1 m) c).arrAt_in 0 rfl _).trans (A_eq0 (U1 m) c 0))
    _ = m ((c : Thread nD τ).loc main_arg0) := W1_arg m c main_arg0 (by decide)
/-- The four weight matrices are no window's array in either region. -/
theorem W3_main_arg1 (c : Dev nD) : W3 m c (Proc.devRef .tc main_arg1) = m ((c : Thread nD τ).loc main_arg1) :=
  (W3_of_ne m c main_arg1 (by decide)).trans ((W2_of_ne m c main_arg1 (by decide)).trans (W1_arg m c main_arg1 (by decide)))
theorem W3_main_arg2 (c : Dev nD) : W3 m c (Proc.devRef .tc main_arg2) = m ((c : Thread nD τ).loc main_arg2) :=
  (W3_of_ne m c main_arg2 (by decide)).trans ((W2_of_ne m c main_arg2 (by decide)).trans (W1_arg m c main_arg2 (by decide)))
theorem W3_main_arg3 (c : Dev nD) : W3 m c (Proc.devRef .tc main_arg3) = m ((c : Thread nD τ).loc main_arg3) :=
  (W3_of_ne m c main_arg3 (by decide)).trans ((W2_of_ne m c main_arg3 (by decide)).trans (W1_arg m c main_arg3 (by decide)))
theorem W3_main_arg4 (c : Dev nD) : W3 m c (Proc.devRef .tc main_arg4) = m ((c : Thread nD τ).loc main_arg4) :=
  (W3_of_ne m c main_arg4 (by decide)).trans ((W2_of_ne m c main_arg4 (by decide)).trans (W1_arg m c main_arg4 (by decide)))
/-- The result array is the attention region's output window. -/
theorem W3_main_v9 (c : Dev nD) : W3 m c (Proc.devRef .tc main_v9) = (dat1 (U2 m) c).arrAt 4 cfg1.N :=
  W3_arr m c 4

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
abbrev 𝒱₀ : Variants := Variants.none
abbrev Lno : GSem nD τ sig → Finset Unit := fun _ => ∅
abbrev lvno : GSem nD τ sig → Unit → ℕ := fun _ _ => 0
/-- What rides beside the buffers: the generator register at some state, and nothing owed. -/
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lno lvno :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m) () defs₀ 𝒱₀ Lno lvno 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ Lno lvno 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`. Its invariant starts as the
    scoped rest and the generator register and ends giving them back (the accumulator's named contents forgotten). -/
def reg1 : Pipeline.RegionSeg (pcfgs (F := F)) adm (pdats m) () defs₀ 𝒱₀ Lno lvno 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ Lno lvno 1 fun _ _ => rfl
  pre c := iprop(StableHlo.held (c : Thread nD τ) (Pipeline.ucRefs τ sig) (W2 m c) ∗ Rd c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (U2 m) c)
    unfold Pipeline.ΦA
    iintro ⟨Hp, -, Hr⟩
    isplitl [Hr]; · iexact Hr
    iexact Hp
  hout c := by
    rw [Pipeline.ownSems0_none]
    refine (hout1 (U2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ Lno lvno) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ Lno lvno m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tend m)
    (hch := ⟨fun _ => .rfl, fun _ => .rfl, fun _ => .rfl, fun _ => .rfl⟩)
    (hinit := by
      refine Pipeline.initEach Lno lvno fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

/-- The run with the result array named: it ends at what the attention pipeline's write-backs leave in it. -/
theorem value_run : θ_run defs (onTc (τ := τ) (main (F := F))) ⟨m, fun _ => 0, ρ⟩ (fun r => ∀ c : Dev nD,
      r.2.mem ((c.tc : Thread nD τ).loc main_v9) = (dat1 (U2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v9 (by decide))).trans (W3_main_v9 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.KernelIdeal.Hand

end
-- ==== Proof.Spec.lean ====
/-
  The function both programs compute, over the extended reals, entry by entry.

  With c the binary value of the f32 word 0x3DCCCCCD (the f32 nearest one tenth), x of shape [2, 4096, 768] and four
  768 x 768 matrices (each stored [out, in]):
    lin x W (b, s, e)   = sum over d of x(b, s, d) * W(e, d)                     (a row of x against a row of W)
    qry = lin x Wq * c,  key = lin x Wk * c,  the values are lin x Wv
    score (b, s, k)     = (sum over d of qry(b, s, d) * key(b, k, d)) * c
    poly a              = a * a + a                                             (the polynomial weight)
    mix (b, s, d)       = sum over ALL 4096 positions k of poly(score(b, s, k)) * lin x Wv (b, k, d)
    result (b, s, e)    = (sum over d of mix(b, s, d) * Wo(e, d)) * c
  Nothing here needs a finite input: the only law used to join the two programs is that a sum over 4096 positions,
  taken 256 at a time and added up tile after tile from zero, is the sum over all of them (commutativity and
  associativity of + on the extended reals, never distributivity).
-/
import Idealize.ShloMosaic.PureOps.Ideal
import Idealize.ShloMosaic.Lib.ValueIdx

noncomputable section

open scoped BigOperators

namespace Cert.Spec

open Idealize.ShloMosaic Idealize.ShloMosaic.ValueIdx

/-- The scale all four products carry: the f32 word nearest one tenth, at its exact binary value. -/
abbrev tenth : EReal := Ideal.ofBits .f32 0x3DCCCCCD#32

/-- An activation array [2, 4096, 768] and a weight matrix [768, 768] at the ideal instance. -/
abbrev Act : Type := FVec Ideal (⟨3, ![2, 4096, 768]⟩ : Shape) .f32
abbrev Mat : Type := FVec Ideal (⟨2, ![768, 768]⟩ : Shape) .f32

/-- A linear layer: row (b, s) of x against row e of the [out, in] matrix W. -/
def lin (x : Act) (W : Mat) (b : Fin 2) (s : Fin 4096) (e : Fin 768) : EReal :=
  ∑ d : Fin 768, x (ix3 b s d) * W (ix2 e d)

/-- Queries and keys carry the scale; the values do not. -/
def qry (x : Act) (Wq : Mat) (b : Fin 2) (s : Fin 4096) (e : Fin 768) : EReal := lin x Wq b s e * tenth
def key (x : Act) (Wk : Mat) (b : Fin 2) (s : Fin 4096) (e : Fin 768) : EReal := lin x Wk b s e * tenth

/-- The scaled score of query position s against key position k. -/
def score (x : Act) (Wq Wk : Mat) (b : Fin 2) (s k : Fin 4096) : EReal :=
  (∑ d : Fin 768, qry x Wq b s d * key x Wk b k d) * tenth

/-- The polynomial weight a² + a. -/
def poly (a : EReal) : EReal := a * a + a

/-- The weighted sum of the values over all 4096 key positions. -/
def mix (x : Act) (Wq Wk Wv : Mat) (b : Fin 2) (s : Fin 4096) (d : Fin 768) : EReal :=
  ∑ k : Fin 4096, poly (score x Wq Wk b s k) * lin x Wv b k d

/-- The result array: the output projection of the mixed values, scaled. -/
def G (x : Act) (Wq Wk Wv Wo : Mat) : Act :=
  fun i => (∑ d : Fin 768, mix x Wq Wk Wv (i 0) (i 1) d * Wo (ix2 (i 2) d)) * tenth

theorem G_apply (x : Act) (Wq Wk Wv Wo : Mat) (b : Fin 2) (s : Fin 4096) (e : Fin 768) :
    G x Wq Wk Wv Wo (ix3 b s e) = (∑ d : Fin 768, mix x Wq Wk Wv b s d * Wo (ix2 e d)) * tenth := rfl

end Cert.Spec

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibDotNT.lean ====
/-
  A matrix product against a transposed right operand, read at an entry.  For dimension numbers that contract the
  second axis of BOTH operands (no batch axes), the product of an M × K array by an N × K array at entry (r, c) is the
  sum over k < K of left(r, k) · right(c, k) — the inner product of the left operand's row r with the right operand's
  row c — for the kernel's product into a zero accumulator and for the host's product alike.  The contraction index of
  the dimension numbers is a one-coordinate tuple; the sum is re-indexed by that coordinate.
-/
import Idealize.ShloMosaic.PureOps.Ideal.Laws
import Idealize.ShloMosaic.Lib.ValueIdx

noncomputable section

namespace Cert.LibDotNT

open Idealize.ShloMosaic Idealize.ShloMosaic.ValueIdx

variable {M K N : Nat} {φ₁ φ₂ : FTy}
  (D : DotDims (⟨2, ![M, K]⟩ : Shape) (⟨2, ![N, K]⟩ : Shape) (⟨2, ![M, N]⟩ : Shape))
  (hrank : D.contr.rank = 1) (hsize : D.contr.size ⟨0, by omega⟩ = K)
  (hlc : D.lhsContracting = [1]) (hrc : D.rhsContracting = [1])
  (hL0 : ∀ j k, (D.lhsIdx j k 0).val = (j 0).val) (hR0 : ∀ j k, (D.rhsIdx j k 0).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR0 in
/-- The right operand's index there is (c, k): its row is the output's column. -/
theorem rhsIdx_eq (r : Fin M) (c : Fin N) (k : Fin K) :
    D.rhsIdx (ix2 r c) ((contrEquiv1 D K hrank hsize).symm k) = ix2 c k := by
  funext a; apply Fin.ext
  match a with
  | ⟨0, _⟩ => exact hR0 _ _
  | ⟨1, _⟩ => exact (D.rhsIdx_val_of_single hrc _ _).trans (contrEquiv1_symm_val D K hrank hsize k)

include hrank hsize hlc hrc hL0 hR0 in
/-- The sum over the contraction index is the sum over k < K of the two operands at (r, k) and (c, k). -/
theorem sum_contr (lhs : FVec Ideal (⟨2, ![M, K]⟩ : Shape) φ₁) (rhs : FVec Ideal (⟨2, ![N, K]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 c k) := by
  rw [← Equiv.sum_comp (contrEquiv1 D K hrank hsize).symm]
  refine Finset.sum_congr rfl fun k _ => ?_
  rw [lhsIdx_eq D hrank hsize hlc hL0 r c k, rhsIdx_eq D hrank hsize hrc hR0 r c k]

include hrank hsize hlc hrc hL0 hR0 in
/-- The kernel's product into the zero accumulator, at an entry. -/
theorem matmul_zero_apply (prec : Option ContractPrecision) (lhs : FVec Ideal (⟨2, ![M, K]⟩ : Shape) φ₁)
    (rhs : FVec Ideal (⟨2, ![N, K]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 c k) :=
  (Ideal.matmul_constant_zero_apply D prec lhs rhs (ix2 r c)).trans (sum_contr D hrank hsize hlc hrc hL0 hR0 lhs rhs r c)

include hrank hsize hlc hrc hL0 hR0 in
/-- The host's product, at an entry, whatever its schedule. -/
theorem dotGeneral_apply (prec : Option ContractPrecision) (sched : HostSchedule) (lhs : FVec Ideal (⟨2, ![M, K]⟩ : Shape) φ₁)
    (rhs : FVec Ideal (⟨2, ![N, K]⟩ : Shape) φ₂) (r : Fin M) (c : Fin N) :
    FloatOps.dotGeneral D prec sched lhs rhs (ix2 r c) = ∑ k : Fin K, lhs (ix2 r k) * rhs (ix2 c k) :=
  (Ideal.dotGeneral_apply D prec sched lhs rhs (ix2 r c)).trans (sum_contr D hrank hsize hlc hrc hL0 hR0 lhs rhs r c)

end Cert.LibDotNT

end
-- ==== Proof.PayloadsAt.lean ====
/-
  The kernel's arithmetic read at one entry, at the ideal values.

  The projection kernel narrows a [1, 1024, 768] block of activations to a 1024 x 768 matrix and multiplies it by a
  768 x 768 weight matrix stored [in, out]; the query and key results carry the scale c (the f32 word nearest one
  tenth), the value result does not. The attention kernel keeps a 2048 x 768 accumulator: it starts at zero; one step
  adds, for the 256 key positions j of the step's tile, the polynomial weight of the scaled inner product of query
  row r with key row j times the value at (j, d); the last step multiplies the accumulator by the output weight
  matrix stored [in, out] and scales it. At the ideal values a format change is the identity, a shape cast between
  [1, a, b] and [a, b] keeps the entry, a matrix product into the zero accumulator is the plain sum over the
  contracted coordinate. No law of arithmetic is used: each statement is the payload's own term read at the entry.
-/
import proofs.«126650_j7679401525929_2_alg».proof.Proof.Gen.KernelIdeal.Skeleton
import proofs.«126650_j7679401525929_2_alg».proof.Proof.Spec
import proofs.«126650_j7679401525929_2_alg».proof.Proof.LibPlainDot
import proofs.«126650_j7679401525929_2_alg».proof.Proof.LibDotNT
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

/-! ## The projection kernel -/

/-- The narrowed activations at (r, d) are the block's entry (0, r, d). -/
theorem pay1_at (x0 : Vec Ideal S1x1024x768 .f32) (r : Fin 1024) (d : Fin 768) :
    k0_pay1 (F := Ideal) x0 (ix2 r d) = x0 (ix3 (0 : Fin 1) r d) := by
  unfold k0_pay1
  exact shapeCast_1ab_ab_apply x0 _ r d

/-- The product of the narrowed activations with a weight matrix [in, out], into the zero accumulator, at (r, e). -/
theorem proj_at (x0 : Vec Ideal S1x1024x768 .f32) (w : FVec Ideal S768x768 .bf16) (r : Fin 1024) (e : Fin 768) :
    FloatOps.matmul dot_S1024x768_S768x768_S1024x768_1_0_0_1_n_n none (k0_pay1 (F := Ideal) x0)
        (shapeCast S768x768 w shapeCasts_S768x768_S768x768) (constant (F := Ideal) S1024x768 .f32 0x00000000#32) (ix2 r e)
      = ∑ d : Fin 768, x0 (ix3 (0 : Fin 1) r d) * w (ix2 d e) := by
  rw [shapeCast_self]
  refine (Cert.LibPlainDot.matmul_zero_apply dot_S1024x768_S768x768_S1024x768_1_0_0_1_n_n rfl rfl rfl rfl
    (fun _ _ => rfl) (fun _ _ => rfl) none _ _ r e).trans ?_
  exact Finset.sum_congr rfl fun d _ => by rw [pay1_at]

/-- The query block at (0, r, e): row r of the activations against column e of the weights, scaled. -/
theorem pay_q_at (x0 : Vec Ideal S1x1024x768 .f32) (w : Vec Ideal S768x768 .bf16) (r : Fin 1024) (e : Fin 768) :
    k0_pay2 (F := Ideal) x0 w (ix3 (0 : Fin 1) r e)
      = (∑ d : Fin 768, x0 (ix3 (0 : Fin 1) r d) * w (ix2 d e)) * Cert.Spec.tenth := by
  unfold k0_pay2
  refine (shapeCast_ab_1ab_apply _ _ (0 : Fin 1) r e).trans ?_
  exact congrArg (· * Cert.Spec.tenth) (proj_at x0 w r e)

/-- The key block at (0, r, e): the same with the key weights. -/
theorem pay_k_at (x0 : Vec Ideal S1x1024x768 .f32) (w : Vec Ideal S768x768 .bf16) (r : Fin 1024) (e : Fin 768) :
    k0_pay3 (F := Ideal) x0 w (ix3 (0 : Fin 1) r e)
      = (∑ d : Fin 768, x0 (ix3 (0 : Fin 1) r d) * w (ix2 d e)) * Cert.Spec.tenth := by
  unfold k0_pay3
  refine (shapeCast_ab_1ab_apply _ _ (0 : Fin 1) r e).trans ?_
  exact congrArg (· * Cert.Spec.tenth) (proj_at x0 w r e)

/-- The value block at (0, r, e): the product alone, unscaled. -/
theorem pay_v_at (x0 : Vec Ideal S1x1024x768 .f32) (w : Vec Ideal S768x768 .bf16) (r : Fin 1024) (e : Fin 768) :
    k0_pay4 (F := Ideal) x0 w (ix3 (0 : Fin 1) r e) = ∑ d : Fin 768, x0 (ix3 (0 : Fin 1) r d) * w (ix2 d e) := by
  unfold k0_pay4
  refine (shapeCast_ab_1ab_apply _ _ (0 : Fin 1) r e).trans ?_
  exact proj_at x0 w r e

/-! ## The attention kernel -/

/-- The accumulator starts at zero. -/
theorem acc_zero_at (r : Fin 2048) (d : Fin 768) : k1_pay1 (F := Ideal) (ix2 r d) = 0 := by
  unfold k1_pay1
  rw [shapeCast_self]
  exact Ideal.ofBits_zero_f32

/-- The scaled inner product of query row r with key row j of the step's tile. -/
theorem score_at (q : FVec Ideal S1x2048x768 .bf16) (k : FVec Ideal S1x256x768 .bf16) (r : Fin 2048) (j : Fin 256) :
    FloatOps.matmul dot_S2048x768_S256x768_S2048x256_1_1_0_0_n_n none
        (shapeCast S2048x768 q shapeCasts_S1x2048x768_S2048x768) (shapeCast S256x768 k shapeCasts_S1x256x768_S256x768)
        (constant (F := Ideal) S2048x256 .f32 0x00000000#32) (ix2 r j)
      = ∑ d' : Fin 768, q (ix3 (0 : Fin 1) r d') * k (ix3 (0 : Fin 1) j d') := by
  refine (Cert.LibDotNT.matmul_zero_apply dot_S2048x768_S256x768_S2048x256_1_1_0_0_n_n rfl rfl rfl rfl
    (fun _ _ => rfl) (fun _ _ => rfl) none _ _ r j).trans ?_
  exact Finset.sum_congr rfl fun d' _ => by
    rw [shapeCast_1ab_ab_apply q _ r d', shapeCast_1ab_ab_apply k _ j d']

/-- One step of the accumulation at (r, d): the accumulator plus the tile's 256 weighted values. -/
theorem acc_step_at (q : Vec Ideal S1x2048x768 .bf16) (k v : Vec Ideal S1x256x768 .bf16) (a : Vec Ideal S2048x768 .f32)
    (r : Fin 2048) (d : Fin 768) :
    k1_pay2 (F := Ideal) q k v a (ix2 r d)
      = a (ix2 r d) + ∑ j : Fin 256, Cert.Spec.poly ((∑ d' : Fin 768, q (ix3 (0 : Fin 1) r d') * k (ix3 (0 : Fin 1) j d'))
          * Cert.Spec.tenth) * v (ix3 (0 : Fin 1) j d) := by
  unfold k1_pay2
  rw [shapeCast_self]
  refine congrArg (a (ix2 r d) + ·) ?_
  refine (Cert.LibPlainDot.matmul_zero_apply dot_S2048x256_S256x768_S2048x768_1_0_0_1_n_n rfl rfl rfl rfl
    (fun _ _ => rfl) (fun _ _ => rfl) none _ _ r d).trans ?_
  refine Finset.sum_congr rfl fun j _ => ?_
  rw [shapeCast_1ab_ab_apply v _ j d]
  exact congrArg (fun t => Cert.Spec.poly (t * Cert.Spec.tenth) * v (ix3 (0 : Fin 1) j d)) (score_at q k r j)

/-- The last step's result block at (0, r, e): row r of the accumulator against column e of the output weights,
    scaled. -/
theorem out_proj_at (a : Vec Ideal S2048x768 .f32) (wo : Vec Ideal S768x768 .bf16) (r : Fin 2048) (e : Fin 768) :
    k1_pay3 (F := Ideal) a wo (ix3 (0 : Fin 1) r e) = (∑ d : Fin 768, a (ix2 r d) * wo (ix2 d e)) * Cert.Spec.tenth := by
  unfold k1_pay3
  refine (shapeCast_ab_1ab_apply _ _ (0 : Fin 1) r e).trans ?_
  rw [shapeCast_self]
  refine congrArg (· * Cert.Spec.tenth) ?_
  exact Cert.LibPlainDot.matmul_zero_apply dot_S2048x768_S768x768_S2048x768_1_0_0_1_n_n rfl rfl rfl rfl
    (fun _ _ => rfl) (fun _ _ => rfl) none _ _ r e

end Cert.KernelIdeal.PayVal

end
-- ==== Proof.ValueQKV.lean ====
/-
  The projection region's three output arrays as whole-array functions of what the region finds. Point (b, si) of the
  grid (2, 4) writes rows si·1024 … si·1024 + 1023 of batch b of each output; these eight blocks tile the
  [2, 4096, 768] arrays. Entry (b, s, e) of the first output is the row (b, s) of x against column e of the first
  (already transposed) matrix, scaled by the f32 word nearest one tenth; the second likewise with the second matrix;
  the third is the unscaled product with the third matrix. An entry depends on its own row of x only, so reading a
  1024-row block of x instead of the whole array changes nothing.
-/
import proofs.«126650_j7679401525929_2_alg».proof.Proof.FrameI.Region0
import proofs.«126650_j7679401525929_2_alg».proof.Proof.PayloadsAt
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.KernelIdeal.PayVal
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- Row (b, s) of an activation array against column e of a matrix, scaled by the f32 word nearest one tenth. -/
def projS (x : FVec Ideal S2x4096x768 .f32) (w : FVec Ideal S768x768 .bf16) : FVec Ideal S2x4096x768 .bf16 :=
  fun i => (∑ d : Fin 768, x (ix3 (i 0) (i 1) d) * w (ix2 d (i 2))) * Cert.Spec.tenth
/-- The same, unscaled. -/
def projU (x : FVec Ideal S2x4096x768 .f32) (w : FVec Ideal S768x768 .bf16) : FVec Ideal S2x4096x768 .bf16 :=
  fun i => ∑ d : Fin 768, x (ix3 (i 0) (i 1) d) * w (ix2 d (i 2))

/-- The printed index maps, decided over the eight points, coordinate by coordinate: the block of x moves with each
    output's block, the matrices' blocks never move, and the outputs' block indices stay in their ranges. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_5.index t (0 : Fin 3) = win0_4.index t (0 : Fin 3) ∧ win0_5.index t (1 : Fin 3) = win0_4.index t (1 : Fin 3) ∧ win0_5.index t (2 : Fin 3) = 0
    ∧ win0_6.index t (0 : Fin 3) = win0_4.index t (0 : Fin 3) ∧ win0_6.index t (1 : Fin 3) = win0_4.index t (1 : Fin 3) ∧ win0_6.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 1 ∧ win0_4.index t (1 : Fin 3) ≤ 3 :=
  (by decide +kernel : ∀ t : Fin grid0.N, _)

/-- Every block of the arrays is some point's. -/
theorem idx_onto : ∀ (q0 : Fin 2) (q1 : Fin 4), ∃ t : Fin cfg0.N, win0_4.index t = ![q0.val, q1.val, 0] :=
  (by decide +kernel : ∀ (q0 : Fin 2) (q1 : Fin 4), ∃ t : Fin grid0.N, win0_4.index t = ![q0.val, q1.val, 0])

/-! ## Output window 4: the scaled product with the first matrix -/

/-- What point `t` writes back is block `t` of the whole-array function. -/
theorem flushed4_eq (c : Dev nD) (t : Fin cfg0.N) :
    (dat0 V c).flushed 4 t = ((cfg0.win 4).blk t).view.read (Elt Ideal) (projS (V c main_arg0) (V c (Pipeline.arrRef spec0 1))) := by
  show (cfg0.win 4).cut (grid0.coords t) ((dat0 V c).after 4 t) = _
  rw [after0_4]
  unfold out0_4
  rw [View.canon_unit_zero hz3]
  simp only [View.ld_unit_zero (S := S1x1024x768) hz3, View.ld_unit_zero (S := S768x768) hz2]
  obtain ⟨e0, e1, e2, e3, e4, e5, e6, e7, e8, e9, e10, e11, e12, e13, e14, e15, e16, e17⟩ := idx_facts t
  funext j
  obtain ⟨z, r, e, rfl⟩ : ∃ (z : Fin 1) (r : Fin 1024) (e : Fin 768), j = ix3 z r e := ⟨j 0, j 1, j 2, eq_ix3 j⟩
  obtain rfl : z = 0 := Subsingleton.elim _ _
  refine (pay_q_at (iblk0 V c 0 t) (iblk0 V c 1 t) r e).trans ?_
  show _ = projS (V c main_arg0) (V c (Pipeline.arrRef spec0 1)) (((cfg0.win 4).blk t).view.emb (ix3 0 r e))
  unfold projS
  have hx : ∀ d : Fin 768, iblk0 V c 0 t (ix3 (0 : Fin 1) r d)
      = V c main_arg0 (ix3 ((((cfg0.win 4).blk t).view.emb (ix3 (0 : Fin 1) r e)) 0) ((((cfg0.win 4).blk t).view.emb (ix3 (0 : Fin 1) r e)) 1) d) := by
    intro d
    show V c main_arg0 (((cfg0.win 0).blk t).view.emb (ix3 (0 : Fin 1) r d)) = _
    refine congrArg (V c main_arg0) ?_
    funext a; apply Fin.ext
    match a with
    | ⟨0, _⟩ => show win0_0.index t (0 : Fin 3) * 1 + 1 * (0 : ℕ) = win0_4.index t (0 : Fin 3) * 1 + 1 * (0 : ℕ); omega
    | ⟨1, _⟩ => show win0_0.index t (1 : Fin 3) * 1024 + 1 * r.val = win0_4.index t (1 : Fin 3) * 1024 + 1 * r.val; omega
    | ⟨2, _⟩ => show win0_0.index t (2 : Fin 3) * 768 + 1 * d.val = d.val; omega
  have hw : ∀ d : Fin 768, iblk0 V c 1 t (ix2 d e)
      = V c (Pipeline.arrRef spec0 1) (ix2 d ((((cfg0.win 4).blk t).view.emb (ix3 (0 : Fin 1) r e)) 2)) := by
    intro d
    show V c (Pipeline.arrRef spec0 1) (((cfg0.win 1).blk t).view.emb (ix2 d e)) = _
    refine congrArg (V c (Pipeline.arrRef spec0 1)) ?_
    funext a; apply Fin.ext
    match a with
    | ⟨0, _⟩ => show win0_1.index t (0 : Fin 2) * 768 + 1 * d.val = d.val; omega
    | ⟨1, _⟩ => show win0_1.index t (1 : Fin 2) * 768 + 1 * e.val = win0_4.index t (2 : Fin 3) * 768 + 1 * e.val; omega
  simp only [hx, hw]

/-- An index of the array is in point `t`'s block iff each coordinate is in the block's range on its axis. -/
theorem mem_blk4 (t : Fin cfg0.N) (i : S2x4096x768.Idx) :
    i ∈ ((cfg0.win 4).blk t).view.set ↔ ∀ a : Fin 3, win0_4.index t a * S1x1024x768.size a ≤ (i a).val ∧ (i a).val < win0_4.index t a * S1x1024x768.size a + S1x1024x768.size a := by
  show i ∈ ((View.whole (Pipeline.arrRef spec0 4)).slice (win0_4.rect t)).set ↔ _
  rw [View.set_slice_whole, Rect.mem_set_unit]
  exact Iff.rfl

/-- Every entry of the array lies in the block of the point (batch, row / 1024). -/
theorem cover4 (i : S2x4096x768.Idx) : ∃ t : Fin cfg0.N, (cfg0.win 4).flush t = true ∧ i ∈ ((cfg0.win 4).blk t).view.set := by
  have hi0 : (i 0).val < 2 := (i 0).isLt
  have hi1 : (i 1).val < 4096 := (i 1).isLt
  have hi2 : (i 2).val < 768 := (i 2).isLt
  obtain ⟨t, ht⟩ := idx_onto ⟨(i 0).val, hi0⟩ ⟨(i 1).val / 1024, by omega⟩
  obtain ⟨e0, e1, e2, e3, e4, e5, e6, e7, e8, e9, e10, e11, e12, e13, e14, e15, e16, e17⟩ := idx_facts t
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 768 ≤ (i 2).val ∧ (i 2).val < win0_4.index t (2 : Fin 3) * 768 + 768; omega

/-- The array after the region: the whole-array function of the region-entry contents. -/
theorem final4 (c : Dev nD) :
    (dat0 V c).arrAt 4 cfg0.N = projS (V c main_arg0) (V c (Pipeline.arrRef spec0 1)) :=
  (dat0 V c).arrAt_eq_of_cover 4 _ (fun t _ => flushed4_eq V c t) cover4

/-! ## Output window 5: the scaled product with the second matrix -/

/-- What point `t` writes back is block `t` of the whole-array function. -/
theorem flushed5_eq (c : Dev nD) (t : Fin cfg0.N) :
    (dat0 V c).flushed 5 t = ((cfg0.win 5).blk t).view.read (Elt Ideal) (projS (V c main_arg0) (V c (Pipeline.arrRef spec0 2))) := by
  show (cfg0.win 5).cut (grid0.coords t) ((dat0 V c).after 5 t) = _
  rw [after0_5]
  unfold out0_5
  rw [View.canon_unit_zero hz3]
  simp only [View.ld_unit_zero (S := S1x1024x768) hz3, View.ld_unit_zero (S := S768x768) hz2]
  obtain ⟨e0, e1, e2, e3, e4, e5, e6, e7, e8, e9, e10, e11, e12, e13, e14, e15, e16, e17⟩ := idx_facts t
  funext j
  obtain ⟨z, r, e, rfl⟩ : ∃ (z : Fin 1) (r : Fin 1024) (e : Fin 768), j = ix3 z r e := ⟨j 0, j 1, j 2, eq_ix3 j⟩
  obtain rfl : z = 0 := Subsingleton.elim _ _
  refine (pay_k_at (iblk0 V c 0 t) (iblk0 V c 2 t) r e).trans ?_
  show _ = projS (V c main_arg0) (V c (Pipeline.arrRef spec0 2)) (((cfg0.win 5).blk t).view.emb (ix3 0 r e))
  unfold projS
  have hx : ∀ d : Fin 768, iblk0 V c 0 t (ix3 (0 : Fin 1) r d)
      = V c main_arg0 (ix3 ((((cfg0.win 5).blk t).view.emb (ix3 (0 : Fin 1) r e)) 0) ((((cfg0.win 5).blk t).view.emb (ix3 (0 : Fin 1) r e)) 1) d) := by
    intro d
    show V c main_arg0 (((cfg0.win 0).blk t).view.emb (ix3 (0 : Fin 1) r d)) = _
    refine congrArg (V c main_arg0) ?_
    funext a; apply Fin.ext
    match a with
    | ⟨0, _⟩ => show win0_0.index t (0 : Fin 3) * 1 + 1 * (0 : ℕ) = win0_5.index t (0 : Fin 3) * 1 + 1 * (0 : ℕ); omega
    | ⟨1, _⟩ => show win0_0.index t (1 : Fin 3) * 1024 + 1 * r.val = win0_5.index t (1 : Fin 3) * 1024 + 1 * r.val; omega
    | ⟨2, _⟩ => show win0_0.index t (2 : Fin 3) * 768 + 1 * d.val = d.val; omega
  have hw : ∀ d : Fin 768, iblk0 V c 2 t (ix2 d e)
      = V c (Pipeline.arrRef spec0 2) (ix2 d ((((cfg0.win 5).blk t).view.emb (ix3 (0 : Fin 1) r e)) 2)) := by
    intro d
    show V c (Pipeline.arrRef spec0 2) (((cfg0.win 2).blk t).view.emb (ix2 d e)) = _
    refine congrArg (V c (Pipeline.arrRef spec0 2)) ?_
    funext a; apply Fin.ext
    match a with
    | ⟨0, _⟩ => show win0_2.index t (0 : Fin 2) * 768 + 1 * d.val = d.val; omega
    | ⟨1, _⟩ => show win0_2.index t (1 : Fin 2) * 768 + 1 * e.val = win0_5.index t (2 : Fin 3) * 768 + 1 * e.val; omega
  simp only [hx, hw]

/-- An index of the array is in point `t`'s block iff each coordinate is in the block's range on its axis. -/
theorem mem_blk5 (t : Fin cfg0.N) (i : S2x4096x768.Idx) :
    i ∈ ((cfg0.win 5).blk t).view.set ↔ ∀ a : Fin 3, win0_5.index t a * S1x1024x768.size a ≤ (i a).val ∧ (i a).val < win0_5.index t a * S1x1024x768.size a + S1x1024x768.size a := by
  show i ∈ ((View.whole (Pipeline.arrRef spec0 5)).slice (win0_5.rect t)).set ↔ _
  rw [View.set_slice_whole, Rect.mem_set_unit]
  exact Iff.rfl

/-- Every entry of the array lies in the block of the point (batch, row / 1024). -/
theorem cover5 (i : S2x4096x768.Idx) : ∃ t : Fin cfg0.N, (cfg0.win 5).flush t = true ∧ i ∈ ((cfg0.win 5).blk t).view.set := by
  have hi0 : (i 0).val < 2 := (i 0).isLt
  have hi1 : (i 1).val < 4096 := (i 1).isLt
  have hi2 : (i 2).val < 768 := (i 2).isLt
  obtain ⟨t, ht⟩ := idx_onto ⟨(i 0).val, hi0⟩ ⟨(i 1).val / 1024, by omega⟩
  obtain ⟨e0, e1, e2, e3, e4, e5, e6, e7, e8, e9, e10, e11, e12, e13, e14, e15, e16, e17⟩ := idx_facts t
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 768 ≤ (i 2).val ∧ (i 2).val < win0_5.index t (2 : Fin 3) * 768 + 768; omega

/-- The array after the region: the whole-array function of the region-entry contents. -/
theorem final5 (c : Dev nD) :
    (dat0 V c).arrAt 5 cfg0.N = projS (V c main_arg0) (V c (Pipeline.arrRef spec0 2)) :=
  (dat0 V c).arrAt_eq_of_cover 5 _ (fun t _ => flushed5_eq V c t) cover5

/-! ## Output window 6: the unscaled product with the third matrix -/

/-- What point `t` writes back is block `t` of the whole-array function. -/
theorem flushed6_eq (c : Dev nD) (t : Fin cfg0.N) :
    (dat0 V c).flushed 6 t = ((cfg0.win 6).blk t).view.read (Elt Ideal) (projU (V c main_arg0) (V c (Pipeline.arrRef spec0 3))) := by
  show (cfg0.win 6).cut (grid0.coords t) ((dat0 V c).after 6 t) = _
  rw [after0_6]
  unfold out0_6
  rw [View.canon_unit_zero hz3]
  simp only [View.ld_unit_zero (S := S1x1024x768) hz3, View.ld_unit_zero (S := S768x768) hz2]
  obtain ⟨e0, e1, e2, e3, e4, e5, e6, e7, e8, e9, e10, e11, e12, e13, e14, e15, e16, e17⟩ := idx_facts t
  funext j
  obtain ⟨z, r, e, rfl⟩ : ∃ (z : Fin 1) (r : Fin 1024) (e : Fin 768), j = ix3 z r e := ⟨j 0, j 1, j 2, eq_ix3 j⟩
  obtain rfl : z = 0 := Subsingleton.elim _ _
  refine (pay_v_at (iblk0 V c 0 t) (iblk0 V c 3 t) r e).trans ?_
  show _ = projU (V c main_arg0) (V c (Pipeline.arrRef spec0 3)) (((cfg0.win 6).blk t).view.emb (ix3 0 r e))
  unfold projU
  have hx : ∀ d : Fin 768, iblk0 V c 0 t (ix3 (0 : Fin 1) r d)
      = V c main_arg0 (ix3 ((((cfg0.win 6).blk t).view.emb (ix3 (0 : Fin 1) r e)) 0) ((((cfg0.win 6).blk t).view.emb (ix3 (0 : Fin 1) r e)) 1) d) := by
    intro d
    show V c main_arg0 (((cfg0.win 0).blk t).view.emb (ix3 (0 : Fin 1) r d)) = _
    refine congrArg (V c main_arg0) ?_
    funext a; apply Fin.ext
    match a with
    | ⟨0, _⟩ => show win0_0.index t (0 : Fin 3) * 1 + 1 * (0 : ℕ) = win0_6.index t (0 : Fin 3) * 1 + 1 * (0 : ℕ); omega
    | ⟨1, _⟩ => show win0_0.index t (1 : Fin 3) * 1024 + 1 * r.val = win0_6.index t (1 : Fin 3) * 1024 + 1 * r.val; omega
    | ⟨2, _⟩ => show win0_0.index t (2 : Fin 3) * 768 + 1 * d.val = d.val; omega
  have hw : ∀ d : Fin 768, iblk0 V c 3 t (ix2 d e)
      = V c (Pipeline.arrRef spec0 3) (ix2 d ((((cfg0.win 6).blk t).view.emb (ix3 (0 : Fin 1) r e)) 2)) := by
    intro d
    show V c (Pipeline.arrRef spec0 3) (((cfg0.win 3).blk t).view.emb (ix2 d e)) = _
    refine congrArg (V c (Pipeline.arrRef spec0 3)) ?_
    funext a; apply Fin.ext
    match a with
    | ⟨0, _⟩ => show win0_3.index t (0 : Fin 2) * 768 + 1 * d.val = d.val; omega
    | ⟨1, _⟩ => show win0_3.index t (1 : Fin 2) * 768 + 1 * e.val = win0_6.index t (2 : Fin 3) * 768 + 1 * e.val; omega
  simp only [hx, hw]

/-- An index of the array is in point `t`'s block iff each coordinate is in the block's range on its axis. -/
theorem mem_blk6 (t : Fin cfg0.N) (i : S2x4096x768.Idx) :
    i ∈ ((cfg0.win 6).blk t).view.set ↔ ∀ a : Fin 3, win0_6.index t a * S1x1024x768.size a ≤ (i a).val ∧ (i a).val < win0_6.index t a * S1x1024x768.size a + S1x1024x768.size a := by
  show i ∈ ((View.whole (Pipeline.arrRef spec0 6)).slice (win0_6.rect t)).set ↔ _
  rw [View.set_slice_whole, Rect.mem_set_unit]
  exact Iff.rfl

/-- Every entry of the array lies in the block of the point (batch, row / 1024). -/
theorem cover6 (i : S2x4096x768.Idx) : ∃ t : Fin cfg0.N, (cfg0.win 6).flush t = true ∧ i ∈ ((cfg0.win 6).blk t).view.set := by
  have hi0 : (i 0).val < 2 := (i 0).isLt
  have hi1 : (i 1).val < 4096 := (i 1).isLt
  have hi2 : (i 2).val < 768 := (i 2).isLt
  obtain ⟨t, ht⟩ := idx_onto ⟨(i 0).val, hi0⟩ ⟨(i 1).val / 1024, by omega⟩
  obtain ⟨e0, e1, e2, e3, e4, e5, e6, e7, e8, e9, e10, e11, e12, e13, e14, e15, e16, e17⟩ := idx_facts t
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 768 ≤ (i 2).val ∧ (i 2).val < win0_6.index t (2 : Fin 3) * 768 + 768; omega

/-- The array after the region: the whole-array function of the region-entry contents. -/
theorem final6 (c : Dev nD) :
    (dat0 V c).arrAt 6 cfg0.N = projU (V c main_arg0) (V c (Pipeline.arrRef spec0 3)) :=
  (dat0 V c).arrAt_eq_of_cover 6 _ (fun t _ => flushed6_eq V c t) cover6

end Cert.KernelIdeal.Hand

end
-- ==== Proof.LibERealStats.lean ====
/-
  General lemmas on the extended reals for batch statistics (mean and variance) computed from
  per-tile partial sums. Nothing here mentions a program: the index types are abstract finite
  types, and the only operation beyond Mathlib's is the quotient `div` of the ideal float values
  (`x * y⁻¹` off zero).

  Contents:
  * `IsReal` — an extended real that is the image of a real number — and its closure under the
    arithmetic operations, finite sums, and the quotient by a nonzero real;
  * regrouping of a sum over `Fin (a * b)` into `a` tiles of `b` consecutive terms, in any additive
    commutative monoid;
  * the variance identity `(Σ (hᵢ - μ)²) / N = (Σ hᵢ²) / N - μ²`, `μ = (Σ hᵢ) / N`, for finite `hᵢ`;
  * small facts about the quotient by a real and about sums of ones.
-/
import Mathlib.Data.EReal.Inv
import Mathlib.Algebra.BigOperators.Group.Finset.Basic
import Mathlib.Algebra.BigOperators.Fin
import Mathlib.Logic.Equiv.Fin.Basic
import Mathlib.Tactic.FieldSimp
import Mathlib.Tactic.Ring
import Idealize.ShloMosaic.PureOps.Ideal

namespace Cert.LibERealStats

open scoped BigOperators

/-! ## Finite extended reals -/

/-- An extended real is *finite* when it is the image of a real number. -/
def IsReal (x : EReal) : Prop := ∃ r : ℝ, x = (r : EReal)

/-- The image of a real number is finite. -/
theorem IsReal.coe (r : ℝ) : IsReal (r : EReal) := ⟨r, rfl⟩

/-- Zero is finite. -/
theorem IsReal.zero : IsReal (0 : EReal) := ⟨0, rfl⟩

/-- One is finite. -/
theorem IsReal.one : IsReal (1 : EReal) := ⟨1, rfl⟩

/-- A natural number, seen as an extended real, is finite. -/
theorem IsReal.natCast (n : ℕ) : IsReal (n : EReal) := ⟨(n : ℝ), rfl⟩

/-- A finite extended real is not `⊤`. -/
theorem IsReal.ne_top {x : EReal} (hx : IsReal x) : x ≠ ⊤ := by
  obtain ⟨a, rfl⟩ := hx; exact EReal.coe_ne_top a

/-- A finite extended real is not `⊥`. -/
theorem IsReal.ne_bot {x : EReal} (hx : IsReal x) : x ≠ ⊥ := by
  obtain ⟨a, rfl⟩ := hx; exact EReal.coe_ne_bot a

/-- An extended real that is neither `⊤` nor `⊥` is finite. -/
theorem isReal_of_ne {x : EReal} (ht : x ≠ ⊤) (hb : x ≠ ⊥) : IsReal x := by
  induction x using EReal.rec with
  | bot => exact absurd rfl hb
  | top => exact absurd rfl ht
  | coe r => exact ⟨r, rfl⟩

/-- Finite means: neither infinity. -/
theorem isReal_iff {x : EReal} : IsReal x ↔ x ≠ ⊤ ∧ x ≠ ⊥ :=
  ⟨fun h => ⟨h.ne_top, h.ne_bot⟩, fun h => isReal_of_ne h.1 h.2⟩

/-- An extended real whose absolute value `max x (-x)` is below `⊤` is finite. -/
theorem isReal_of_abs_lt_top {x : EReal} (h : max x (-x) < ⊤) : IsReal x := by
  induction x using EReal.rec with
  | bot => simp at h
  | top => simp at h
  | coe r => exact ⟨r, rfl⟩

/-- The sum of two finite extended reals is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a finite extended real is finite. -/
theorem IsReal.neg {x : EReal} (hx : IsReal x) : IsReal (-x) := by
  obtain ⟨a, rfl⟩ := hx; exact ⟨-a, (EReal.coe_neg a).symm⟩

/-- The difference of two finite extended reals is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite extended reals is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The embedding of the reals commutes with `max`. -/
theorem coe_max (a b : ℝ) : ((max a b : ℝ) : EReal) = max (a : EReal) (b : EReal) :=
  EReal.coe_strictMono.monotone.map_max

/-- The embedding of the reals commutes with `min`. -/
theorem coe_min (a b : ℝ) : ((min a b : ℝ) : EReal) = min (a : EReal) (b : EReal) :=
  EReal.coe_strictMono.monotone.map_min

/-- The maximum of two finite extended reals is finite. -/
theorem IsReal.max {x y : EReal} (hx : IsReal x) (hy : IsReal y) : IsReal (max x y) := by
  obtain ⟨a, rfl⟩ := hx; obtain ⟨b, rfl⟩ := hy; exact ⟨_, (coe_max a b).symm⟩

/-- The minimum of two finite extended reals is finite. -/
theorem IsReal.min {x y : EReal} (hx : IsReal x) (hy : IsReal y) : IsReal (min x y) := by
  obtain ⟨a, rfl⟩ := hx; obtain ⟨b, rfl⟩ := hy; exact ⟨_, (coe_min a b).symm⟩

/-! ## Finite sums -/

/-- The embedding of the reals commutes with finite sums. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A finite sum of extended reals, each the image of a real, is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_sum]; exact Finset.sum_congr rfl h

/-- A finite sum of finite extended reals is finite. -/
theorem IsReal.sum {ι : Type*} {s : Finset ι} {f : ι → EReal} (h : ∀ i ∈ s, IsReal (f i)) :
    IsReal (∑ i ∈ s, f i) := by
  classical
  revert h
  refine Finset.induction_on s ?_ ?_
  · intro _; rw [Finset.sum_empty]; exact IsReal.zero
  · intro a s ha ih h
    rw [Finset.sum_insert ha]
    exact (h a (Finset.mem_insert_self a s)).add (ih fun i hi => h i (Finset.mem_insert_of_mem hi))

/-- The sum over a whole finite type of finite extended reals is finite. -/
theorem IsReal.sum_univ {ι : Type*} [Fintype ι] {f : ι → EReal} (h : ∀ i, IsReal (f i)) :
    IsReal (∑ i, f i) :=
  IsReal.sum fun i _ => h i

/-- The sum of finite extended reals over the indices that satisfy a predicate is finite. -/
theorem IsReal.sum_filter {ι : Type*} [Fintype ι] (p : ι → Prop) [DecidablePred p] {f : ι → EReal}
    (h : ∀ i, IsReal (f i)) : IsReal (∑ i ∈ Finset.univ.filter p, f i) :=
  IsReal.sum fun i _ => h i

/-- A finite initial value plus a finite sum of finite extended reals is finite. -/
theorem IsReal.add_sum {ι : Type*} {s : Finset ι} {f : ι → EReal} {x : EReal} (hx : IsReal x)
    (h : ∀ i ∈ s, IsReal (f i)) : IsReal (x + ∑ i ∈ s, f i) :=
  hx.add (IsReal.sum h)

/-- A finite initial value plus the sum of finite extended reals over the indices that satisfy a
    predicate is finite. -/
theorem IsReal.add_sum_filter {ι : Type*} [Fintype ι] (p : ι → Prop) [DecidablePred p]
    {f : ι → EReal} {x : EReal} (hx : IsReal x) (h : ∀ i, IsReal (f i)) :
    IsReal (x + ∑ i ∈ Finset.univ.filter p, f i) :=
  hx.add (IsReal.sum_filter p h)

/-- A sum of ones over a finite set is the number of its elements. -/
theorem sum_one_eq_card {ι : Type*} (s : Finset ι) :
    ∑ _j ∈ s, (1 : EReal) = ((s.card : ℝ) : EReal) := by
  have h : ∑ _j ∈ s, (1 : EReal) = ∑ _j ∈ s, ((1 : ℝ) : EReal) := rfl
  rw [h, ← coe_sum, Finset.sum_const, nsmul_eq_mul, mul_one]

/-- A sum of one real constant over a finite set is the number of its elements times the constant. -/
theorem sum_const_coe {ι : Type*} (s : Finset ι) (c : ℝ) :
    ∑ _j ∈ s, (c : EReal) = (((s.card : ℝ) * c : ℝ) : EReal) := by
  rw [← coe_sum, Finset.sum_const, nsmul_eq_mul]

/-! ## The quotient by a nonzero real -/

/-- The ideal quotient of the images of two reals, the divisor nonzero, is the image of the real
    quotient. -/
theorem div_coe_coe (a : ℝ) {c : ℝ} (hc : c ≠ 0) :
    Idealize.ShloMosaic.Ideal.div (a : EReal) (c : EReal) = ((a / c : ℝ) : EReal) := by
  rw [Idealize.ShloMosaic.Ideal.div_coe hc, ← EReal.coe_mul, mul_one_div]

/-- The ideal quotient of a finite extended real by a nonzero real is finite. -/
theorem IsReal.div {x : EReal} (hx : IsReal x) {c : ℝ} (hc : c ≠ 0) :
    IsReal (Idealize.ShloMosaic.Ideal.div x (c : EReal)) := by
  obtain ⟨a, rfl⟩ := hx; exact ⟨a / c, div_coe_coe a hc⟩

/-- Dividing any extended real by a nonzero real is multiplying it by the quotient of one by that
    real (the reciprocal), at the infinities too. -/
theorem div_eq_mul_one_div {c : ℝ} (hc : c ≠ 0) (x : EReal) :
    Idealize.ShloMosaic.Ideal.div x (c : EReal)
      = x * Idealize.ShloMosaic.Ideal.div 1 (c : EReal) := by
  rw [Idealize.ShloMosaic.Ideal.div_coe hc, Idealize.ShloMosaic.Ideal.div_coe hc, one_mul]

/-- The quotient of one by a nonzero real is the image of the real reciprocal. -/
theorem one_div_coe {c : ℝ} (hc : c ≠ 0) :
    Idealize.ShloMosaic.Ideal.div 1 (c : EReal) = ((1 / c : ℝ) : EReal) := by
  rw [Idealize.ShloMosaic.Ideal.div_coe hc, one_mul]

/-- The maximum of one and a natural number is the image of the real `max 1 k`. -/
theorem max_one_natCast_eq (k : ℕ) :
    max (1 : EReal) ((k : ℝ) : EReal) = ((max 1 (k : ℝ) : ℝ) : EReal) := by
  rw [coe_max, EReal.coe_one]

/-- The maximum of one and a natural number is a real that is at least one, hence not zero. -/
theorem max_one_natCast (k : ℕ) :
    ∃ r : ℝ, r ≠ 0 ∧ max (1 : EReal) ((k : ℝ) : EReal) = (r : EReal) :=
  ⟨max 1 (k : ℝ), (lt_of_lt_of_le one_pos (le_max_left _ _)).ne', max_one_natCast_eq k⟩

/-- The same with the lower bound kept: the maximum of one and a natural number is a real `r ≥ 1`. -/
theorem max_one_natCast_ge (k : ℕ) :
    ∃ r : ℝ, 1 ≤ r ∧ max (1 : EReal) ((k : ℝ) : EReal) = (r : EReal) :=
  ⟨max 1 (k : ℝ), le_max_left _ _, max_one_natCast_eq k⟩

/-- For a natural number `k ≥ 1` the maximum of one and `k` is `k`. -/
theorem max_one_natCast_of_pos {k : ℕ} (hk : 1 ≤ k) :
    max (1 : EReal) ((k : ℝ) : EReal) = ((k : ℝ) : EReal) := by
  rw [max_one_natCast_eq, max_eq_right (by exact_mod_cast hk)]

/-- The same with the operands of `max` in the other order. -/
theorem max_natCast_one (k : ℕ) :
    ∃ r : ℝ, r ≠ 0 ∧ max ((k : ℝ) : EReal) (1 : EReal) = (r : EReal) := by
  rw [max_comm]; exact max_one_natCast k

/-- Zero plus a sum of ones over a finite set is the number of its elements. -/
theorem zero_add_sum_one_eq_card {ι : Type*} (s : Finset ι) :
    (0 : EReal) + ∑ _j ∈ s, (1 : EReal) = ((s.card : ℝ) : EReal) := by
  rw [zero_add, sum_one_eq_card]

/-- Dividing any extended real by a divisor that is a nonzero real is multiplying it by the quotient
    of one by that divisor. -/
theorem div_eq_mul_one_div_of_real {c : EReal} (hc : ∃ r : ℝ, r ≠ 0 ∧ c = (r : EReal)) (x : EReal) :
    Idealize.ShloMosaic.Ideal.div x c = x * Idealize.ShloMosaic.Ideal.div 1 c := by
  obtain ⟨r, hr, rfl⟩ := hc; exact div_eq_mul_one_div hr x

/-- The quotient of a finite extended real by a divisor that is a nonzero real is finite. -/
theorem IsReal.div_of_real {x c : EReal} (hx : IsReal x) (hc : ∃ r : ℝ, r ≠ 0 ∧ c = (r : EReal)) :
    IsReal (Idealize.ShloMosaic.Ideal.div x c) := by
  obtain ⟨r, hr, rfl⟩ := hc; exact hx.div hr

/-- Dividing by the maximum of one and a natural number is multiplying by the quotient of one by
    that maximum: a mean over a group of `k` elements, the empty group counted as one. -/
theorem div_max_one_eq_mul (k : ℕ) (x : EReal) :
    Idealize.ShloMosaic.Ideal.div x (max (1 : EReal) ((k : ℝ) : EReal))
      = x * Idealize.ShloMosaic.Ideal.div 1 (max (1 : EReal) ((k : ℝ) : EReal)) :=
  div_eq_mul_one_div_of_real (max_one_natCast k) x

/-- The quotient of a finite extended real by the maximum of one and a natural number is finite. -/
theorem IsReal.div_max_one {x : EReal} (hx : IsReal x) (k : ℕ) :
    IsReal (Idealize.ShloMosaic.Ideal.div x (Max.max (1 : EReal) ((k : ℝ) : EReal))) :=
  hx.div_of_real (max_one_natCast k)

/-! ## Regrouping a sum into tiles -/

/-- A sum over `a * b` consecutive indices is the sum over `a` tiles of the sums over the `b`
    consecutive indices of each tile: index `t * b + r` is position `r` of tile `t`. -/
theorem sum_tiles {M : Type*} [AddCommMonoid M] (a b : ℕ) (f : ℕ → M) :
    ∑ t : Fin a, ∑ r : Fin b, f (t.val * b + r.val) = ∑ i : Fin (a * b), f i.val := by
  rw [← Fintype.sum_prod_type' (f := fun (t : Fin a) (r : Fin b) => f (t.val * b + r.val))]
  refine Fintype.sum_equiv finProdFinEquiv _ _ fun x => ?_
  have hx : (finProdFinEquiv x).val = x.1.val * b + x.2.val := by
    show x.2.val + b * x.1.val = x.1.val * b + x.2.val
    rw [Nat.mul_comm, Nat.add_comm]
  rw [hx]

/-- The terms of a sum over `a * b` consecutive indices whose index lies in tile `t` (quotient by
    `b` equal to `t`) are the `b` terms at `t * b + r`. -/
theorem sum_filter_tile {M : Type*} [AddCommMonoid M] (a b t : ℕ) (ht : t < a) (f : ℕ → M) :
    ∑ i ∈ Finset.univ.filter (fun i : Fin (a * b) => i.val / b = t), f i.val
      = ∑ r : Fin b, f (t * b + r.val) := by
  have hlt : ∀ r : Fin b, t * b + r.val < a * b := fun r =>
    calc t * b + r.val < t * b + b := Nat.add_lt_add_left r.isLt _
      _ = (t + 1) * b := (Nat.succ_mul t b).symm
      _ ≤ a * b := Nat.mul_le_mul_right b ht
  symm
  refine Finset.sum_bij (fun r _ => (⟨t * b + r.val, hlt r⟩ : Fin (a * b))) ?_ ?_ ?_ ?_
  · intro r _
    have hb : 0 < b := Nat.lt_of_le_of_lt (Nat.zero_le _) r.isLt
    simp only [Finset.mem_filter, Finset.mem_univ, true_and]
    rw [Nat.add_comm, Nat.add_mul_div_right _ _ hb, Nat.div_eq_of_lt r.isLt, Nat.zero_add]
  · intro r _ r' _ h
    have h' : t * b + r.val = t * b + r'.val := congrArg Fin.val h
    exact Fin.ext (Nat.add_left_cancel h')
  · intro i hi
    simp only [Finset.mem_filter, Finset.mem_univ, true_and] at hi
    have hab : 0 < a * b := Nat.lt_of_le_of_lt (Nat.zero_le _) i.isLt
    have hb : 0 < b := Nat.pos_of_ne_zero fun h0 => by
      rw [h0, Nat.mul_zero] at hab; exact Nat.lt_irrefl _ hab
    refine ⟨⟨i.val % b, Nat.mod_lt _ hb⟩, Finset.mem_univ _, Fin.ext ?_⟩
    show t * b + i.val % b = i.val
    rw [← hi]; exact Nat.div_add_mod' i.val b
  · intro r _; rfl

/-! ## The variance identity -/

/-- On the reals: the mean of the squared deviations from the mean is the mean of the squares minus
    the square of the mean, `N` being the number of terms. -/
theorem real_variance {ι : Type*} [Fintype ι] (g : ι → ℝ) (N : ℝ) (hN : N ≠ 0)
    (hcard : (Fintype.card ι : ℝ) = N) :
    (∑ i, (g i - (∑ j, g j) / N) * (g i - (∑ j, g j) / N)) / N
      = (∑ i, g i * g i) / N - ((∑ j, g j) / N) * ((∑ j, g j) / N) := by
  set m : ℝ := (∑ j, g j) / N with hm
  have h1 : ∑ i, (g i - m) * (g i - m)
      = (∑ i, g i * g i) - 2 * m * (∑ i, g i) + N * (m * m) := by
    have h2 : ∀ i, (g i - m) * (g i - m) = g i * g i - 2 * m * g i + m * m := fun i => by ring
    simp only [h2, Finset.sum_add_distrib, Finset.sum_sub_distrib, ← Finset.mul_sum,
      Finset.sum_const, Finset.card_univ, nsmul_eq_mul, hcard]
    ring
  have hS : ∑ j, g j = m * N := by rw [hm]; field_simp
  rw [h1, hS]
  field_simp
  ring

/-- On the extended reals, through the ideal quotient: for finite `h i` and `N` the (nonzero) number
    of terms, with `μ = (Σ h) / N`, the quotient by `N` of the sum of the squared deviations
    `(h i - μ) * (h i - μ)` is the quotient by `N` of the sum of the squares minus `μ * μ`. -/
theorem variance_eq {ι : Type*} [Fintype ι] (h : ι → EReal) (hfin : ∀ i, IsReal (h i)) (N : ℝ)
    (hN : N ≠ 0) (hcard : (Fintype.card ι : ℝ) = N) :
    Idealize.ShloMosaic.Ideal.div
        (∑ i, (h i - Idealize.ShloMosaic.Ideal.div (∑ j, h j) (N : EReal))
          * (h i - Idealize.ShloMosaic.Ideal.div (∑ j, h j) (N : EReal))) (N : EReal)
      = Idealize.ShloMosaic.Ideal.div (∑ i, h i * h i) (N : EReal)
        - Idealize.ShloMosaic.Ideal.div (∑ j, h j) (N : EReal)
          * Idealize.ShloMosaic.Ideal.div (∑ j, h j) (N : EReal) := by
  obtain ⟨g, rfl⟩ : ∃ g : ι → ℝ, h = fun i => (g i : EReal) :=
    ⟨fun i => (hfin i).choose, funext fun i => (hfin i).choose_spec⟩
  dsimp only
  have hμ : Idealize.ShloMosaic.Ideal.div (∑ j, ((g j : ℝ) : EReal)) (N : EReal)
      = (((∑ j, g j) / N : ℝ) : EReal) := by
    rw [← coe_sum, div_coe_coe _ hN]
  rw [hμ]
  have h1 : ∑ i, (((g i : ℝ) : EReal) - (((∑ j, g j) / N : ℝ) : EReal))
        * (((g i : ℝ) : EReal) - (((∑ j, g j) / N : ℝ) : EReal))
      = ((∑ i, (g i - (∑ j, g j) / N) * (g i - (∑ j, g j) / N) : ℝ) : EReal) := by
    rw [coe_sum]; exact Finset.sum_congr rfl fun i _ => by rw [EReal.coe_mul, EReal.coe_sub]
  have h2 : ∑ i, ((g i : ℝ) : EReal) * ((g i : ℝ) : EReal) = ((∑ i, g i * g i : ℝ) : EReal) := by
    rw [coe_sum]; exact Finset.sum_congr rfl fun i _ => by rw [EReal.coe_mul]
  rw [h1, h2, div_coe_coe _ hN, div_coe_coe _ hN, ← EReal.coe_mul, ← EReal.coe_sub,
    real_variance g N hN hcard]

/-- The mean `(Σ h) / N` of finite extended reals, `N` a nonzero real, is finite. -/
theorem isReal_mean {ι : Type*} [Fintype ι] (h : ι → EReal) (hfin : ∀ i, IsReal (h i)) (N : ℝ)
    (hN : N ≠ 0) : IsReal (Idealize.ShloMosaic.Ideal.div (∑ j, h j) (N : EReal)) :=
  (IsReal.sum_univ hfin).div hN

/-- The mean of the squares minus the square of the mean, of finite extended reals, is finite. -/
theorem isReal_variance {ι : Type*} [Fintype ι] (h : ι → EReal) (hfin : ∀ i, IsReal (h i)) (N : ℝ)
    (hN : N ≠ 0) :
    IsReal (Idealize.ShloMosaic.Ideal.div (∑ i, h i * h i) (N : EReal)
        - Idealize.ShloMosaic.Ideal.div (∑ j, h j) (N : EReal)
          * Idealize.ShloMosaic.Ideal.div (∑ j, h j) (N : EReal)) :=
  ((IsReal.sum_univ fun i => (hfin i).mul (hfin i)).div hN).sub
    ((isReal_mean h hfin N hN).mul (isReal_mean h hfin N hN))

/-- The mean of the squared deviations from the mean, of finite extended reals, is finite. -/
theorem isReal_variance_centered {ι : Type*} [Fintype ι] (h : ι → EReal) (hfin : ∀ i, IsReal (h i))
    (N : ℝ) (hN : N ≠ 0) :
    IsReal (Idealize.ShloMosaic.Ideal.div
        (∑ i, (h i - Idealize.ShloMosaic.Ideal.div (∑ j, h j) (N : EReal))
          * (h i - Idealize.ShloMosaic.Ideal.div (∑ j, h j) (N : EReal))) (N : EReal)) :=
  (IsReal.sum_univ fun i =>
    ((hfin i).sub (isReal_mean h hfin N hN)).mul ((hfin i).sub (isReal_mean h hfin N hN))).div hN

/-- Regrouping into tiles with the total number of terms named: for `a * b = n`. -/
theorem sum_tiles_of_eq {M : Type*} [AddCommMonoid M] (a b n : ℕ) (hn : a * b = n) (f : ℕ → M) :
    ∑ t : Fin a, ∑ r : Fin b, f (t.val * b + r.val) = ∑ i : Fin n, f i.val := by
  subst hn; exact sum_tiles a b f

/-- The terms of one tile with the total number of terms named: for `a * b = n`. -/
theorem sum_filter_tile_of_eq {M : Type*} [AddCommMonoid M] (a b n t : ℕ) (hn : a * b = n)
    (ht : t < a) (f : ℕ → M) :
    ∑ i ∈ Finset.univ.filter (fun i : Fin n => i.val / b = t), f i.val
      = ∑ r : Fin b, f (t * b + r.val) := by
  subst hn; exact sum_filter_tile a b t ht f

/-! ## Statistics from per-tile partial sums -/

/-- The mean computed from `a` per-tile sums of `b` consecutive terms is the mean computed from the one
    sum over all `a * b` terms (each outer sum started from zero), whatever the divisor. -/
theorem tiled_mean_eq (a b : ℕ) (f : ℕ → EReal) (c : EReal) :
    Idealize.ShloMosaic.Ideal.div (0 + ∑ t : Fin a, ∑ r : Fin b, f (t.val * b + r.val)) c
      = Idealize.ShloMosaic.Ideal.div (0 + ∑ i : Fin (a * b), f i.val) c := by
  rw [sum_tiles]

/-- The variance computed from per-tile partial sums, as the mean of the squares minus the square of
    the mean, is the variance computed over all `a * b` terms at once as the mean of the squared
    deviations from the mean — for finite terms, `N = a * b` nonzero, each outer sum started from
    zero. -/
theorem tiled_variance_eq (a b : ℕ) (f : ℕ → EReal) (hfin : ∀ i : Fin (a * b), IsReal (f i.val))
    (N : ℝ) (hN : N ≠ 0) (hcard : ((a * b : ℕ) : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin (a * b),
            (f i.val - Idealize.ShloMosaic.Ideal.div (0 + ∑ j : Fin (a * b), f j.val) (N : EReal))
              * (f i.val - Idealize.ShloMosaic.Ideal.div (0 + ∑ j : Fin (a * b), f j.val) (N : EReal)))
          (N : EReal) := by
  have hsq := sum_tiles a b fun n => f n * f n
  rw [sum_tiles a b f, hsq]
  simp only [zero_add]
  exact (variance_eq (fun i : Fin (a * b) => f i.val) hfin N hN
    (by rw [Fintype.card_fin]; exact hcard)).symm

/-- The tiled mean with the total number of terms named: for `a * b = n`. -/
theorem tiled_mean_eq_of_eq (a b n : ℕ) (hn : a * b = n) (f : ℕ → EReal) (c : EReal) :
    Idealize.ShloMosaic.Ideal.div (0 + ∑ t : Fin a, ∑ r : Fin b, f (t.val * b + r.val)) c
      = Idealize.ShloMosaic.Ideal.div (0 + ∑ i : Fin n, f i.val) c := by
  subst hn; exact tiled_mean_eq a b f c

/-- The tiled variance with the total number of terms named: for `a * b = n` and `N = n` nonzero. -/
theorem tiled_variance_eq_of_eq (a b n : ℕ) (hn : a * b = n) (f : ℕ → EReal)
    (hfin : ∀ i : Fin n, IsReal (f i.val)) (N : ℝ) (hN : N ≠ 0) (hcard : (n : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin n,
            (f i.val - Idealize.ShloMosaic.Ideal.div (0 + ∑ j : Fin n, f j.val) (N : EReal))
              * (f i.val - Idealize.ShloMosaic.Ideal.div (0 + ∑ j : Fin n, f j.val) (N : EReal)))
          (N : EReal) := by
  subst hn; exact tiled_variance_eq a b f hfin N hN hcard

end Cert.LibERealStats
-- ==== Proof.ValueAttn.lean ====
/-
  The attention region's result array as one whole-array function of the arrays the region finds.

  Grid point t of the 64 is (batch, query block, key block) = (t / 32, (t / 16) % 2, t % 16). At t the body holds
  the 2048 query rows of its query block, the 256 key rows and 256 value rows of its key block, and the whole
  (transposed) output matrix. The accumulator is set to zero when the key block is 0 and then gains, at every point,
  for row r and channel d, the sum over the tile's 256 key positions j of poly(score(r, j)) * value(j, d), where
  score(r, j) is the query row against the key row scaled by the f32 word nearest one tenth. So after the point with
  key block kk it holds the sum over tiles 0 … kk, and after key block 15 the sum over all 4096 key positions: sixteen
  tiles of 256 added up in order from zero are the one sum over 4096 — regrouping a finite sum, which the extended
  reals allow without any finiteness. At that last point the output block is the accumulator against the output
  matrix, scaled, and it is written back; the four (batch, query block) blocks tile the result array. An entry reads
  only its own query row, so a 2048-row block in place of the whole array changes nothing.
-/
import proofs.«126650_j7679401525929_2_alg».proof.Proof.FrameI.Region1
import proofs.«126650_j7679401525929_2_alg».proof.Proof.PayloadsAt
import proofs.«126650_j7679401525929_2_alg».proof.Proof.LibERealStats
import proofs.«126650_j7679401525929_2_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.KernelIdeal.PayVal
open Idealize.ShloMosaic Idealize.ShloMosaic.TcCoe Idealize.ShloMosaic.ValueIdx
open Idealize.SL Idealize.SL.Sem
open Idealize.ShloMosaic.Pipeline (Dat)

/-! ## The mathematics, over plain arrays -/

/-- Key position k's contribution to entry (b, s, d): the polynomial weight of the scaled score of query row s
    against key row k, times the value row's channel d (zero beyond the 4096 positions). -/
def wterm (Q K W : FVec Ideal S2x4096x768 .bf16) (b : Fin 2) (s : Fin 4096) (d : Fin 768) (k : ℕ) : EReal :=
  if h : k < 4096 then
    Cert.Spec.poly ((∑ d' : Fin 768, Q (ix3 b s d') * K (ix3 b ⟨k, h⟩ d')) * Cert.Spec.tenth) * W (ix3 b ⟨k, h⟩ d)
  else 0

/-- Tile kk's contribution: its 256 key positions. -/
def tile (Q K W : FVec Ideal S2x4096x768 .bf16) (b : Fin 2) (s : Fin 4096) (d : Fin 768) (kk : ℕ) : EReal :=
  ∑ j : Fin 256, wterm Q K W b s d (kk * 256 + j.val)

/-- Sixteen tiles of 256, added up, are the sum over all 4096 key positions. -/
theorem sum_tiles16 (Q K W : FVec Ideal S2x4096x768 .bf16) (b : Fin 2) (s : Fin 4096) (d : Fin 768) :
    ∑ kk ∈ Finset.range 16, tile Q K W b s d kk = ∑ k : Fin 4096, wterm Q K W b s d k.val := by
  rw [Finset.sum_range]
  exact Cert.LibERealStats.sum_tiles_of_eq 16 256 4096 rfl (wterm Q K W b s d)

/-- The result as a whole-array function: the mixed values against the (transposed) output matrix, scaled. -/
def attnArr (Q K W : FVec Ideal S2x4096x768 .bf16) (Wt : FVec Ideal S768x768 .bf16) : FVec Ideal S2x4096x768 .f32 :=
  fun i => (∑ d : Fin 768, (∑ k : Fin 4096, wterm Q K W (i 0) (i 1) d k.val) * Wt (ix2 d (i 2))) * Cert.Spec.tenth

/-! ## The region's blocks -/

variable (V : (c : Dev nD) → (b : Ref sig .tc) → Buf (Elt Ideal) ((c : Thread nD τ).loc b))

theorem N1 : cfg1.N = 64 := N_1

/-- The printed index maps in closed form, decided over the 64 points. -/
theorem idx1_facts : ∀ t : Fin cfg1.N,
    win1_0.index t = ![t.val / 32, (t.val / 16) % 2, 0] ∧ win1_1.index t = ![t.val / 32, t.val % 16, 0]
    ∧ win1_2.index t = ![t.val / 32, t.val % 16, 0] ∧ win1_3.index t = ![0, 0]
    ∧ win1_4.index t = ![t.val / 32, (t.val / 16) % 2, 0] :=
  (by decide +kernel : ∀ t : Fin grid1.N, _)

/-- Every block of the result array is written back by some point. -/
theorem idx1_onto : ∀ (q0 : Fin 2) (q1 : Fin 2), ∃ t : Fin cfg1.N, (cfg1.win 4).flush t = true ∧ win1_4.index t = ![q0.val, q1.val, 0] :=
  (by decide +kernel : ∀ (q0 : Fin 2) (q1 : Fin 2), ∃ t : Fin grid1.N, win1_4.flush t = true ∧ win1_4.index t = ![q0.val, q1.val, 0])

/-- The batch, the query row and the key row a point's blocks stand for. -/
def bOf (n : ℕ) (hn : n < 64) : Fin 2 := ⟨n / 32, by omega⟩
def sOf (n : ℕ) (r : Fin 2048) : Fin 4096 := ⟨((n / 16) % 2) * 2048 + r.val, by have := r.isLt; omega⟩
def kOf (n : ℕ) (j : Fin 256) : Fin 4096 := ⟨(n % 16) * 256 + j.val, by have := j.isLt; omega⟩

/-- The query block's row r is row sOf of the batch. -/
theorem read_q (c : Dev nD) (t : Fin cfg1.N) (r : Fin 2048) (d : Fin 768) :
    iblk1 V c 0 t (ix3 (0 : Fin 1) r d) = V c (Pipeline.arrRef spec1 0) (ix3 (bOf t.val (N1 ▸ t.isLt)) (sOf t.val r) d) := by
  obtain ⟨e0, e1, e2, e3, e4⟩ := idx1_facts t
  show V c (Pipeline.arrRef spec1 0) (((cfg1.win 0).blk t).view.emb (ix3 (0 : Fin 1) r d)) = _
  refine congrArg (V c (Pipeline.arrRef spec1 0)) ?_
  funext a; apply Fin.ext
  match a with
  | ⟨0, _⟩ => show win1_0.index t (0 : Fin 3) * 1 + 1 * (0 : ℕ) = t.val / 32; rw [e0]; show t.val / 32 * 1 + 1 * 0 = _; omega
  | ⟨1, _⟩ => show win1_0.index t (1 : Fin 3) * 2048 + 1 * r.val = ((t.val / 16) % 2) * 2048 + r.val; rw [e0]; show (t.val / 16) % 2 * 2048 + 1 * r.val = _; omega
  | ⟨2, _⟩ => show win1_0.index t (2 : Fin 3) * 768 + 1 * d.val = d.val; rw [e0]; show 0 * 768 + 1 * d.val = _; omega

/-- The key block's row j is row kOf of the batch. -/
theorem read_k (c : Dev nD) (t : Fin cfg1.N) (j : Fin 256) (d : Fin 768) :
    iblk1 V c 1 t (ix3 (0 : Fin 1) j d) = V c (Pipeline.arrRef spec1 1) (ix3 (bOf t.val (N1 ▸ t.isLt)) (kOf t.val j) d) := by
  obtain ⟨e0, e1, e2, e3, e4⟩ := idx1_facts t
  show V c (Pipeline.arrRef spec1 1) (((cfg1.win 1).blk t).view.emb (ix3 (0 : Fin 1) j d)) = _
  refine congrArg (V c (Pipeline.arrRef spec1 1)) ?_
  funext a; apply Fin.ext
  match a with
  | ⟨0, _⟩ => show win1_1.index t (0 : Fin 3) * 1 + 1 * (0 : ℕ) = t.val / 32; rw [e1]; show t.val / 32 * 1 + 1 * 0 = _; omega
  | ⟨1, _⟩ => show win1_1.index t (1 : Fin 3) * 256 + 1 * j.val = (t.val % 16) * 256 + j.val; rw [e1]; show t.val % 16 * 256 + 1 * j.val = _; omega
  | ⟨2, _⟩ => show win1_1.index t (2 : Fin 3) * 768 + 1 * d.val = d.val; rw [e1]; show 0 * 768 + 1 * d.val = _; omega

/-- The value block's row j likewise. -/
theorem read_v (c : Dev nD) (t : Fin cfg1.N) (j : Fin 256) (d : Fin 768) :
    iblk1 V c 2 t (ix3 (0 : Fin 1) j d) = V c (Pipeline.arrRef spec1 2) (ix3 (bOf t.val (N1 ▸ t.isLt)) (kOf t.val j) d) := by
  obtain ⟨e0, e1, e2, e3, e4⟩ := idx1_facts t
  show V c (Pipeline.arrRef spec1 2) (((cfg1.win 2).blk t).view.emb (ix3 (0 : Fin 1) j d)) = _
  refine congrArg (V c (Pipeline.arrRef spec1 2)) ?_
  funext a; apply Fin.ext
  match a with
  | ⟨0, _⟩ => show win1_2.index t (0 : Fin 3) * 1 + 1 * (0 : ℕ) = t.val / 32; rw [e2]; show t.val / 32 * 1 + 1 * 0 = _; omega
  | ⟨1, _⟩ => show win1_2.index t (1 : Fin 3) * 256 + 1 * j.val = (t.val % 16) * 256 + j.val; rw [e2]; show t.val % 16 * 256 + 1 * j.val = _; omega
  | ⟨2, _⟩ => show win1_2.index t (2 : Fin 3) * 768 + 1 * d.val = d.val; rw [e2]; show 0 * 768 + 1 * d.val = _; omega

/-- The output matrix's block is the whole matrix. -/
theorem read_w (c : Dev nD) (t : Fin cfg1.N) (d e : Fin 768) :
    iblk1 V c 3 t (ix2 d e) = V c (Pipeline.arrRef spec1 3) (ix2 d e) := by
  obtain ⟨e0, e1, e2, e3, e4⟩ := idx1_facts t
  show V c (Pipeline.arrRef spec1 3) (((cfg1.win 3).blk t).view.emb (ix2 d e)) = _
  refine congrArg (V c (Pipeline.arrRef spec1 3)) ?_
  funext a; apply Fin.ext
  match a with
  | ⟨0, _⟩ => show win1_3.index t (0 : Fin 2) * 768 + 1 * d.val = d.val; rw [e3]; show 0 * 768 + 1 * d.val = _; omega
  | ⟨1, _⟩ => show win1_3.index t (1 : Fin 2) * 768 + 1 * e.val = e.val; rw [e3]; show 0 * 768 + 1 * e.val = _; omega

/-- What one point adds to the accumulator's entry (r, d) is its tile's contribution (stated over the three blocks as
    plain vectors `q`, `k`, `v`, which the point's blocks are). -/
theorem tile_of_blocks (c : Dev nD) (t : Fin cfg1.N) (r : Fin 2048) (d : Fin 768)
    (q : Vec Ideal S1x2048x768 .bf16) (k v : Vec Ideal S1x256x768 .bf16)
    (hq : q = iblk1 V c 0 t) (hk : k = iblk1 V c 1 t) (hv : v = iblk1 V c 2 t) :
    (∑ j : Fin 256, Cert.Spec.poly ((∑ d' : Fin 768, q (ix3 (0 : Fin 1) r d') * k (ix3 (0 : Fin 1) j d')) * Cert.Spec.tenth)
        * v (ix3 (0 : Fin 1) j d))
      = tile (V c (Pipeline.arrRef spec1 0)) (V c (Pipeline.arrRef spec1 1)) (V c (Pipeline.arrRef spec1 2))
          (bOf t.val (N1 ▸ t.isLt)) (sOf t.val r) d (t.val % 16) := by
  subst hq; subst hk; subst hv
  unfold tile wterm
  refine Finset.sum_congr rfl fun j _ => ?_
  have hj : t.val % 16 * 256 + j.val < 4096 := by have := j.isLt; omega
  rw [dif_pos hj]
  simp only [read_q, read_k, read_v]
  rfl

/-! ## The accumulator, point by point -/

/-- After the point at position n the accumulator's entry (r, d) is the sum of the tiles 0 … n % 16 of its sweep. -/
theorem acc_inv (c : Dev nD) : ∀ (n : ℕ) (hn : n < cfg1.N) (r : Fin 2048) (d : Fin 768),
    (outsAt1 V c n hn).2 (ix2 r d)
      = ∑ kk ∈ Finset.range (n % 16 + 1), tile (V c (Pipeline.arrRef spec1 0)) (V c (Pipeline.arrRef spec1 1)) (V c (Pipeline.arrRef spec1 2))
          (bOf n (N1 ▸ hn)) (sOf n r) d kk := by
  intro n
  induction n with
  | zero =>
    intro hn r d
    rw [acc_first V c ⟨0, hn⟩ rfl]
    refine (acc_step_at _ _ _ _ r d).trans ?_
    rw [acc_zero_at, zero_add]
    refine (tile_of_blocks V c ⟨0, hn⟩ r d _ _ _ rfl rfl rfl).trans ?_
    simp only [Nat.zero_mod, zero_add, Finset.sum_range_one]
  | succ n ih =>
    intro hn r d
    have hN : n + 1 < 64 := N1 ▸ hn
    by_cases h : (n + 1) % 16 = 0
    · rw [acc_first V c ⟨n + 1, hn⟩ h]
      refine (acc_step_at _ _ _ _ r d).trans ?_
      rw [acc_zero_at, zero_add]
      refine (tile_of_blocks V c ⟨n + 1, hn⟩ r d _ _ _ rfl rfl rfl).trans ?_
      show tile _ _ _ _ _ d ((n + 1) % 16) = ∑ kk ∈ Finset.range ((n + 1) % 16 + 1), _
      rw [h]
      simp only [zero_add, Finset.sum_range_one]
    · rw [acc_later V c ⟨n + 1, hn⟩ h]
      refine (acc_step_at _ _ _ _ r d).trans ?_
      have ih' := ih (Nat.lt_of_succ_lt hn) r d
      have eb : bOf n (N1 ▸ Nat.lt_of_succ_lt hn) = bOf (n + 1) (N1 ▸ hn) := Fin.ext (by show n / 32 = (n + 1) / 32; omega)
      have es : sOf n r = sOf (n + 1) r := Fin.ext (by show (n / 16) % 2 * 2048 + r.val = ((n + 1) / 16) % 2 * 2048 + r.val; omega)
      have ek : n % 16 + 1 = (n + 1) % 16 := by omega
      rw [eb, es, ek] at ih'
      rw [Finset.sum_range_succ]
      refine congrArg₂ (· + ·) ?_ (tile_of_blocks V c ⟨n + 1, hn⟩ r d _ _ _ rfl rfl rfl)
      exact ih'

/-! ## What a last point writes back, the cover, the array -/

theorem hz3a : (![0, 0, 0] : Fin 3 → Nat) = fun _ => 0 := funext fun a => by fin_cases a <;> rfl

/-- At the last key block the output block is block t of the whole-array function. -/
theorem flushed4_attn (c : Dev nD) (t : Fin cfg1.N) (hl : t.val % 16 = 15) :
    (dat1 V c).flushed 4 t = ((cfg1.win 4).blk t).view.read (Elt Ideal)
      (attnArr (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4, out_eq]
  obtain ⟨e0, e1, e2, e3, e4⟩ := idx1_facts t
  funext j
  obtain ⟨z, r, e, rfl⟩ : ∃ (z : Fin 1) (r : Fin 2048) (e : Fin 768), j = ix3 z r e := ⟨j 0, j 1, j 2, eq_ix3 j⟩
  obtain rfl : z = 0 := Subsingleton.elim _ _
  refine (out_proj_at _ _ r e).trans ?_
  show _ = attnArr _ _ _ _ (((cfg1.win 4).blk t).view.emb (ix3 (0 : Fin 1) r e))
  have hemb : ((cfg1.win 4).blk t).view.emb (ix3 (0 : Fin 1) r e) = ix3 (bOf t.val (N1 ▸ t.isLt)) (sOf t.val r) e := by
    funext a; apply Fin.ext
    match a with
    | ⟨0, _⟩ => show win1_4.index t (0 : Fin 3) * 1 + 1 * (0 : ℕ) = t.val / 32; rw [e4]; show t.val / 32 * 1 + 1 * 0 = _; omega
    | ⟨1, _⟩ => show win1_4.index t (1 : Fin 3) * 2048 + 1 * r.val = ((t.val / 16) % 2) * 2048 + r.val; rw [e4]; show (t.val / 16) % 2 * 2048 + 1 * r.val = _; omega
    | ⟨2, _⟩ => show win1_4.index t (2 : Fin 3) * 768 + 1 * e.val = e.val; rw [e4]; show 0 * 768 + 1 * e.val = _; omega
  rw [hemb]
  unfold attnArr
  refine congrArg (· * Cert.Spec.tenth) ?_
  refine Finset.sum_congr rfl fun d _ => ?_
  rw [acc_inv V c t.val t.isLt r d, read_w, hl, sum_tiles16]

/-- An index of the result array is in point t's block iff each coordinate is in the block's range on its axis. -/
theorem mem_blk4a (t : Fin cfg1.N) (i : S2x4096x768.Idx) :
    i ∈ ((cfg1.win 4).blk t).view.set ↔ ∀ a : Fin 3, win1_4.index t a * S1x2048x768.size a ≤ (i a).val ∧ (i a).val < win1_4.index t a * S1x2048x768.size a + S1x2048x768.size a := by
  show i ∈ ((View.whole (Pipeline.arrRef spec1 4)).slice (win1_4.rect t)).set ↔ _
  rw [View.set_slice_whole, Rect.mem_set_unit]
  exact Iff.rfl

/-- Every entry of the result array lies in a block that some last point writes back. -/
theorem cover4a (i : S2x4096x768.Idx) : ∃ t : Fin cfg1.N, (cfg1.win 4).flush t = true ∧ i ∈ ((cfg1.win 4).blk t).view.set := by
  have hi0 : (i 0).val < 2 := (i 0).isLt
  have hi1 : (i 1).val < 4096 := (i 1).isLt
  have hi2 : (i 2).val < 768 := (i 2).isLt
  obtain ⟨t, hf, ht⟩ := idx1_onto ⟨(i 0).val, hi0⟩ ⟨(i 1).val / 2048, by omega⟩
  have q0 : win1_4.index t (0 : Fin 3) = (i 0).val := congrFun ht 0
  have q1 : win1_4.index t (1 : Fin 3) = (i 1).val / 2048 := congrFun ht 1
  have q2 : win1_4.index t (2 : Fin 3) = 0 := congrFun ht 2
  refine ⟨t, hf, ?_⟩
  rw [mem_blk4a]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 2048 ≤ (i 1).val ∧ (i 1).val < win1_4.index t (1 : Fin 3) * 2048 + 2048; omega
  | ⟨2, _⟩ => show win1_4.index t (2 : Fin 3) * 768 ≤ (i 2).val ∧ (i 2).val < win1_4.index t (2 : Fin 3) * 768 + 768; omega

/-- The result array after the region. -/
theorem final_attn (c : Dev nD) :
    (dat1 V c).arrAt 4 cfg1.N
      = attnArr (V c (Pipeline.arrRef spec1 0)) (V c (Pipeline.arrRef spec1 1)) (V c (Pipeline.arrRef spec1 2)) (V c (Pipeline.arrRef spec1 3)) :=
  (dat1 V c).arrAt_eq_of_cover 4 _ (fun t hf => flushed4_attn V c t ((flush1_4 t).mp hf)) cover4a

end Cert.KernelIdeal.Hand

end
-- ==== Proof.HostPrefix.lean ====
/-
  The weight matrices as the kernels find them. Before the first kernel the host transposes each of the four f32
  weight matrices [out, in] and narrows it to bf16; at the ideal values the narrowing is the identity, so the array
  the kernels read holds, at (d, e), the argument's entry (e, d).
-/
import proofs.«126650_j7679401525929_2_alg».proof.Proof.Gen.KernelIdeal.Launch
import Idealize.ShloMosaic.Lib.ValueIdx
import Idealize.ShloMosaic.Lib.Pipeline.Value
import Idealize.ShloMosaic.Lib.ValueLayout

noncomputable section

namespace Cert.KernelIdeal.PayVal

open Cert.KernelIdeal Cert.KernelIdeal.Gen Idealize.ShloMosaic Idealize.ShloMosaic.ValueIdx Idealize.ShloMosaic.TcCoe
  Idealize.SL.Sem

/-- A transposed and narrowed matrix at (d, e) is the matrix at (e, d). -/
theorem narrowT_at (W : FVec Ideal S768x768 .f32) (d e : Fin 768) :
    (truncf .bf16 (transpose S768x768 [1, 0] W transposes_S768x768_S768x768_1_0) bitsLt_bf16_f32 : FVec Ideal S768x768 .bf16) (ix2 d e)
      = W (ix2 e d) :=
  transpose_ix2_apply W _ d e

/-- The query weights as the first kernel reads them: the first argument matrix transposed. -/
theorem host_v1 (m : (ℓ : Loc nD τ sig) → Buf (Elt Ideal) ℓ) (c : Dev nD) (d e : Fin 768) :
    (StableHlo.after (hostOps0 (F := Ideal)) (fun b => m (c, b)) (Proc.devRef .tc main_v1) : FVec Ideal S768x768 .bf16) (ix2 d e)
      = (m ((c : Thread nD τ).loc main_arg1) : FVec Ideal S768x768 .f32) (ix2 e d) := by
  have h : @Eq (FVec Ideal S768x768 .bf16) (StableHlo.after (hostOps0 (F := Ideal)) (fun b => m (c, b)) (Proc.devRef .tc main_v1))
      (truncf (F := Ideal) .bf16 (transpose S768x768 [1, 0] (m ((c : Thread nD τ).loc main_arg1) : FVec Ideal S768x768 .f32)
          transposes_S768x768_S768x768_1_0) bitsLt_bf16_f32) := by
    after_results
  rw [h]
  exact narrowT_at _ d e

/-- The key weights: the second argument matrix transposed. -/
theorem host_v3 (m : (ℓ : Loc nD τ sig) → Buf (Elt Ideal) ℓ) (c : Dev nD) (d e : Fin 768) :
    (StableHlo.after (hostOps0 (F := Ideal)) (fun b => m (c, b)) (Proc.devRef .tc main_v3) : FVec Ideal S768x768 .bf16) (ix2 d e)
      = (m ((c : Thread nD τ).loc main_arg2) : FVec Ideal S768x768 .f32) (ix2 e d) := by
  have h : @Eq (FVec Ideal S768x768 .bf16) (StableHlo.after (hostOps0 (F := Ideal)) (fun b => m (c, b)) (Proc.devRef .tc main_v3))
      (truncf (F := Ideal) .bf16 (transpose S768x768 [1, 0] (m ((c : Thread nD τ).loc main_arg2) : FVec Ideal S768x768 .f32)
          transposes_S768x768_S768x768_1_0) bitsLt_bf16_f32) := by
    after_results
  rw [h]
  exact narrowT_at _ d e

/-- The value weights: the third argument matrix transposed. -/
theorem host_v5 (m : (ℓ : Loc nD τ sig) → Buf (Elt Ideal) ℓ) (c : Dev nD) (d e : Fin 768) :
    (StableHlo.after (hostOps0 (F := Ideal)) (fun b => m (c, b)) (Proc.devRef .tc main_v5) : FVec Ideal S768x768 .bf16) (ix2 d e)
      = (m ((c : Thread nD τ).loc main_arg3) : FVec Ideal S768x768 .f32) (ix2 e d) := by
  have h : @Eq (FVec Ideal S768x768 .bf16) (StableHlo.after (hostOps0 (F := Ideal)) (fun b => m (c, b)) (Proc.devRef .tc main_v5))
      (truncf (F := Ideal) .bf16 (transpose S768x768 [1, 0] (m ((c : Thread nD τ).loc main_arg3) : FVec Ideal S768x768 .f32)
          transposes_S768x768_S768x768_1_0) bitsLt_bf16_f32) := by
    after_results
  rw [h]
  exact narrowT_at _ d e

/-- The output weights as the second kernel reads them: the fourth argument matrix transposed. -/
theorem host_v7 (m : (ℓ : Loc nD τ sig) → Buf (Elt Ideal) ℓ) (c : Dev nD) (d e : Fin 768) :
    (StableHlo.after (hostOps0 (F := Ideal)) (fun b => m (c, b)) (Proc.devRef .tc main_v7) : FVec Ideal S768x768 .bf16) (ix2 d e)
      = (m ((c : Thread nD τ).loc main_arg4) : FVec Ideal S768x768 .f32) (ix2 e d) := by
  have h : @Eq (FVec Ideal S768x768 .bf16) (StableHlo.after (hostOps0 (F := Ideal)) (fun b => m (c, b)) (Proc.devRef .tc main_v7))
      (truncf (F := Ideal) .bf16 (transpose S768x768 [1, 0] (m ((c : Thread nD τ).loc main_arg4) : FVec Ideal S768x768 .f32)
          transposes_S768x768_S768x768_1_0) bitsLt_bf16_f32) := by
    after_results
  rw [h]
  exact narrowT_at _ d e

end Cert.KernelIdeal.PayVal

end
-- ==== Proof.Bridge.lean ====
/-
  The idealized kernel's result array is the specification's function of the five argument arrays.

  The attention region finds, in its three activation inputs, what the projection region left: entry (b, s, e) of the
  first is the row (b, s) of x against column e of the transposed first matrix, scaled — that is row e of the matrix
  itself, the specification's query; likewise the key; the third is the unscaled value. Its fourth input is the
  transposed output matrix, untouched by the projection region. Substituting these into the attention region's
  whole-array function gives the specification term for term.
-/
import proofs.«126650_j7679401525929_2_alg».proof.Proof.FrameI.Run
import proofs.«126650_j7679401525929_2_alg».proof.Proof.ValueQKV
import proofs.«126650_j7679401525929_2_alg».proof.Proof.ValueAttn
import proofs.«126650_j7679401525929_2_alg».proof.Proof.HostPrefix
import proofs.«126650_j7679401525929_2_alg».proof.Proof.Spec

set_option maxRecDepth 16384

noncomputable section

open scoped BigOperators

namespace Cert.KernelIdeal.Hand

open Cert.KernelIdeal Cert.KernelIdeal.Gen Cert.KernelIdeal.PayVal
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-- The projection region reads x as launched. -/
theorem U1_x (c : Dev nD) : U1 m c main_arg0 = m ((c : Thread nD τ).loc main_arg0) := W1_arg m c main_arg0 (by decide)

/-- The query array the attention region finds, at an entry. -/
theorem found_q (c : Dev nD) (b : Fin 2) (s : Fin 4096) (e : Fin 768) :
    @Eq EReal (U2 m c (Pipeline.arrRef spec1 0) (ix3 b s e))
      (Cert.Spec.qry (m ((c : Thread nD τ).loc main_arg0)) (m ((c : Thread nD τ).loc main_arg1)) b s e) := by
  have h : U2 m c (Pipeline.arrRef spec1 0) = projS (U1 m c main_arg0) (U1 m c main_v1) :=
    (W2_arr m c 4).trans (final4 (U1 m) c)
  rw [h, U1_x]
  unfold projS Cert.Spec.qry Cert.Spec.lin
  refine congrArg (fun z : EReal => z * Cert.Spec.tenth) ?_
  refine Finset.sum_congr rfl fun d _ => ?_
  exact congrArg (HMul.hMul (α := EReal) (β := EReal) (γ := EReal) _) (host_v1 m c d e)

/-- The key array, at an entry. -/
theorem found_k (c : Dev nD) (b : Fin 2) (s : Fin 4096) (e : Fin 768) :
    @Eq EReal (U2 m c (Pipeline.arrRef spec1 1) (ix3 b s e))
      (Cert.Spec.key (m ((c : Thread nD τ).loc main_arg0)) (m ((c : Thread nD τ).loc main_arg2)) b s e) := by
  have h : U2 m c (Pipeline.arrRef spec1 1) = projS (U1 m c main_arg0) (U1 m c main_v3) :=
    (W2_arr m c 5).trans (final5 (U1 m) c)
  rw [h, U1_x]
  unfold projS Cert.Spec.key Cert.Spec.lin
  refine congrArg (fun z : EReal => z * Cert.Spec.tenth) ?_
  refine Finset.sum_congr rfl fun d _ => ?_
  exact congrArg (HMul.hMul (α := EReal) (β := EReal) (γ := EReal) _) (host_v3 m c d e)

/-- The value array, at an entry. -/
theorem found_v (c : Dev nD) (b : Fin 2) (s : Fin 4096) (e : Fin 768) :
    @Eq EReal (U2 m c (Pipeline.arrRef spec1 2) (ix3 b s e))
      (Cert.Spec.lin (m ((c : Thread nD τ).loc main_arg0)) (m ((c : Thread nD τ).loc main_arg3)) b s e) := by
  have h : U2 m c (Pipeline.arrRef spec1 2) = projU (U1 m c main_arg0) (U1 m c main_v5) :=
    (W2_arr m c 6).trans (final6 (U1 m) c)
  rw [h, U1_x]
  unfold projU Cert.Spec.lin
  refine Finset.sum_congr (M := EReal) rfl fun d _ => ?_
  exact congrArg (HMul.hMul (α := EReal) (β := EReal) (γ := EReal) _) (host_v5 m c d e)

/-- The transposed output matrix, untouched by the projection region, at an entry. -/
theorem found_w (c : Dev nD) (d e : Fin 768) :
    @Eq EReal (U2 m c (Pipeline.arrRef spec1 3) (ix2 d e)) ((m ((c : Thread nD τ).loc main_arg4) : FVec Ideal S768x768 .f32) (ix2 e d)) := by
  have h : U2 m c (Pipeline.arrRef spec1 3) = U1 m c main_v7 := W2_of_ne m c main_v7 (by decide)
  rw [h]
  exact host_v7 m c d e

/-- THE KERNEL'S VALUE: the result array after the run is the specification's function of the arguments. -/
theorem kernel_value (c : Dev nD) :
    (dat1 (U2 m) c).arrAt 4 cfg1.N
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) := by
  rw [final_attn (U2 m) c]
  funext i
  obtain ⟨b, s, e, rfl⟩ : ∃ (b : Fin 2) (s : Fin 4096) (e : Fin 768), i = ix3 b s e := ⟨i 0, i 1, i 2, eq_ix3 i⟩
  rw [Cert.Spec.G_apply]
  show (∑ d : Fin 768, (∑ k : Fin 4096, wterm _ _ _ b s d k.val) * U2 m c (Pipeline.arrRef spec1 3) (ix2 d e)) * Cert.Spec.tenth = _
  refine congrArg (· * Cert.Spec.tenth) ?_
  refine Finset.sum_congr rfl fun d _ => ?_
  rw [found_w]
  refine congrArg (· * _) ?_
  unfold Cert.Spec.mix
  refine Finset.sum_congr rfl fun k _ => ?_
  unfold wterm
  rw [dif_pos k.isLt]
  unfold Cert.Spec.score
  refine congrArg₂ (fun u v : EReal => Cert.Spec.poly (u * Cert.Spec.tenth) * v) ?_ (found_v m c b k d)
  refine Finset.sum_congr rfl fun d' _ => ?_
  exact congrArg₂ (HMul.hMul (α := EReal) (β := EReal) (γ := EReal)) (found_q m c b s d') (found_k m c b k d')

end Cert.KernelIdeal.Hand

end
-- ==== Proof.RefIsSpec.lean ====
/-
  The reference's value, entry by entry: its last host operation read back through the generated read-at-an-index
  lemmas is the specification's function of the five argument arrays.

  Each stage of the reference is read at an index built from coordinates (b, s, e): the three plain products with a
  weight matrix are the specification's linear layer, two of them scaled; the batched product of queries against
  keys, scaled, is the score; the polynomial a * a + a of it is the weight; the batched product of the weights with
  the values is the mix; the last product with the output matrix, scaled, is the result. Every step only identifies
  the generated index functions with the coordinate constructors and unfolds the specification's definitions: no
  law of arithmetic is used.
-/
import proofs.«126650_j7679401525929_2_alg».proof.Proof.Gen.ReferenceIdeal.Run
import proofs.«126650_j7679401525929_2_alg».proof.Proof.Gen.ReferenceIdeal.Read
import proofs.«126650_j7679401525929_2_alg».proof.Proof.Spec

noncomputable section

open scoped BigOperators

namespace Cert.ReferenceIdeal.RefValue

open Cert.ReferenceIdeal Cert.ReferenceIdeal.Gen Cert.ReferenceIdeal.Read Idealize.ShloMosaic
  Idealize.ShloMosaic.ValueIdx Cert.Spec

/-! ## The generated index functions at an index given by coordinates -/

/-- A plain product reads its left operand along row (b, s) … -/
theorem lidx_v0 (b : Fin 2) (s : Fin 4096) (e d : Fin 768) : lidx_main_v0 (ix3 b s e) d = ix3 b s d :=
  funext fun a => by match a with | ⟨0, _⟩ => rfl | ⟨1, _⟩ => rfl | ⟨2, _⟩ => rfl
/-- … and the weight matrix along row e. -/
theorem ridx_v0 (b : Fin 2) (s : Fin 4096) (e d : Fin 768) : ridx_main_v0 (ix3 b s e) d = ix2 e d :=
  funext fun a => by match a with | ⟨0, _⟩ => rfl | ⟨1, _⟩ => rfl
theorem lidx_v3 (b : Fin 2) (s : Fin 4096) (e d : Fin 768) : lidx_main_v3 (ix3 b s e) d = ix3 b s d :=
  funext fun a => by match a with | ⟨0, _⟩ => rfl | ⟨1, _⟩ => rfl | ⟨2, _⟩ => rfl
theorem ridx_v3 (b : Fin 2) (s : Fin 4096) (e d : Fin 768) : ridx_main_v3 (ix3 b s e) d = ix2 e d :=
  funext fun a => by match a with | ⟨0, _⟩ => rfl | ⟨1, _⟩ => rfl
theorem lidx_v6 (b : Fin 2) (s : Fin 4096) (e d : Fin 768) : lidx_main_v6 (ix3 b s e) d = ix3 b s d :=
  funext fun a => by match a with | ⟨0, _⟩ => rfl | ⟨1, _⟩ => rfl | ⟨2, _⟩ => rfl
theorem ridx_v6 (b : Fin 2) (s : Fin 4096) (e d : Fin 768) : ridx_main_v6 (ix3 b s e) d = ix2 e d :=
  funext fun a => by match a with | ⟨0, _⟩ => rfl | ⟨1, _⟩ => rfl
/-- The batched product of queries against keys reads query row (b, s) … -/
theorem lidx_v7 (b : Fin 2) (s k : Fin 4096) (d : Fin 768) : lidx_main_v7 (ix3 b s k) d = ix3 b s d :=
  funext fun a => by match a with | ⟨0, _⟩ => rfl | ⟨1, _⟩ => rfl | ⟨2, _⟩ => rfl
/-- … and key row (b, k). -/
theorem ridx_v7 (b : Fin 2) (s k : Fin 4096) (d : Fin 768) : ridx_main_v7 (ix3 b s k) d = ix3 b k d :=
  funext fun a => by match a with | ⟨0, _⟩ => rfl | ⟨1, _⟩ => rfl | ⟨2, _⟩ => rfl
/-- The batched product of the weights with the values reads weight row (b, s) … -/
theorem lidx_v12 (b : Fin 2) (s : Fin 4096) (d : Fin 768) (k : Fin 4096) : lidx_main_v12 (ix3 b s d) k = ix3 b s k :=
  funext fun a => by match a with | ⟨0, _⟩ => rfl | ⟨1, _⟩ => rfl | ⟨2, _⟩ => rfl
/-- … and value column (b, ·, d). -/
theorem ridx_v12 (b : Fin 2) (s : Fin 4096) (d : Fin 768) (k : Fin 4096) : ridx_main_v12 (ix3 b s d) k = ix3 b k d :=
  funext fun a => by match a with | ⟨0, _⟩ => rfl | ⟨1, _⟩ => rfl | ⟨2, _⟩ => rfl
theorem lidx_v13 (b : Fin 2) (s : Fin 4096) (e d : Fin 768) : lidx_main_v13 (ix3 b s e) d = ix3 b s d :=
  funext fun a => by match a with | ⟨0, _⟩ => rfl | ⟨1, _⟩ => rfl | ⟨2, _⟩ => rfl
theorem ridx_v13 (b : Fin 2) (s : Fin 4096) (e d : Fin 768) : ridx_main_v13 (ix3 b s e) d = ix2 e d :=
  funext fun a => by match a with | ⟨0, _⟩ => rfl | ⟨1, _⟩ => rfl

/-! ## The stages at an index -/

/-- The first product with a weight matrix is the linear layer … -/
theorem v0_at (x : Act) (W : Mat) (b : Fin 2) (s : Fin 4096) (e : Fin 768) :
    val_main_v0 (F := Ideal) x W (ix3 b s e) = lin x W b s e := by
  rw [val_main_v0_apply]
  unfold lin
  refine Finset.sum_congr rfl fun d _ => ?_
  rw [lidx_v0, ridx_v0]
/-- … and scaled it is the queries. -/
theorem v2_at (x : Act) (Wq : Mat) (b : Fin 2) (s : Fin 4096) (e : Fin 768) :
    val_main_v2 (F := Ideal) x Wq (ix3 b s e) = qry x Wq b s e := by
  rw [val_main_v2_apply, v0_at, val_main_v1_apply, val_main_cst_apply]
  rfl
theorem v3_at (x : Act) (W : Mat) (b : Fin 2) (s : Fin 4096) (e : Fin 768) :
    val_main_v3 (F := Ideal) x W (ix3 b s e) = lin x W b s e := by
  rw [val_main_v3_apply]
  unfold lin
  refine Finset.sum_congr rfl fun d _ => ?_
  rw [lidx_v3, ridx_v3]
/-- The second product, scaled, is the keys. -/
theorem v5_at (x : Act) (Wk : Mat) (b : Fin 2) (s : Fin 4096) (e : Fin 768) :
    val_main_v5 (F := Ideal) x Wk (ix3 b s e) = key x Wk b s e := by
  rw [val_main_v5_apply, v3_at, val_main_v4_apply, val_main_cst_0_apply]
  rfl
/-- The third product, unscaled, is the values. -/
theorem v6_at (x : Act) (W : Mat) (b : Fin 2) (s : Fin 4096) (e : Fin 768) :
    val_main_v6 (F := Ideal) x W (ix3 b s e) = lin x W b s e := by
  rw [val_main_v6_apply]
  unfold lin
  refine Finset.sum_congr rfl fun d _ => ?_
  rw [lidx_v6, ridx_v6]
/-- Queries against keys, scaled: the score. -/
theorem v9_at (x : Act) (Wq Wk : Mat) (b : Fin 2) (s k : Fin 4096) :
    val_main_v9 (F := Ideal) x Wq Wk (ix3 b s k) = score x Wq Wk b s k := by
  rw [val_main_v9_apply, val_main_v7_apply, val_main_v8_apply, val_main_cst_1_apply]
  unfold score
  have h : ∀ d : Fin 768, val_main_v2 (F := Ideal) x Wq (lidx_main_v7 (ix3 b s k) d)
      * val_main_v5 (F := Ideal) x Wk (ridx_main_v7 (ix3 b s k) d) = qry x Wq b s d * key x Wk b k d := fun d => by
    rw [lidx_v7, ridx_v7, v2_at, v5_at]
  rw [Finset.sum_congr rfl fun d _ => h d]
  rfl
/-- The polynomial weight of the score. -/
theorem v11_at (x : Act) (Wq Wk : Mat) (b : Fin 2) (s k : Fin 4096) :
    val_main_v11 (F := Ideal) x Wq Wk (ix3 b s k) = poly (score x Wq Wk b s k) := by
  rw [val_main_v11_apply, val_main_v10_apply, v9_at]
  rfl
/-- The weights against the values: the mix over all key positions. -/
theorem v12_at (x : Act) (Wq Wk Wv : Mat) (b : Fin 2) (s : Fin 4096) (d : Fin 768) :
    val_main_v12 (F := Ideal) x Wq Wk Wv (ix3 b s d) = mix x Wq Wk Wv b s d := by
  rw [val_main_v12_apply]
  unfold mix
  refine Finset.sum_congr rfl fun k _ => ?_
  rw [lidx_v12, ridx_v12, v11_at, v6_at]

/-- THE REFERENCE IS THE SPECIFICATION: its last stage, as a function of the five argument arrays in the order the
    run states them (the activations, then the query, key, value and output matrices), is the function G. -/
theorem ref_is_G (x : Act) (Wq Wk Wv Wo : Mat) :
    val_main_v15 (F := Ideal) x Wq Wk Wv Wo = G x Wq Wk Wv Wo := by
  funext i
  obtain ⟨b, s, e, rfl⟩ : ∃ (b : Fin 2) (s : Fin 4096) (e : Fin 768), i = ix3 b s e := ⟨i 0, i 1, i 2, eq_ix3 i⟩
  rw [G_apply, val_main_v15_apply, val_main_v13_apply, val_main_v14_apply, val_main_cst_2_apply]
  have h : ∀ d : Fin 768, val_main_v12 (F := Ideal) x Wq Wk Wv (lidx_main_v13 (ix3 b s e) d)
      * Wo (ridx_main_v13 (ix3 b s e) d) = mix x Wq Wk Wv b s d * Wo (ix2 e d) := fun d => by
    rw [lidx_v13, ridx_v13, v12_at]
  rw [Finset.sum_congr rfl fun d _ => h d]
  rfl

end Cert.ReferenceIdeal.RefValue

end
-- ==== Proof.lean ====
/-
  The certificate of the fused polynomial-attention kernel against its jnp reference.

  Both programs compute, for x of shape [2, 4096, 768] and four 768 x 768 matrices stored [out, in],
      result = ((poly(q kᵀ c) v) Woᵀ) c,   q = (x Wqᵀ) c,  k = (x Wkᵀ) c,  v = x Wvᵀ,   poly a = a a + a,
  with c the binary value of the f32 word nearest one tenth, the same word in both programs (Proof/Spec.lean states
  the function entry by entry). The reference does it with whole-array products. The kernel transposes and narrows the
  four matrices on the host, computes q, k, v in a first region, 1024 rows at a time, and in a second region walks
  the 4096 key positions 256 at a time for each block of 2048 query rows, adding each tile's poly(score) v into an
  accumulator that starts at zero, and projects the accumulator at the last tile. Over the extended reals a narrowing
  of the float format is the identity and a sum taken tile after tile from zero is the sum — regrouping a finite sum
  needs no finiteness —, so the two results agree entry by entry; the precondition is never opened.

  The frames (both readings of the kernel terminate, fault nowhere and leave the five arguments as launched) follow
  the buffers' contents from the launch through the host stretch and the two regions (Proof/FrameB, Proof/FrameI);
  the reference's frame is its generated run with the result dropped. The ideal pass rewrote nothing, so the
  idealization claim has no conjunct.
-/
import proofs.«126650_j7679401525929_2_alg».proof.Defs
import proofs.«126650_j7679401525929_2_alg».proof.Proof.Gen.Kernel
import proofs.«126650_j7679401525929_2_alg».proof.Proof.Gen.KernelIdeal
import proofs.«126650_j7679401525929_2_alg».proof.Proof.Gen.ReferenceIdeal
import proofs.«126650_j7679401525929_2_alg».proof.Proof.Gen.Pre_finite_inputs
import proofs.«126650_j7679401525929_2_alg».proof.Proof.Gen.ReferenceIdeal.Run
import proofs.«126650_j7679401525929_2_alg».proof.Proof.Gen.ReferenceIdeal.Read
import proofs.«126650_j7679401525929_2_alg».proof.Proof.FrameB.Run
import proofs.«126650_j7679401525929_2_alg».proof.Proof.FrameI.Run
import proofs.«126650_j7679401525929_2_alg».proof.Proof.Bridge
import proofs.«126650_j7679401525929_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Hand.frame_run m ρ

/-- So does its reading over the extended reals. -/
theorem frame_ki : Cert.frame_KernelIdeal := fun m ρ _ => Cert.KernelIdeal.Hand.frame_run m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Over the extended reals both programs end with the specification's function of the arguments in their result
    arrays: the kernel by following its two regions, the reference by reading its host operations one at a time. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Hand.kernel_value m c), (h c).2⟩)
      (Cert.KernelIdeal.Hand.value_run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v15_eq, Cert.ReferenceIdeal.RefValue.ref_is_G,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
